-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg8 : FVec F S32x16 .f32) (main_arg9 : FVec F S16 .f32) (main_arg10 : FVec F S16x16 .f32) (main_arg11 : FVec F S16 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg10
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg5 : FVec F S64 .f32) (main_arg6 : FVec F S64x32 .f32) (main_arg7 : FVec F S32 .f32) (main_arg8 : FVec F S32x16 .f32) (main_arg9 : FVec F S16 .f32) (main_arg10 : FVec F S16x16 .f32) (main_arg11 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S64x32 .f32) (main_arg7 : FVec F S32 .f32) (main_arg8 : FVec F S32x16 .f32) (main_arg9 : FVec F S16 .f32) (main_arg10 : FVec F S16x16 .f32) (main_arg11 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S50000x32 : Shape := ⟨2, ![50000, 32]⟩
abbrev S5000x32 : Shape := ⟨2, ![5000, 32]⟩
abbrev S800000x32 : Shape := ⟨2, ![800000, 32]⟩
abbrev S1x32 : Shape := ⟨2, ![1, 32]⟩
abbrev S50000x16 : Shape := ⟨2, ![50000, 16]⟩
abbrev S5000x16 : Shape := ⟨2, ![5000, 16]⟩
abbrev S800000x16 : Shape := ⟨2, ![800000, 16]⟩
abbrev S1x16 : Shape := ⟨2, ![1, 16]⟩

abbrev nBuf : Space → Nat
  | .hbm => 122
  | .vmem => 70
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x64, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S_, .f32⟩
  | .hbm, ⟨69, _⟩ => ⟨S50000x64, .f32⟩
  | .hbm, ⟨70, _⟩ => ⟨S800000x1, .i32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x32, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x32, .f32⟩
  | .hbm, ⟨84, _⟩ => ⟨S_, .f32⟩
  | .hbm, ⟨85, _⟩ => ⟨S50000x32, .f32⟩
  | .hbm, ⟨86, _⟩ => ⟨S800000x1, .i32⟩
  | .hbm, ⟨87, _⟩ => ⟨S50000x32, .f32⟩
  | .hbm, ⟨88, _⟩ => ⟨S1x32, .f32⟩
  | .hbm, ⟨89, _⟩ => ⟨S50000x32, .f32⟩
  | .hbm, ⟨90, _⟩ => ⟨S50000x16, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x16, .f32⟩
  | .hbm, ⟨100, _⟩ => ⟨S_, .f32⟩
  | .hbm, ⟨101, _⟩ => ⟨S50000x16, .f32⟩
  | .hbm, ⟨102, _⟩ => ⟨S800000x1, .i32⟩
  | .hbm, ⟨103, _⟩ => ⟨S50000x16, .f32⟩
  | .hbm, ⟨104, _⟩ => ⟨S1x16, .f32⟩
  | .hbm, ⟨105, _⟩ => ⟨S50000x16, .f32⟩
  | .hbm, ⟨106, _⟩ => ⟨S50000x16, .f32⟩
  | .hbm, ⟨107, _⟩ => ⟨S_, .i32⟩
  | .hbm, ⟨108, _⟩ => ⟨S800000, .i32⟩
  | .hbm, ⟨109, _⟩ => ⟨S800000, .i1⟩
  | .hbm, ⟨110, _⟩ => ⟨S_, .i32⟩
  | .hbm, ⟨111, _⟩ => ⟨S800000, .i32⟩
  | .hbm, ⟨112, _⟩ => ⟨S800000, .i32⟩
  | .hbm, ⟨113, _⟩ => ⟨S800000, .i32⟩
  | .hbm, ⟨114, _⟩ => ⟨S800000x1, .i32⟩
  | .hbm, ⟨115, _⟩ => ⟨S800000x16, .f32⟩
  | .hbm, ⟨116, _⟩ => ⟨S_, .f32⟩
  | .hbm, ⟨117, _⟩ => ⟨S50000x16, .f32⟩
  | .hbm, ⟨118, _⟩ => ⟨S800000x1, .i32⟩
  | .hbm, ⟨119, _⟩ => ⟨S50000x16, .f32⟩
  | .hbm, ⟨120, _⟩ => ⟨S1x16, .f32⟩
  | .hbm, ⟨121, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x1, .f32⟩
  | .local _ .vmem, ⟨18, _⟩ => ⟨S5000x1, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x32, .f32⟩
  | .local _ .vmem, ⟨31, _⟩ => ⟨S5000x1, .f32⟩
  | .local _ .vmem, ⟨32, _⟩ => ⟨S5000x1, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x1, .f32⟩
  | .local _ .vmem, ⟨38, _⟩ => ⟨S5000x1, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S32x16, .f32⟩
  | .local _ .vmem, ⟨45, _⟩ => ⟨S5000x1, .f32⟩
  | .local _ .vmem, ⟨46, _⟩ => ⟨S5000x1, .f32⟩
  | .local _ .vmem, ⟨47, _⟩ => ⟨S5000x16, .f32⟩
  | .local _ .vmem, ⟨48, _⟩ => ⟨S5000x16, .f32⟩
  | .local _ .vmem, ⟨49, _⟩ => ⟨S5000x16, .f32⟩
  | .local _ .vmem, ⟨50, _⟩ => ⟨S5000x16, .f32⟩
  | .local _ .vmem, ⟨51, _⟩ => ⟨S5000x1, .f32⟩
  | .local _ .vmem, ⟨52, _⟩ => ⟨S5000x1, .f32⟩
  | .local _ .vmem, ⟨53, _⟩ => ⟨S1x16, .f32⟩
  | .local _ .vmem, ⟨54, _⟩ => ⟨S5000x16, .f32⟩
  | .local _ .vmem, ⟨55, _⟩ => ⟨S5000x16, .f32⟩
  | .local _ .vmem, ⟨56, _⟩ => ⟨S5000x16, .f32⟩
  | .local _ .vmem, ⟨57, _⟩ => ⟨S5000x16, .f32⟩
  | .local _ .vmem, ⟨58, _⟩ => ⟨S16x16, .f32⟩
  | .local _ .vmem, ⟨59, _⟩ => ⟨S5000x1, .f32⟩
  | .local _ .vmem, ⟨60, _⟩ => ⟨S5000x1, .f32⟩
  | .local _ .vmem, ⟨61, _⟩ => ⟨S5000x16, .f32⟩
  | .local _ .vmem, ⟨62, _⟩ => ⟨S5000x16, .f32⟩
  | .local _ .vmem, ⟨63, _⟩ => ⟨S5000x16, .f32⟩
  | .local _ .vmem, ⟨64, _⟩ => ⟨S5000x16, .f32⟩
  | .local _ .vmem, ⟨65, _⟩ => ⟨S5000x1, .f32⟩
  | .local _ .vmem, ⟨66, _⟩ => ⟨S5000x1, .f32⟩
  | .local _ .vmem, ⟨67, _⟩ => ⟨S1x16, .f32⟩
  | .local _ .vmem, ⟨68, _⟩ => ⟨S5000x16, .f32⟩
  | .local _ .vmem, ⟨69, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_7 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_c_12 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_c_15 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_19 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc8_stg3_0 : Ref sig .tc := ⟨.vmem, 61, rfl⟩
abbrev cc8_stg3_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg3_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc8_sem3_0 : DmaSem sig := 61
abbrev cc8_sem3_1 : DmaSem sig := 62
abbrev cc9_sem0_0 : DmaSem sig := 63
abbrev cc9_sem0_1 : DmaSem sig := 64
abbrev cc9_sem1_0 : DmaSem sig := 65
abbrev cc9_sem1_1 : DmaSem sig := 66
abbrev cc9_sem2_0 : DmaSem sig := 67
abbrev cc9_sem3_0 : DmaSem sig := 68
abbrev cc9_sem3_1 : DmaSem sig := 69

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x16 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S16x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x16 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x16 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x16 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x32_S5000x32_1_0_0_1_n_n_wf : DotDims.WF S5000x64 S64x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S5000x32_S32x16_S5000x16_1_0_0_1_n_n_wf : DotDims.WF S5000x32 S32x16 S5000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S5000x16_S16x16_S5000x16_1_0_0_1_n_n_wf : DotDims.WF S5000x16 S16x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S50000x32.size a
  hwx4_3 : ∀ i : grid4.Coords, EltTy.bits .f32 = 32 ∨ (Rect.block (s := S50000x32) S5000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S50000x32.size a
  hwx5_0 : ∀ i : grid5.Coords, EltTy.bits .f32 = 32 ∨ (Rect.block (s := S50000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x32.size a ≤ S50000x32.size a
  hwx5_3 : ∀ i : grid5.Coords, EltTy.bits .f32 = 32 ∨ (Rect.block (s := S50000x32) S5000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S50000x32.size a
  hwx6_0 : ∀ i : grid6.Coords, EltTy.bits .f32 = 32 ∨ (Rect.block (s := S50000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x16.size a ≤ S32x16.size a
  hwx6_1 : ∀ i : grid6.Coords, EltTy.bits .f32 = 32 ∨ (Rect.block (s := S32x16) S32x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S50000x1.size a
  hwx6_2 : ∀ i : grid6.Coords, EltTy.bits .f32 = 32 ∨ (Rect.block (s := S50000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x16.size a ≤ S50000x16.size a
  hwx6_3 : ∀ i : grid6.Coords, EltTy.bits .f32 = 32 ∨ (Rect.block (s := S50000x16) S5000x16.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x16.size a ≤ S50000x16.size a
  hwx7_0 : ∀ i : grid7.Coords, EltTy.bits .f32 = 32 ∨ (Rect.block (s := S50000x16) S5000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x16.size a ≤ S1x16.size a
  hwx7_2 : ∀ i : grid7.Coords, EltTy.bits .f32 = 32 ∨ (Rect.block (s := S1x16) S1x16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x16.size a ≤ S50000x16.size a
  hwx7_3 : ∀ i : grid7.Coords, EltTy.bits .f32 = 32 ∨ (Rect.block (s := S50000x16) S5000x16.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x16.size a ≤ S50000x16.size a
  hwx8_0 : ∀ i : grid8.Coords, EltTy.bits .f32 = 32 ∨ (Rect.block (s := S50000x16) S5000x16.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S16x16.size a ≤ S16x16.size a
  hwx8_1 : ∀ i : grid8.Coords, EltTy.bits .f32 = 32 ∨ (Rect.block (s := S16x16) S16x16.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S50000x1.size a
  hwx8_2 : ∀ i : grid8.Coords, EltTy.bits .f32 = 32 ∨ (Rect.block (s := S50000x1) S5000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x16.size a ≤ S50000x16.size a
  hwx8_3 : ∀ i : grid8.Coords, EltTy.bits .f32 = 32 ∨ (Rect.block (s := S50000x16) S5000x16.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x16.size a ≤ S50000x16.size a
  hwx9_0 : ∀ i : grid9.Coords, EltTy.bits .f32 = 32 ∨ (Rect.block (s := S50000x16) S5000x16.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S50000x1.size a
  hwx9_1 : ∀ i : grid9.Coords, EltTy.bits .f32 = 32 ∨ (Rect.block (s := S50000x1) S5000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x16.size a ≤ S1x16.size a
  hwx9_2 : ∀ i : grid9.Coords, EltTy.bits .f32 = 32 ∨ (Rect.block (s := S1x16) S1x16.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x16.size a ≤ S50000x16.size a
  hwx9_3 : ∀ i : grid9.Coords, EltTy.bits .f32 = 32 ∨ (Rect.block (s := S50000x16) S5000x16.size (cc9_transform_3 i) (hinb9_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v44) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v45) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v55) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S5000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v57) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S32x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v15) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v58) S5000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v68) S5000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v18) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v69) S1x16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v70) S5000x16.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v70) S5000x16.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S16x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v15) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v71) S5000x16.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v81) S5000x16.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v18) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v82) S1x16.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v83) S5000x16.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x16 : Shape := ⟨2, ![16, 16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S50000x32 : Shape := ⟨2, ![50000, 32]⟩
abbrev S800000x32 : Shape := ⟨2, ![800000, 32]⟩
abbrev S1x32 : Shape := ⟨2, ![1, 32]⟩
abbrev S50000x16 : Shape := ⟨2, ![50000, 16]⟩
abbrev S800000x16 : Shape := ⟨2, ![800000, 16]⟩
abbrev S1x16 : Shape := ⟨2, ![1, 16]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S64x32, .f32⟩
  | 7 => ⟨S32, .f32⟩
  | 8 => ⟨S32x16, .f32⟩
  | 9 => ⟨S16, .f32⟩
  | 10 => ⟨S16x16, .f32⟩
  | 11 => ⟨S16, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S_, .f32⟩
  | 24 => ⟨S50000, .f32⟩
  | 25 => ⟨S50000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .f32⟩
  | 37 => ⟨S50000x1, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S50000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x64, .f32⟩
  | 67 => ⟨S50000x64, .f32⟩
  | 68 => ⟨S50000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S_, .f32⟩
  | 79 => ⟨S50000x64, .f32⟩
  | 80 => ⟨S800000x1, .i32⟩
  | 81 => ⟨S50000x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S50000x32, .f32⟩
  | 91 => ⟨S50000x32, .f32⟩
  | 92 => ⟨S50000x32, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x32, .f32⟩
  | 102 => ⟨S_, .f32⟩
  | 103 => ⟨S50000x32, .f32⟩
  | 104 => ⟨S800000x1, .i32⟩
  | 105 => ⟨S50000x32, .f32⟩
  | 106 => ⟨S50000x32, .f32⟩
  | 107 => ⟨S50000x32, .f32⟩
  | 108 => ⟨S1x32, .f32⟩
  | 109 => ⟨S50000x32, .f32⟩
  | 110 => ⟨S50000x32, .f32⟩
  | 111 => ⟨S_, .f32⟩
  | 112 => ⟨S50000x32, .f32⟩
  | 113 => ⟨S50000x32, .f32⟩
  | 114 => ⟨S50000x16, .f32⟩
  | 115 => ⟨S50000x16, .f32⟩
  | 116 => ⟨S50000x16, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x16, .f32⟩
  | 126 => ⟨S_, .f32⟩
  | 127 => ⟨S50000x16, .f32⟩
  | _ => ⟨S50000x128, .f32⟩

abbrev hbmTy0_1 (i : Nat) : BufTy := match i % 128 with
  | 0 => ⟨S800000x1, .i32⟩
  | 1 => ⟨S50000x16, .f32⟩
  | 2 => ⟨S50000x16, .f32⟩
  | 3 => ⟨S50000x16, .f32⟩
  | 4 => ⟨S1x16, .f32⟩
  | 5 => ⟨S50000x16, .f32⟩
  | 6 => ⟨S50000x16, .f32⟩
  | 7 => ⟨S_, .f32⟩
  | 8 => ⟨S50000x16, .f32⟩
  | 9 => ⟨S50000x16, .f32⟩
  | 10 => ⟨S50000x16, .f32⟩
  | 11 => ⟨S50000x16, .f32⟩
  | 12 => ⟨S50000x16, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x16, .f32⟩
  | 22 => ⟨S_, .f32⟩
  | 23 => ⟨S50000x16, .f32⟩
  | 24 => ⟨S800000x1, .i32⟩
  | 25 => ⟨S50000x16, .f32⟩
  | 26 => ⟨S50000x16, .f32⟩
  | 27 => ⟨S50000x16, .f32⟩
  | 28 => ⟨S1x16, .f32⟩
  | 29 => ⟨S50000x16, .f32⟩
  | 30 => ⟨S50000x16, .f32⟩
  | 31 => ⟨S_, .f32⟩
  | 32 => ⟨S50000x16, .f32⟩
  | 33 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call2_cst : Ref sig .tc := ⟨.hbm, 63, rfl⟩
abbrev main_call2_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_8 : Ref sig .tc := ⟨.hbm, 69, rfl⟩
abbrev main_v41 : Ref sig .tc := ⟨.hbm, 70, rfl⟩
abbrev main_v42 : Ref sig .tc := ⟨.hbm, 71, rfl⟩
abbrev main_c_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call3_cst : Ref sig .tc := ⟨.hbm, 87, rfl⟩
abbrev main_call3_v0 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_11 : Ref sig .tc := ⟨.hbm, 93, rfl⟩
abbrev main_v60 : Ref sig .tc := ⟨.hbm, 94, rfl⟩
abbrev main_v61 : Ref sig .tc := ⟨.hbm, 95, rfl⟩
abbrev main_c_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_call4_cst : Ref sig .tc := ⟨.hbm, 111, rfl⟩
abbrev main_call4_v0 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_14 : Ref sig .tc := ⟨.hbm, 117, rfl⟩
abbrev main_v79 : Ref sig .tc := ⟨.hbm, 118, rfl⟩
abbrev main_v80 : Ref sig .tc := ⟨.hbm, 119, rfl⟩
abbrev main_c_15 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_16 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_call5_cst : Ref sig .tc := ⟨.hbm, 135, rfl⟩
abbrev main_call5_v0 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_17 : Ref sig .tc := ⟨.hbm, 141, rfl⟩
abbrev main_v98 : Ref sig .tc := ⟨.hbm, 142, rfl⟩
abbrev main_v99 : Ref sig .tc := ⟨.hbm, 143, rfl⟩
abbrev main_c_18 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_19 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_call6_cst : Ref sig .tc := ⟨.hbm, 159, rfl⟩
abbrev main_call6_v0 : Ref sig .tc := ⟨.hbm, 160, rfl⟩
abbrev main_v113 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x1_S50000x32_0_1 : S50000x1.BroadcastsInDim S50000x32 (![0, 1] : Fin 2 → Fin S50000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S50000x1_S50000x16_0_1 : S50000x1.BroadcastsInDim S50000x16 (![0, 1] : Fin 2 → Fin S50000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S50000x32_S32x16_S50000x16_1_0_0_1_n_n_wf : DotDims.WF S50000x32 S32x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x16_S16x16_S50000x16_1_0_0_1_n_n_wf : DotDims.WF S50000x16 S16x16 S50000x16 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x32_S32x16_S50000x16_1_0_0_1_n_n : DotDims S50000x32 S32x16 S50000x16 where
  lhsContracting := [1]
  rhsContracting := [0]
  lhsNonContracting := [0]
  rhsNonContracting := [1]
  lhsBatch := []
  rhsBatch := []
  wf := dot_S50000x32_S32x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x16_S16x16_S50000x16_1_0_0_1_n_n : DotDims S50000x16 S16x16 S50000x16 where
  lhsContracting := [1]
  rhsContracting := [0]
  lhsNonContracting := [0]
  rhsNonContracting := [1]
  lhsBatch := []
  rhsBatch := []
  wf := dot_S50000x16_S16x16_S50000x16_1_0_0_1_n_n_wf

class Facts : Prop extends Facts₀ where

variable [Facts]
-- ==== Proof.KernelRun.lean ====
/-
  The idealized kernel's run, with its result named.

  The program is ten kernel regions among stretches of host operations. Its generated frame certificate follows the
  contents of every buffer from the launch to the return as a fold `W0, W1, …, W20` (a host stretch applies its
  operations; a region leaves its arrays at what its write-backs leave and every other buffer alone) and concludes,
  from "every buffer ends at `W20`", that the argument arrays end unchanged. The same run, read at the result buffer
  as well, says that the result ends at `W20` of its buffer: that is all this module adds.
-/
import proofs.«131837_j18528488915141_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v83) = W20 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v83 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c)⟩)

end Cert.KernelIdeal.Result

end
-- ==== Proof.Carried.lean ====
/-
  Buffers nobody writes keep their contents.

  Between two boundaries of the kernel program's run a buffer changes only if a host operation of a stretch between
  them writes it or a region between them has it as its output array. The edge rows (written once, by the first
  stretch), the two degree-scaling columns (written once, before the first region) and the argument arrays (never
  written) are read again and again by later stretches and regions; each lemma here walks one of them back from a
  boundary where it is read to the boundary where it was last written: step by step, a stretch by "no operation
  of it writes this buffer", a region by "this buffer is not its output" (an input window's array is left as found).
-/
import proofs.«131837_j18528488915141_1_alg».proof.Proof.Gen.KernelIdeal.Frame

set_option maxRecDepth 16384

noncomputable section

namespace Cert.KernelIdeal.Carried

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- No operation of the named stretch writes the buffer at hand: each operation writes one buffer, another one. -/
macro "keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem v1_1_6 : W6 m ρ c (Proc.devRef .tc main_v1) = W1 m ρ c (Proc.devRef .tc main_v1) :=
  calc W6 m ρ c (Proc.devRef .tc main_v1)
    _ = W5 m ρ c (Proc.devRef .tc main_v1) := by exact W6_of_ne m ρ c main_v1 (by decide)
    _ = W4 m ρ c (Proc.devRef .tc main_v1) := by keeps hostOps0_4
    _ = W3 m ρ c (Proc.devRef .tc main_v1) := by keeps hostOps0_3
    _ = W2 m ρ c (Proc.devRef .tc main_v1) := by keeps hostOps0_2
    _ = W1 m ρ c (Proc.devRef .tc main_v1) := by keeps hostOps0_1

theorem v1_6_9 : W9 m ρ c (Proc.devRef .tc main_v1) = W6 m ρ c (Proc.devRef .tc main_v1) :=
  calc W9 m ρ c (Proc.devRef .tc main_v1)
    _ = W8 m ρ c (Proc.devRef .tc main_v1) := by exact W9_of_ne m ρ c main_v1 (by decide)
    _ = W7 m ρ c (Proc.devRef .tc main_v1) := by exact W8_of_ne m ρ c main_v1 (by decide)
    _ = W6 m ρ c (Proc.devRef .tc main_v1) := by keeps hostOps1

theorem v1_9_12 : W12 m ρ c (Proc.devRef .tc main_v1) = W9 m ρ c (Proc.devRef .tc main_v1) :=
  calc W12 m ρ c (Proc.devRef .tc main_v1)
    _ = W11 m ρ c (Proc.devRef .tc main_v1) := by exact W12_of_ne m ρ c main_v1 (by decide)
    _ = W10 m ρ c (Proc.devRef .tc main_v1) := by exact W11_of_ne m ρ c main_v1 (by decide)
    _ = W9 m ρ c (Proc.devRef .tc main_v1) := by keeps hostOps3

theorem v1_12_15 : W15 m ρ c (Proc.devRef .tc main_v1) = W12 m ρ c (Proc.devRef .tc main_v1) :=
  calc W15 m ρ c (Proc.devRef .tc main_v1)
    _ = W14 m ρ c (Proc.devRef .tc main_v1) := by exact W15_of_ne m ρ c main_v1 (by decide)
    _ = W13 m ρ c (Proc.devRef .tc main_v1) := by exact W14_of_ne m ρ c main_v1 (by decide)
    _ = W12 m ρ c (Proc.devRef .tc main_v1) := by keeps hostOps5

theorem v1_15_18 : W18 m ρ c (Proc.devRef .tc main_v1) = W15 m ρ c (Proc.devRef .tc main_v1) :=
  calc W18 m ρ c (Proc.devRef .tc main_v1)
    _ = W17 m ρ c (Proc.devRef .tc main_v1) := by exact W18_of_ne m ρ c main_v1 (by decide)
    _ = W16 m ρ c (Proc.devRef .tc main_v1) := by exact W17_of_ne m ρ c main_v1 (by decide)
    _ = W15 m ρ c (Proc.devRef .tc main_v1) := by keeps hostOps7

theorem v3_1_6 : W6 m ρ c (Proc.devRef .tc main_v3) = W1 m ρ c (Proc.devRef .tc main_v3) :=
  calc W6 m ρ c (Proc.devRef .tc main_v3)
    _ = W5 m ρ c (Proc.devRef .tc main_v3) := by exact W6_of_ne m ρ c main_v3 (by decide)
    _ = W4 m ρ c (Proc.devRef .tc main_v3) := by keeps hostOps0_4
    _ = W3 m ρ c (Proc.devRef .tc main_v3) := by keeps hostOps0_3
    _ = W2 m ρ c (Proc.devRef .tc main_v3) := by keeps hostOps0_2
    _ = W1 m ρ c (Proc.devRef .tc main_v3) := by keeps hostOps0_1

theorem v3_6_9 : W9 m ρ c (Proc.devRef .tc main_v3) = W6 m ρ c (Proc.devRef .tc main_v3) :=
  calc W9 m ρ c (Proc.devRef .tc main_v3)
    _ = W8 m ρ c (Proc.devRef .tc main_v3) := by exact W9_of_ne m ρ c main_v3 (by decide)
    _ = W7 m ρ c (Proc.devRef .tc main_v3) := by exact W8_of_ne m ρ c main_v3 (by decide)
    _ = W6 m ρ c (Proc.devRef .tc main_v3) := by keeps hostOps1

theorem v3_9_12 : W12 m ρ c (Proc.devRef .tc main_v3) = W9 m ρ c (Proc.devRef .tc main_v3) :=
  calc W12 m ρ c (Proc.devRef .tc main_v3)
    _ = W11 m ρ c (Proc.devRef .tc main_v3) := by exact W12_of_ne m ρ c main_v3 (by decide)
    _ = W10 m ρ c (Proc.devRef .tc main_v3) := by exact W11_of_ne m ρ c main_v3 (by decide)
    _ = W9 m ρ c (Proc.devRef .tc main_v3) := by keeps hostOps3

theorem v3_12_15 : W15 m ρ c (Proc.devRef .tc main_v3) = W12 m ρ c (Proc.devRef .tc main_v3) :=
  calc W15 m ρ c (Proc.devRef .tc main_v3)
    _ = W14 m ρ c (Proc.devRef .tc main_v3) := by exact W15_of_ne m ρ c main_v3 (by decide)
    _ = W13 m ρ c (Proc.devRef .tc main_v3) := by exact W14_of_ne m ρ c main_v3 (by decide)
    _ = W12 m ρ c (Proc.devRef .tc main_v3) := by keeps hostOps5

theorem v3_15_18 : W18 m ρ c (Proc.devRef .tc main_v3) = W15 m ρ c (Proc.devRef .tc main_v3) :=
  calc W18 m ρ c (Proc.devRef .tc main_v3)
    _ = W17 m ρ c (Proc.devRef .tc main_v3) := by exact W18_of_ne m ρ c main_v3 (by decide)
    _ = W16 m ρ c (Proc.devRef .tc main_v3) := by exact W17_of_ne m ρ c main_v3 (by decide)
    _ = W15 m ρ c (Proc.devRef .tc main_v3) := by keeps hostOps7

theorem v15_5_8 : W8 m ρ c (Proc.devRef .tc main_v15) = W5 m ρ c (Proc.devRef .tc main_v15) :=
  calc W8 m ρ c (Proc.devRef .tc main_v15)
    _ = W7 m ρ c (Proc.devRef .tc main_v15) := by exact W8_of_ne m ρ c main_v15 (by decide)
    _ = W6 m ρ c (Proc.devRef .tc main_v15) := by keeps hostOps1
    _ = W5 m ρ c (Proc.devRef .tc main_v15) := by exact (W6_arr m ρ c 2).trans (((dat0 (V5 m ρ) c).arrAt_in 2 rfl _).trans (A_eq0 (V5 m ρ) c 2))

theorem v15_8_11 : W11 m ρ c (Proc.devRef .tc main_v15) = W8 m ρ c (Proc.devRef .tc main_v15) :=
  calc W11 m ρ c (Proc.devRef .tc main_v15)
    _ = W10 m ρ c (Proc.devRef .tc main_v15) := by exact W11_of_ne m ρ c main_v15 (by decide)
    _ = W9 m ρ c (Proc.devRef .tc main_v15) := by keeps hostOps3
    _ = W8 m ρ c (Proc.devRef .tc main_v15) := by exact (W9_arr m ρ c 2).trans (((dat2 (V8 m ρ) c).arrAt_in 2 rfl _).trans (A_eq2 (V8 m ρ) c 2))

theorem v15_11_14 : W14 m ρ c (Proc.devRef .tc main_v15) = W11 m ρ c (Proc.devRef .tc main_v15) :=
  calc W14 m ρ c (Proc.devRef .tc main_v15)
    _ = W13 m ρ c (Proc.devRef .tc main_v15) := by exact W14_of_ne m ρ c main_v15 (by decide)
    _ = W12 m ρ c (Proc.devRef .tc main_v15) := by keeps hostOps5
    _ = W11 m ρ c (Proc.devRef .tc main_v15) := by exact (W12_arr m ρ c 2).trans (((dat4 (V11 m ρ) c).arrAt_in 2 rfl _).trans (A_eq4 (V11 m ρ) c 2))

theorem v15_14_17 : W17 m ρ c (Proc.devRef .tc main_v15) = W14 m ρ c (Proc.devRef .tc main_v15) :=
  calc W17 m ρ c (Proc.devRef .tc main_v15)
    _ = W16 m ρ c (Proc.devRef .tc main_v15) := by exact W17_of_ne m ρ c main_v15 (by decide)
    _ = W15 m ρ c (Proc.devRef .tc main_v15) := by keeps hostOps7
    _ = W14 m ρ c (Proc.devRef .tc main_v15) := by exact (W15_arr m ρ c 2).trans (((dat6 (V14 m ρ) c).arrAt_in 2 rfl _).trans (A_eq6 (V14 m ρ) c 2))

theorem v18_5_7 : W7 m ρ c (Proc.devRef .tc main_v18) = W5 m ρ c (Proc.devRef .tc main_v18) :=
  calc W7 m ρ c (Proc.devRef .tc main_v18)
    _ = W6 m ρ c (Proc.devRef .tc main_v18) := by keeps hostOps1
    _ = W5 m ρ c (Proc.devRef .tc main_v18) := by exact W6_of_ne m ρ c main_v18 (by decide)

theorem v18_7_10 : W10 m ρ c (Proc.devRef .tc main_v18) = W7 m ρ c (Proc.devRef .tc main_v18) :=
  calc W10 m ρ c (Proc.devRef .tc main_v18)
    _ = W9 m ρ c (Proc.devRef .tc main_v18) := by keeps hostOps3
    _ = W8 m ρ c (Proc.devRef .tc main_v18) := by exact W9_of_ne m ρ c main_v18 (by decide)
    _ = W7 m ρ c (Proc.devRef .tc main_v18) := by exact (W8_arr m ρ c 1).trans (((dat1 (V7 m ρ) c).arrAt_in 1 rfl _).trans (A_eq1 (V7 m ρ) c 1))

theorem v18_10_13 : W13 m ρ c (Proc.devRef .tc main_v18) = W10 m ρ c (Proc.devRef .tc main_v18) :=
  calc W13 m ρ c (Proc.devRef .tc main_v18)
    _ = W12 m ρ c (Proc.devRef .tc main_v18) := by keeps hostOps5
    _ = W11 m ρ c (Proc.devRef .tc main_v18) := by exact W12_of_ne m ρ c main_v18 (by decide)
    _ = W10 m ρ c (Proc.devRef .tc main_v18) := by exact (W11_arr m ρ c 1).trans (((dat3 (V10 m ρ) c).arrAt_in 1 rfl _).trans (A_eq3 (V10 m ρ) c 1))

theorem v18_13_16 : W16 m ρ c (Proc.devRef .tc main_v18) = W13 m ρ c (Proc.devRef .tc main_v18) :=
  calc W16 m ρ c (Proc.devRef .tc main_v18)
    _ = W15 m ρ c (Proc.devRef .tc main_v18) := by keeps hostOps7
    _ = W14 m ρ c (Proc.devRef .tc main_v18) := by exact W15_of_ne m ρ c main_v18 (by decide)
    _ = W13 m ρ c (Proc.devRef .tc main_v18) := by exact (W14_arr m ρ c 1).trans (((dat5 (V13 m ρ) c).arrAt_in 1 rfl _).trans (A_eq5 (V13 m ρ) c 1))

theorem v18_16_19 : W19 m ρ c (Proc.devRef .tc main_v18) = W16 m ρ c (Proc.devRef .tc main_v18) :=
  calc W19 m ρ c (Proc.devRef .tc main_v18)
    _ = W18 m ρ c (Proc.devRef .tc main_v18) := by keeps hostOps9
    _ = W17 m ρ c (Proc.devRef .tc main_v18) := by exact W18_of_ne m ρ c main_v18 (by decide)
    _ = W16 m ρ c (Proc.devRef .tc main_v18) := by exact (W17_arr m ρ c 1).trans (((dat7 (V16 m ρ) c).arrAt_in 1 rfl _).trans (A_eq7 (V16 m ρ) c 1))

theorem arg0_0_5 : W5 m ρ c (Proc.devRef .tc main_arg0) = W0 m ρ c (Proc.devRef .tc main_arg0) :=
  calc W5 m ρ c (Proc.devRef .tc main_arg0)
    _ = W4 m ρ c (Proc.devRef .tc main_arg0) := by keeps hostOps0_4
    _ = W3 m ρ c (Proc.devRef .tc main_arg0) := by keeps hostOps0_3
    _ = W2 m ρ c (Proc.devRef .tc main_arg0) := by keeps hostOps0_2
    _ = W1 m ρ c (Proc.devRef .tc main_arg0) := by keeps hostOps0_1
    _ = W0 m ρ c (Proc.devRef .tc main_arg0) := by keeps hostOps0

theorem arg2_0_5 : W5 m ρ c (Proc.devRef .tc main_arg2) = W0 m ρ c (Proc.devRef .tc main_arg2) :=
  calc W5 m ρ c (Proc.devRef .tc main_arg2)
    _ = W4 m ρ c (Proc.devRef .tc main_arg2) := by keeps hostOps0_4
    _ = W3 m ρ c (Proc.devRef .tc main_arg2) := by keeps hostOps0_3
    _ = W2 m ρ c (Proc.devRef .tc main_arg2) := by keeps hostOps0_2
    _ = W1 m ρ c (Proc.devRef .tc main_arg2) := by keeps hostOps0_1
    _ = W0 m ρ c (Proc.devRef .tc main_arg2) := by keeps hostOps0

theorem arg3_0_6 : W6 m ρ c (Proc.devRef .tc main_arg3) = W0 m ρ c (Proc.devRef .tc main_arg3) :=
  calc W6 m ρ c (Proc.devRef .tc main_arg3)
    _ = W5 m ρ c (Proc.devRef .tc main_arg3) := by exact W6_of_ne m ρ c main_arg3 (by decide)
    _ = W4 m ρ c (Proc.devRef .tc main_arg3) := by keeps hostOps0_4
    _ = W3 m ρ c (Proc.devRef .tc main_arg3) := by keeps hostOps0_3
    _ = W2 m ρ c (Proc.devRef .tc main_arg3) := by keeps hostOps0_2
    _ = W1 m ρ c (Proc.devRef .tc main_arg3) := by keeps hostOps0_1
    _ = W0 m ρ c (Proc.devRef .tc main_arg3) := by keeps hostOps0

theorem arg4_0_8 : W8 m ρ c (Proc.devRef .tc main_arg4) = W0 m ρ c (Proc.devRef .tc main_arg4) :=
  calc W8 m ρ c (Proc.devRef .tc main_arg4)
    _ = W7 m ρ c (Proc.devRef .tc main_arg4) := by exact W8_of_ne m ρ c main_arg4 (by decide)
    _ = W6 m ρ c (Proc.devRef .tc main_arg4) := by keeps hostOps1
    _ = W5 m ρ c (Proc.devRef .tc main_arg4) := by exact W6_of_ne m ρ c main_arg4 (by decide)
    _ = W4 m ρ c (Proc.devRef .tc main_arg4) := by keeps hostOps0_4
    _ = W3 m ρ c (Proc.devRef .tc main_arg4) := by keeps hostOps0_3
    _ = W2 m ρ c (Proc.devRef .tc main_arg4) := by keeps hostOps0_2
    _ = W1 m ρ c (Proc.devRef .tc main_arg4) := by keeps hostOps0_1
    _ = W0 m ρ c (Proc.devRef .tc main_arg4) := by keeps hostOps0

theorem arg5_0_9 : W9 m ρ c (Proc.devRef .tc main_arg5) = W0 m ρ c (Proc.devRef .tc main_arg5) :=
  calc W9 m ρ c (Proc.devRef .tc main_arg5)
    _ = W8 m ρ c (Proc.devRef .tc main_arg5) := by exact W9_of_ne m ρ c main_arg5 (by decide)
    _ = W7 m ρ c (Proc.devRef .tc main_arg5) := by exact W8_of_ne m ρ c main_arg5 (by decide)
    _ = W6 m ρ c (Proc.devRef .tc main_arg5) := by keeps hostOps1
    _ = W5 m ρ c (Proc.devRef .tc main_arg5) := by exact W6_of_ne m ρ c main_arg5 (by decide)
    _ = W4 m ρ c (Proc.devRef .tc main_arg5) := by keeps hostOps0_4
    _ = W3 m ρ c (Proc.devRef .tc main_arg5) := by keeps hostOps0_3
    _ = W2 m ρ c (Proc.devRef .tc main_arg5) := by keeps hostOps0_2
    _ = W1 m ρ c (Proc.devRef .tc main_arg5) := by keeps hostOps0_1
    _ = W0 m ρ c (Proc.devRef .tc main_arg5) := by keeps hostOps0

theorem arg6_0_11 : W11 m ρ c (Proc.devRef .tc main_arg6) = W0 m ρ c (Proc.devRef .tc main_arg6) :=
  calc W11 m ρ c (Proc.devRef .tc main_arg6)
    _ = W10 m ρ c (Proc.devRef .tc main_arg6) := by exact W11_of_ne m ρ c main_arg6 (by decide)
    _ = W9 m ρ c (Proc.devRef .tc main_arg6) := by keeps hostOps3
    _ = W8 m ρ c (Proc.devRef .tc main_arg6) := by exact W9_of_ne m ρ c main_arg6 (by decide)
    _ = W7 m ρ c (Proc.devRef .tc main_arg6) := by exact W8_of_ne m ρ c main_arg6 (by decide)
    _ = W6 m ρ c (Proc.devRef .tc main_arg6) := by keeps hostOps1
    _ = W5 m ρ c (Proc.devRef .tc main_arg6) := by exact W6_of_ne m ρ c main_arg6 (by decide)
    _ = W4 m ρ c (Proc.devRef .tc main_arg6) := by keeps hostOps0_4
    _ = W3 m ρ c (Proc.devRef .tc main_arg6) := by keeps hostOps0_3
    _ = W2 m ρ c (Proc.devRef .tc main_arg6) := by keeps hostOps0_2
    _ = W1 m ρ c (Proc.devRef .tc main_arg6) := by keeps hostOps0_1
    _ = W0 m ρ c (Proc.devRef .tc main_arg6) := by keeps hostOps0

theorem arg7_0_12 : W12 m ρ c (Proc.devRef .tc main_arg7) = W0 m ρ c (Proc.devRef .tc main_arg7) :=
  calc W12 m ρ c (Proc.devRef .tc main_arg7)
    _ = W11 m ρ c (Proc.devRef .tc main_arg7) := by exact W12_of_ne m ρ c main_arg7 (by decide)
    _ = W10 m ρ c (Proc.devRef .tc main_arg7) := by exact W11_of_ne m ρ c main_arg7 (by decide)
    _ = W9 m ρ c (Proc.devRef .tc main_arg7) := by keeps hostOps3
    _ = W8 m ρ c (Proc.devRef .tc main_arg7) := by exact W9_of_ne m ρ c main_arg7 (by decide)
    _ = W7 m ρ c (Proc.devRef .tc main_arg7) := by exact W8_of_ne m ρ c main_arg7 (by decide)
    _ = W6 m ρ c (Proc.devRef .tc main_arg7) := by keeps hostOps1
    _ = W5 m ρ c (Proc.devRef .tc main_arg7) := by exact W6_of_ne m ρ c main_arg7 (by decide)
    _ = W4 m ρ c (Proc.devRef .tc main_arg7) := by keeps hostOps0_4
    _ = W3 m ρ c (Proc.devRef .tc main_arg7) := by keeps hostOps0_3
    _ = W2 m ρ c (Proc.devRef .tc main_arg7) := by keeps hostOps0_2
    _ = W1 m ρ c (Proc.devRef .tc main_arg7) := by keeps hostOps0_1
    _ = W0 m ρ c (Proc.devRef .tc main_arg7) := by keeps hostOps0

theorem arg8_0_14 : W14 m ρ c (Proc.devRef .tc main_arg8) = W0 m ρ c (Proc.devRef .tc main_arg8) :=
  calc W14 m ρ c (Proc.devRef .tc main_arg8)
    _ = W13 m ρ c (Proc.devRef .tc main_arg8) := by exact W14_of_ne m ρ c main_arg8 (by decide)
    _ = W12 m ρ c (Proc.devRef .tc main_arg8) := by keeps hostOps5
    _ = W11 m ρ c (Proc.devRef .tc main_arg8) := by exact W12_of_ne m ρ c main_arg8 (by decide)
    _ = W10 m ρ c (Proc.devRef .tc main_arg8) := by exact W11_of_ne m ρ c main_arg8 (by decide)
    _ = W9 m ρ c (Proc.devRef .tc main_arg8) := by keeps hostOps3
    _ = W8 m ρ c (Proc.devRef .tc main_arg8) := by exact W9_of_ne m ρ c main_arg8 (by decide)
    _ = W7 m ρ c (Proc.devRef .tc main_arg8) := by exact W8_of_ne m ρ c main_arg8 (by decide)
    _ = W6 m ρ c (Proc.devRef .tc main_arg8) := by keeps hostOps1
    _ = W5 m ρ c (Proc.devRef .tc main_arg8) := by exact W6_of_ne m ρ c main_arg8 (by decide)
    _ = W4 m ρ c (Proc.devRef .tc main_arg8) := by keeps hostOps0_4
    _ = W3 m ρ c (Proc.devRef .tc main_arg8) := by keeps hostOps0_3
    _ = W2 m ρ c (Proc.devRef .tc main_arg8) := by keeps hostOps0_2
    _ = W1 m ρ c (Proc.devRef .tc main_arg8) := by keeps hostOps0_1
    _ = W0 m ρ c (Proc.devRef .tc main_arg8) := by keeps hostOps0

theorem arg9_0_15 : W15 m ρ c (Proc.devRef .tc main_arg9) = W0 m ρ c (Proc.devRef .tc main_arg9) :=
  calc W15 m ρ c (Proc.devRef .tc main_arg9)
    _ = W14 m ρ c (Proc.devRef .tc main_arg9) := by exact W15_of_ne m ρ c main_arg9 (by decide)
    _ = W13 m ρ c (Proc.devRef .tc main_arg9) := by exact W14_of_ne m ρ c main_arg9 (by decide)
    _ = W12 m ρ c (Proc.devRef .tc main_arg9) := by keeps hostOps5
    _ = W11 m ρ c (Proc.devRef .tc main_arg9) := by exact W12_of_ne m ρ c main_arg9 (by decide)
    _ = W10 m ρ c (Proc.devRef .tc main_arg9) := by exact W11_of_ne m ρ c main_arg9 (by decide)
    _ = W9 m ρ c (Proc.devRef .tc main_arg9) := by keeps hostOps3
    _ = W8 m ρ c (Proc.devRef .tc main_arg9) := by exact W9_of_ne m ρ c main_arg9 (by decide)
    _ = W7 m ρ c (Proc.devRef .tc main_arg9) := by exact W8_of_ne m ρ c main_arg9 (by decide)
    _ = W6 m ρ c (Proc.devRef .tc main_arg9) := by keeps hostOps1
    _ = W5 m ρ c (Proc.devRef .tc main_arg9) := by exact W6_of_ne m ρ c main_arg9 (by decide)
    _ = W4 m ρ c (Proc.devRef .tc main_arg9) := by keeps hostOps0_4
    _ = W3 m ρ c (Proc.devRef .tc main_arg9) := by keeps hostOps0_3
    _ = W2 m ρ c (Proc.devRef .tc main_arg9) := by keeps hostOps0_2
    _ = W1 m ρ c (Proc.devRef .tc main_arg9) := by keeps hostOps0_1
    _ = W0 m ρ c (Proc.devRef .tc main_arg9) := by keeps hostOps0

theorem arg10_0_17 : W17 m ρ c (Proc.devRef .tc main_arg10) = W0 m ρ c (Proc.devRef .tc main_arg10) :=
  calc W17 m ρ c (Proc.devRef .tc main_arg10)
    _ = W16 m ρ c (Proc.devRef .tc main_arg10) := by exact W17_of_ne m ρ c main_arg10 (by decide)
    _ = W15 m ρ c (Proc.devRef .tc main_arg10) := by keeps hostOps7
    _ = W14 m ρ c (Proc.devRef .tc main_arg10) := by exact W15_of_ne m ρ c main_arg10 (by decide)
    _ = W13 m ρ c (Proc.devRef .tc main_arg10) := by exact W14_of_ne m ρ c main_arg10 (by decide)
    _ = W12 m ρ c (Proc.devRef .tc main_arg10) := by keeps hostOps5
    _ = W11 m ρ c (Proc.devRef .tc main_arg10) := by exact W12_of_ne m ρ c main_arg10 (by decide)
    _ = W10 m ρ c (Proc.devRef .tc main_arg10) := by exact W11_of_ne m ρ c main_arg10 (by decide)
    _ = W9 m ρ c (Proc.devRef .tc main_arg10) := by keeps hostOps3
    _ = W8 m ρ c (Proc.devRef .tc main_arg10) := by exact W9_of_ne m ρ c main_arg10 (by decide)
    _ = W7 m ρ c (Proc.devRef .tc main_arg10) := by exact W8_of_ne m ρ c main_arg10 (by decide)
    _ = W6 m ρ c (Proc.devRef .tc main_arg10) := by keeps hostOps1
    _ = W5 m ρ c (Proc.devRef .tc main_arg10) := by exact W6_of_ne m ρ c main_arg10 (by decide)
    _ = W4 m ρ c (Proc.devRef .tc main_arg10) := by keeps hostOps0_4
    _ = W3 m ρ c (Proc.devRef .tc main_arg10) := by keeps hostOps0_3
    _ = W2 m ρ c (Proc.devRef .tc main_arg10) := by keeps hostOps0_2
    _ = W1 m ρ c (Proc.devRef .tc main_arg10) := by keeps hostOps0_1
    _ = W0 m ρ c (Proc.devRef .tc main_arg10) := by keeps hostOps0

theorem arg11_0_18 : W18 m ρ c (Proc.devRef .tc main_arg11) = W0 m ρ c (Proc.devRef .tc main_arg11) :=
  calc W18 m ρ c (Proc.devRef .tc main_arg11)
    _ = W17 m ρ c (Proc.devRef .tc main_arg11) := by exact W18_of_ne m ρ c main_arg11 (by decide)
    _ = W16 m ρ c (Proc.devRef .tc main_arg11) := by exact W17_of_ne m ρ c main_arg11 (by decide)
    _ = W15 m ρ c (Proc.devRef .tc main_arg11) := by keeps hostOps7
    _ = W14 m ρ c (Proc.devRef .tc main_arg11) := by exact W15_of_ne m ρ c main_arg11 (by decide)
    _ = W13 m ρ c (Proc.devRef .tc main_arg11) := by exact W14_of_ne m ρ c main_arg11 (by decide)
    _ = W12 m ρ c (Proc.devRef .tc main_arg11) := by keeps hostOps5
    _ = W11 m ρ c (Proc.devRef .tc main_arg11) := by exact W12_of_ne m ρ c main_arg11 (by decide)
    _ = W10 m ρ c (Proc.devRef .tc main_arg11) := by exact W11_of_ne m ρ c main_arg11 (by decide)
    _ = W9 m ρ c (Proc.devRef .tc main_arg11) := by keeps hostOps3
    _ = W8 m ρ c (Proc.devRef .tc main_arg11) := by exact W9_of_ne m ρ c main_arg11 (by decide)
    _ = W7 m ρ c (Proc.devRef .tc main_arg11) := by exact W8_of_ne m ρ c main_arg11 (by decide)
    _ = W6 m ρ c (Proc.devRef .tc main_arg11) := by keeps hostOps1
    _ = W5 m ρ c (Proc.devRef .tc main_arg11) := by exact W6_of_ne m ρ c main_arg11 (by decide)
    _ = W4 m ρ c (Proc.devRef .tc main_arg11) := by keeps hostOps0_4
    _ = W3 m ρ c (Proc.devRef .tc main_arg11) := by keeps hostOps0_3
    _ = W2 m ρ c (Proc.devRef .tc main_arg11) := by keeps hostOps0_2
    _ = W1 m ρ c (Proc.devRef .tc main_arg11) := by keeps hostOps0_1
    _ = W0 m ρ c (Proc.devRef .tc main_arg11) := by keeps hostOps0

theorem v8_2_4 : W4 m ρ c (Proc.devRef .tc main_v8) = W2 m ρ c (Proc.devRef .tc main_v8) :=
  calc W4 m ρ c (Proc.devRef .tc main_v8)
    _ = W3 m ρ c (Proc.devRef .tc main_v8) := by keeps hostOps0_3
    _ = W2 m ρ c (Proc.devRef .tc main_v8) := by keeps hostOps0_2

theorem v3_1_2 : W2 m ρ c (Proc.devRef .tc main_v3) = W1 m ρ c (Proc.devRef .tc main_v3) :=
  calc W2 m ρ c (Proc.devRef .tc main_v3)
    _ = W1 m ρ c (Proc.devRef .tc main_v3) := by keeps hostOps0_1

theorem v4_1_2 : W2 m ρ c (Proc.devRef .tc main_v4) = W1 m ρ c (Proc.devRef .tc main_v4) :=
  calc W2 m ρ c (Proc.devRef .tc main_v4)
    _ = W1 m ρ c (Proc.devRef .tc main_v4) := by keeps hostOps0_1

end Cert.KernelIdeal.Carried

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«131837_j18528488915141_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibGraphLayerEntries.lean ====
/-
  Reusable lemmas: the two dense steps of a graph-convolution layer, read at an entry over the extended reals.

  A layer takes node features h : [n, K], a weight w : [K, N], a bias b : [N] and two per-node scalings kept as
  columns [n, 1]. It has two dense steps, between which rows are moved along edges:

    scaled product   S[r, q] = (Σ_{k < K} h[r, k] · w[k, q]) · s[r, 0]
    closing step     out[r, q] = max (a[r, q] · d[r, 0] + b[q], 0)

  Each step is computed twice in this certificate: once on a block of M rows inside a kernel (a matrix product on
  the matrix unit after a change of float format, which is the identity over the extended reals; columns and rows
  spread by vector broadcasts), and once on the whole array by host operations (a dot_general; columns and rows
  spread by broadcast_in_dim). This module reads all four forms at an entry (p, q) and finds the two displayed
  formulas: the block form and the whole-array form of a step differ only in which rows they are handed.
  Everything is generic in the extents.
-/
import proofs.«131837_j18528488915141_1_alg».proof.Proof.LibMatmulNN
import proofs.«131837_j18528488915141_1_alg».proof.Proof.LibDotNN
import proofs.«131837_j18528488915141_1_alg».proof.Proof.LibBroadcastRows
import proofs.«131837_j18528488915141_1_alg».proof.Proof.LibHostBroadcasts
import proofs.«131837_j18528488915141_1_alg».proof.Proof.LibKeepdimsColumn
import Idealize.ShloMosaic.Lib.ValueLayout
import Idealize.ShloMosaic.Lib.Pipeline.Value
import Idealize.ShloMosaic.Lib.ValueIdx
import Idealize.ShloMosaic.PureOps.Ideal.Laws

noncomputable section

namespace Cert.GraphLayer

open Idealize.ShloMosaic Idealize.ShloMosaic.ValueIdx

variable {M K N : ℕ}

/-! ## The scaled product -/

/-- On a block, in the kernel's spelling: both operands change float format (the identity here), are multiplied on
    the matrix unit into zeros, and the product is scaled by the column spread along the rows' entries. -/
theorem block_scaled_entry (D : DotDims ⟨2, ![M, K]⟩ ⟨2, ![K, N]⟩ ⟨2, ![M, N]⟩) (hD : D = DotDims.plain M K N)
    (hx : FTy.bf16.bits < FTy.f32.bits) (hw : FTy.bf16.bits < FTy.f32.bits)
    (hc : (⟨2, ![M, 1]⟩ : Shape).ShapeCasts ⟨2, ![M, 1]⟩) (hb : (⟨2, ![M, 1]⟩ : Shape).Broadcasts ⟨2, ![M, N]⟩)
    (x : FVec Ideal ⟨2, ![M, K]⟩ .f32) (w : FVec Ideal ⟨2, ![K, N]⟩ .f32) (s : FVec Ideal ⟨2, ![M, 1]⟩ .f32)
    (p : Fin M) (q : Fin N) :
    mulf (matmul D none (truncf .bf16 x hx) (truncf .bf16 w hw) (constant (F := Ideal) ⟨2, ![M, N]⟩ .f32 0x00000000#32))
        (broadcastTo ⟨2, ![M, N]⟩ (shapeCast ⟨2, ![M, 1]⟩ s hc) hb) (ix2 p q)
      = (∑ k : Fin K, x (ix2 p k) * w (ix2 k q)) * s (ix2 p (0 : Fin 1)) := by
  rw [mulf_apply, KeepdimsColumn.broadcastTo_a1_ab_apply, shapeCast_self]
  refine congrArg (· * s (ix2 p (0 : Fin 1))) ?_
  exact MatmulNN.matmul_zero_apply D hD none (truncf .bf16 x hx) (truncf .bf16 w hw) p q

/-- The same when the block of features first passes through a cast to its own shape (the identity). -/
theorem block_scaled_entry_cast (D : DotDims ⟨2, ![M, K]⟩ ⟨2, ![K, N]⟩ ⟨2, ![M, N]⟩) (hD : D = DotDims.plain M K N)
    (hx : FTy.bf16.bits < FTy.f32.bits) (hw : FTy.bf16.bits < FTy.f32.bits)
    (hcx : (⟨2, ![M, K]⟩ : Shape).ShapeCasts ⟨2, ![M, K]⟩)
    (hc : (⟨2, ![M, 1]⟩ : Shape).ShapeCasts ⟨2, ![M, 1]⟩) (hb : (⟨2, ![M, 1]⟩ : Shape).Broadcasts ⟨2, ![M, N]⟩)
    (x : FVec Ideal ⟨2, ![M, K]⟩ .f32) (w : FVec Ideal ⟨2, ![K, N]⟩ .f32) (s : FVec Ideal ⟨2, ![M, 1]⟩ .f32)
    (p : Fin M) (q : Fin N) :
    mulf (matmul D none (truncf .bf16 (shapeCast ⟨2, ![M, K]⟩ x hcx) hx) (truncf .bf16 w hw)
          (constant (F := Ideal) ⟨2, ![M, N]⟩ .f32 0x00000000#32))
        (broadcastTo ⟨2, ![M, N]⟩ (shapeCast ⟨2, ![M, 1]⟩ s hc) hb) (ix2 p q)
      = (∑ k : Fin K, x (ix2 p k) * w (ix2 k q)) * s (ix2 p (0 : Fin 1)) := by
  rw [shapeCast_self]
  exact block_scaled_entry D hD hx hw hc hb x w s p q

/-- On the whole array, in the host's spelling: a dot_general, scaled by the column spread by broadcast_in_dim. -/
theorem host_scaled_entry (D : DotDims ⟨2, ![M, K]⟩ ⟨2, ![K, N]⟩ ⟨2, ![M, N]⟩) (hD : D = DotDims.plain M K N)
    (hb : (⟨2, ![M, 1]⟩ : Shape).BroadcastsInDim ⟨2, ![M, N]⟩ ![0, 1])
    (x : FVec Ideal ⟨2, ![M, K]⟩ .f32) (w : FVec Ideal ⟨2, ![K, N]⟩ .f32) (s : FVec Ideal ⟨2, ![M, 1]⟩ .f32)
    (r : Fin M) (q : Fin N) :
    mulf (Host.dotGeneral D none x w) (broadcastInDim ⟨2, ![M, N]⟩ ![0, 1] hb s) (ix2 r q)
      = (∑ k : Fin K, x (ix2 r k) * w (ix2 k q)) * s (ix2 r (0 : Fin 1)) := by
  rw [mulf_apply, HostBroadcasts.col_rows_apply]
  refine congrArg (· * s (ix2 r (0 : Fin 1))) ?_
  exact DotNN.dotGeneral_apply D hD none x w r q

/-! ## The closing step -/

/-- On a block, in the kernel's spelling: the column and the bias row are spread by vector broadcasts, and the
    clamp is a maximum with the zero splat. -/
theorem block_closing_entry (ha : (⟨2, ![M, N]⟩ : Shape).ShapeCasts ⟨2, ![M, N]⟩)
    (hd : (⟨2, ![M, 1]⟩ : Shape).ShapeCasts ⟨2, ![M, 1]⟩) (hr : (⟨2, ![1, N]⟩ : Shape).ShapeCasts ⟨2, ![1, N]⟩)
    (hbd : (⟨2, ![M, 1]⟩ : Shape).Broadcasts ⟨2, ![M, N]⟩) (hbr : (⟨2, ![1, N]⟩ : Shape).Broadcasts ⟨2, ![M, N]⟩)
    (a : FVec Ideal ⟨2, ![M, N]⟩ .f32) (d : FVec Ideal ⟨2, ![M, 1]⟩ .f32) (b : FVec Ideal ⟨2, ![1, N]⟩ .f32)
    (p : Fin M) (q : Fin N) :
    maximumf (addf (mulf (shapeCast ⟨2, ![M, N]⟩ a ha) (broadcastTo ⟨2, ![M, N]⟩ (shapeCast ⟨2, ![M, 1]⟩ d hd) hbd))
          (broadcastTo ⟨2, ![M, N]⟩ (shapeCast ⟨2, ![1, N]⟩ b hr) hbr))
        (broadcast ⟨2, ![M, N]⟩ (Scalar.ofBits (F := Ideal) .f32 0x00000000#32)) (ix2 p q)
      = max (a (ix2 p q) * d (ix2 p (0 : Fin 1)) + b (ix2 (0 : Fin 1) q)) (Ideal.ofBits .f32 0x00000000#32) := by
  rw [maximumf_apply, addf_apply, mulf_apply, broadcast_apply, KeepdimsColumn.broadcastTo_a1_ab_apply,
    broadcastTo_1b_ab_apply, shapeCast_self, shapeCast_self, shapeCast_self]
  rfl

/-- On the whole array, in the host's spelling: the bias is first viewed as one row, then repeated down the rows;
    the clamp is a maximum with zero spread from a scalar. -/
theorem host_closing_entry (hd : (⟨2, ![M, 1]⟩ : Shape).BroadcastsInDim ⟨2, ![M, N]⟩ ![0, 1])
    (hrow : (⟨2, ![1, N]⟩ : Shape).BroadcastsInDim ⟨2, ![M, N]⟩ ![0, 1])
    (hvec : (⟨1, ![N]⟩ : Shape).BroadcastsInDim ⟨2, ![1, N]⟩ ![1])
    (dims : Fin 0 → Fin 2) (hz : (⟨0, ![]⟩ : Shape).BroadcastsInDim ⟨2, ![M, N]⟩ dims)
    (a : FVec Ideal ⟨2, ![M, N]⟩ .f32) (d : FVec Ideal ⟨2, ![M, 1]⟩ .f32) (b : FVec Ideal ⟨1, ![N]⟩ .f32)
    (r : Fin M) (q : Fin N) :
    maximumf (addf (mulf a (broadcastInDim ⟨2, ![M, N]⟩ ![0, 1] hd d))
          (broadcastInDim ⟨2, ![M, N]⟩ ![0, 1] hrow (broadcastInDim ⟨2, ![1, N]⟩ ![1] hvec b)))
        (broadcastInDim ⟨2, ![M, N]⟩ dims hz (constant (F := Ideal) ⟨0, ![]⟩ .f32 0x00000000#32)) (ix2 r q)
      = max (a (ix2 r q) * d (ix2 r (0 : Fin 1)) + b (ix1 q)) (Ideal.ofBits .f32 0x00000000#32) := by
  rw [maximumf_apply, addf_apply, mulf_apply, HostBroadcasts.col_rows_apply, BroadcastRows.row_apply,
    BroadcastRows.unit_apply, HostBroadcasts.scalar_apply, constant_apply]

/-- The host's view of a bias vector as one row, [N] to [1, N] by a reshape, reads the vector's entry. -/
theorem bias_row_entry (h : (⟨1, ![N]⟩ : Shape).ShapeCasts ⟨2, ![1, N]⟩) (b : FVec Ideal ⟨1, ![N]⟩ .f32) (q : Fin N) :
    shapeCast ⟨2, ![1, N]⟩ b h (ix2 (0 : Fin 1) q) = b (ix1 q) :=
  shapeCast_a_1a_apply b h (0 : Fin 1) q

end Cert.GraphLayer

end
-- ==== Proof.RefSteps.lean ====
/-
  The reference's network, cut into named steps.

  The reference computes, on the host, five graph-convolution layers over n = 50000 nodes and 800000 edges given as
  a [2, 800000] array of (source, destination) node numbers:

    src, dst        the two rows of the edge array
    norm idx        the column  ( max (1, number of edges whose idx-entry is v) ) ^ (-1/2)  over the nodes v
    scaled h w s    (h · w) with row r multiplied by s[r]            (the scaled product)
    move src dst y  row v of the result is the sum, over the edges e with dst e = v, of row src e of y
                    (a gather of rows, negative indices wrapped by n, then a scatter-add into zeros)
    closing a d b   max (a with row r multiplied by d[r], plus the bias b on every row, 0)

    layer h w b  =  closing (move src dst (scaled h w (norm src))) (norm dst) b

  Each step below is the reference's own operations, spelt as the printed program spells them, so that the run's
  result term unfolds to the composition of the five layers. The scaled product and the closing step are also read
  at an entry (the other steps are never opened: both programs apply them as they stand).
-/
import proofs.«131837_j18528488915141_1_alg».proof.Proof.Gen.ReferenceIdeal
import proofs.«131837_j18528488915141_1_alg».proof.Proof.LibGraphLayerEntries

noncomputable section

namespace Cert.RefSteps

open Cert.ReferenceIdeal Cert.ReferenceIdeal.Facts₀ Cert.ReferenceIdeal.Facts Idealize.ShloMosaic Idealize.ShloMosaic.ValueIdx

variable {F : FTy → Type} [FloatOps F]

/-- The edges' source nodes: row 0 of the edge array. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destination nodes: row 1 of the edge array. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The degree scaling of a list of node numbers, as a column: the count of each node among them (a scatter-add of
    ones into zeros), clamped below at one, to the power -1/2. -/
def normOf (s : (⟨S800000, .i32⟩ : BufTy).Contents (Elt F)) : (⟨S50000x1, .f32⟩ : BufTy).Contents (Elt F) :=
  broadcastInDim S50000x1 ![0] bcast_S50000_S50000x1_0 (Host.powf (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 s) (broadcastInDim S800000 ![] bcast_S_S800000 (constant S_ .f32 0x3F800000#32)))) (broadcastInDim S50000 ![] bcast_S_S50000 (constant S_ .f32 0xBF000000#32)))

/-- Rows moved along the edges, 128 features wide: gather the source rows (a negative node number wrapped by
    50000), add each into its destination row, starting from zeros. -/
def move128 (src dst : (⟨S800000, .i32⟩ : BufTy).Contents (Elt F)) (y : (⟨S50000x128, .f32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 y (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The closing step, 128 features wide: scale the rows, add the bias, clamp at zero. -/
def closing128 (a : (⟨S50000x128, .f32⟩ : BufTy).Contents (Elt F)) (d : (⟨S50000x1, .f32⟩ : BufTy).Contents (Elt F))
    (b : (⟨S128, .f32⟩ : BufTy).Contents (Elt F)) : (⟨S50000x128, .f32⟩ : BufTy).Contents (Elt F) :=
  maximumf (addf (mulf a (broadcastInDim S50000x128 ![0, 1] bcast_S50000x1_S50000x128_0_1 d)) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- Rows moved along the edges, 64 features wide: gather the source rows (a negative node number wrapped by
    50000), add each into its destination row, starting from zeros. -/
def move64 (src dst : (⟨S800000, .i32⟩ : BufTy).Contents (Elt F)) (y : (⟨S50000x64, .f32⟩ : BufTy).Contents (Elt F)) :
    (⟨S50000x64, .f32⟩ : BufTy).Contents (Elt F) :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 dst) (Host.gather gather_S50000x64_S800000x1_S800000x64_1_0_n_n_0_1_164 y (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The closing step, 64 features wide: scale the rows, add the bias, clamp at zero. -/
def closing64 (a : (⟨S50000x64, .f32⟩ : BufTy).Contents (Elt F)) (d : (⟨S50000x1, .f32⟩ : BufTy).Contents (Elt F))
    (b : (⟨S64, .f32⟩ : BufTy).Contents (Elt F)) : (⟨S50000x64, .f32⟩ : BufTy).Contents (Elt F) :=
  maximumf (addf (mulf a (broadcastInDim S50000x64 ![0, 1] bcast_S50000x1_S50000x64_0_1 d)) (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- Rows moved along the edges, 32 features wide: gather the source rows (a negative node number wrapped by
    50000), add each into its destination row, starting from zeros. -/
def move32 (src dst : (⟨S800000, .i32⟩ : BufTy).Contents (Elt F)) (y : (⟨S50000x32, .f32⟩ : BufTy).Contents (Elt F)) :
    (⟨S50000x32, .f32⟩ : BufTy).Contents (Elt F) :=
  Host.scatterAdd scatter_S50000x32_S800000x1_S800000x32_1_0_0_1 (broadcastInDim S50000x32 ![] bcast_S_S50000x32 (constant S_ .f32 0x00000000#32)) (broadcastInDim S800000x1 ![0] bcast_S800000_S800000x1_0 dst) (Host.gather gather_S50000x32_S800000x1_S800000x32_1_0_n_n_0_1_132 y (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The closing step, 32 features wide: scale the rows, add the bias, clamp at zero. -/
def closing32 (a : (⟨S50000x32, .f32⟩ : BufTy).Contents (Elt F)) (d : (⟨S50000x1, .f32⟩ : BufTy).Contents (Elt F))
    (b : (⟨S32, .f32⟩ : BufTy).Contents (Elt F)) : (⟨S50000x32, .f32⟩ : BufTy).Contents (Elt F) :=
  maximumf (addf (mulf a (broadcastInDim S50000x32 ![0, 1] bcast_S50000x1_S50000x32_0_1 d)) (broadcastInDim S50000x32 ![0, 1] bcast_S1x32_S50000x32_0_1 (broadcastInDim S1x32 ![1] bcast_S32_S1x32_1 b))) (broadcastInDim S50000x32 ![] bcast_S_S50000x32 (constant S_ .f32 0x00000000#32))

/-- Rows moved along the edges, 16 features wide: gather the source rows (a negative node number wrapped by
    50000), add each into its destination row, starting from zeros. -/
def move16 (src dst : (⟨S800000, .i32⟩ : BufTy).Contents (Elt F)) (y : (⟨S50000x16, .f32⟩ : BufTy).Contents (Elt F)) :
    (⟨S50000x16, .f32⟩ : BufTy).Contents (Elt F) :=
  Host.scatterAdd scatter_S50000x16_S800000x1_S800000x16_1_0_0_1 (broadcastInDim S50000x16 ![] bcast_S_S50000x16 (constant S_ .f32 0x00000000#32)) (broadcastInDim S800000x1 ![0] bcast_S800000_S800000x1_0 dst) (Host.gather gather_S50000x16_S800000x1_S800000x16_1_0_n_n_0_1_116 y (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The closing step, 16 features wide: scale the rows, add the bias, clamp at zero. -/
def closing16 (a : (⟨S50000x16, .f32⟩ : BufTy).Contents (Elt F)) (d : (⟨S50000x1, .f32⟩ : BufTy).Contents (Elt F))
    (b : (⟨S16, .f32⟩ : BufTy).Contents (Elt F)) : (⟨S50000x16, .f32⟩ : BufTy).Contents (Elt F) :=
  maximumf (addf (mulf a (broadcastInDim S50000x16 ![0, 1] bcast_S50000x1_S50000x16_0_1 d)) (broadcastInDim S50000x16 ![0, 1] bcast_S1x16_S50000x16_0_1 (broadcastInDim S1x16 ![1] bcast_S16_S1x16_1 b))) (broadcastInDim S50000x16 ![] bcast_S_S50000x16 (constant S_ .f32 0x00000000#32))

/-- The scaled product from 128 to 128 features. -/
def scaled128x128 (h : (⟨S50000x128, .f32⟩ : BufTy).Contents (Elt F)) (w : (⟨S128x128, .f32⟩ : BufTy).Contents (Elt F))
    (s : (⟨S50000x1, .f32⟩ : BufTy).Contents (Elt F)) : (⟨S50000x128, .f32⟩ : BufTy).Contents (Elt F) :=
  mulf (Host.dotGeneral dot_S50000x128_S128x128_S50000x128_1_0_0_1_n_n none h w) (broadcastInDim S50000x128 ![0, 1] bcast_S50000x1_S50000x128_0_1 s)

/-- One layer from 128 to 128 features. -/
def layer128x128 (e : (⟨S2x800000, .i32⟩ : BufTy).Contents (Elt F)) (h : (⟨S50000x128, .f32⟩ : BufTy).Contents (Elt F))
    (w : (⟨S128x128, .f32⟩ : BufTy).Contents (Elt F)) (b : (⟨S128, .f32⟩ : BufTy).Contents (Elt F)) :
    (⟨S50000x128, .f32⟩ : BufTy).Contents (Elt F) :=
  closing128 (move128 (srcOf e) (dstOf e) (scaled128x128 h w (normOf (srcOf e)))) (normOf (dstOf e)) b

/-- The scaled product from 128 to 64 features. -/
def scaled128x64 (h : (⟨S50000x128, .f32⟩ : BufTy).Contents (Elt F)) (w : (⟨S128x64, .f32⟩ : BufTy).Contents (Elt F))
    (s : (⟨S50000x1, .f32⟩ : BufTy).Contents (Elt F)) : (⟨S50000x64, .f32⟩ : BufTy).Contents (Elt F) :=
  mulf (Host.dotGeneral dot_S50000x128_S128x64_S50000x64_1_0_0_1_n_n none h w) (broadcastInDim S50000x64 ![0, 1] bcast_S50000x1_S50000x64_0_1 s)

/-- One layer from 128 to 64 features. -/
def layer128x64 (e : (⟨S2x800000, .i32⟩ : BufTy).Contents (Elt F)) (h : (⟨S50000x128, .f32⟩ : BufTy).Contents (Elt F))
    (w : (⟨S128x64, .f32⟩ : BufTy).Contents (Elt F)) (b : (⟨S64, .f32⟩ : BufTy).Contents (Elt F)) :
    (⟨S50000x64, .f32⟩ : BufTy).Contents (Elt F) :=
  closing64 (move64 (srcOf e) (dstOf e) (scaled128x64 h w (normOf (srcOf e)))) (normOf (dstOf e)) b

/-- The scaled product from 64 to 32 features. -/
def scaled64x32 (h : (⟨S50000x64, .f32⟩ : BufTy).Contents (Elt F)) (w : (⟨S64x32, .f32⟩ : BufTy).Contents (Elt F))
    (s : (⟨S50000x1, .f32⟩ : BufTy).Contents (Elt F)) : (⟨S50000x32, .f32⟩ : BufTy).Contents (Elt F) :=
  mulf (Host.dotGeneral dot_S50000x64_S64x32_S50000x32_1_0_0_1_n_n none h w) (broadcastInDim S50000x32 ![0, 1] bcast_S50000x1_S50000x32_0_1 s)

/-- One layer from 64 to 32 features. -/
def layer64x32 (e : (⟨S2x800000, .i32⟩ : BufTy).Contents (Elt F)) (h : (⟨S50000x64, .f32⟩ : BufTy).Contents (Elt F))
    (w : (⟨S64x32, .f32⟩ : BufTy).Contents (Elt F)) (b : (⟨S32, .f32⟩ : BufTy).Contents (Elt F)) :
    (⟨S50000x32, .f32⟩ : BufTy).Contents (Elt F) :=
  closing32 (move32 (srcOf e) (dstOf e) (scaled64x32 h w (normOf (srcOf e)))) (normOf (dstOf e)) b

/-- The scaled product from 32 to 16 features. -/
def scaled32x16 (h : (⟨S50000x32, .f32⟩ : BufTy).Contents (Elt F)) (w : (⟨S32x16, .f32⟩ : BufTy).Contents (Elt F))
    (s : (⟨S50000x1, .f32⟩ : BufTy).Contents (Elt F)) : (⟨S50000x16, .f32⟩ : BufTy).Contents (Elt F) :=
  mulf (Host.dotGeneral dot_S50000x32_S32x16_S50000x16_1_0_0_1_n_n none h w) (broadcastInDim S50000x16 ![0, 1] bcast_S50000x1_S50000x16_0_1 s)

/-- One layer from 32 to 16 features. -/
def layer32x16 (e : (⟨S2x800000, .i32⟩ : BufTy).Contents (Elt F)) (h : (⟨S50000x32, .f32⟩ : BufTy).Contents (Elt F))
    (w : (⟨S32x16, .f32⟩ : BufTy).Contents (Elt F)) (b : (⟨S16, .f32⟩ : BufTy).Contents (Elt F)) :
    (⟨S50000x16, .f32⟩ : BufTy).Contents (Elt F) :=
  closing16 (move16 (srcOf e) (dstOf e) (scaled32x16 h w (normOf (srcOf e)))) (normOf (dstOf e)) b

/-- The scaled product from 16 to 16 features. -/
def scaled16x16 (h : (⟨S50000x16, .f32⟩ : BufTy).Contents (Elt F)) (w : (⟨S16x16, .f32⟩ : BufTy).Contents (Elt F))
    (s : (⟨S50000x1, .f32⟩ : BufTy).Contents (Elt F)) : (⟨S50000x16, .f32⟩ : BufTy).Contents (Elt F) :=
  mulf (Host.dotGeneral dot_S50000x16_S16x16_S50000x16_1_0_0_1_n_n none h w) (broadcastInDim S50000x16 ![0, 1] bcast_S50000x1_S50000x16_0_1 s)

/-- One layer from 16 to 16 features. -/
def layer16x16 (e : (⟨S2x800000, .i32⟩ : BufTy).Contents (Elt F)) (h : (⟨S50000x16, .f32⟩ : BufTy).Contents (Elt F))
    (w : (⟨S16x16, .f32⟩ : BufTy).Contents (Elt F)) (b : (⟨S16, .f32⟩ : BufTy).Contents (Elt F)) :
    (⟨S50000x16, .f32⟩ : BufTy).Contents (Elt F) :=
  closing16 (move16 (srcOf e) (dstOf e) (scaled16x16 h w (normOf (srcOf e)))) (normOf (dstOf e)) b

/-- The network: five layers, 128 → 128 → 64 → 32 → 16 → 16 features. -/
def net (x : (⟨S50000x128, .f32⟩ : BufTy).Contents (Elt F)) (e : (⟨S2x800000, .i32⟩ : BufTy).Contents (Elt F))
    (w1 : (⟨S128x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F))
    (w3 : (⟨S64x32, .f32⟩ : BufTy).Contents (Elt F)) (b3 : (⟨S32, .f32⟩ : BufTy).Contents (Elt F))
    (w4 : (⟨S32x16, .f32⟩ : BufTy).Contents (Elt F)) (b4 : (⟨S16, .f32⟩ : BufTy).Contents (Elt F))
    (w5 : (⟨S16x16, .f32⟩ : BufTy).Contents (Elt F)) (b5 : (⟨S16, .f32⟩ : BufTy).Contents (Elt F)) :
    (⟨S50000x16, .f32⟩ : BufTy).Contents (Elt F) :=
  layer16x16 e (layer32x16 e (layer64x32 e (layer128x64 e (layer128x128 e x w1 b1) w2 b2) w3 b3) w4 b4) w5 b5

/-! ## The two dense steps at an entry, over the extended reals -/

/-- Entry (r, q) of the scaled product from 128 to 128 features. -/
theorem scaled128x128_entry (h : FVec Ideal S50000x128 .f32) (w : FVec Ideal S128x128 .f32) (s : FVec Ideal S50000x1 .f32)
    (r : Fin 50000) (q : Fin 128) :
    scaled128x128 (F := Ideal) h w s (ix2 r q) = (∑ k : Fin 128, h (ix2 r k) * w (ix2 k q)) * s (ix2 r (0 : Fin 1)) :=
  GraphLayer.host_scaled_entry dot_S50000x128_S128x128_S50000x128_1_0_0_1_n_n rfl bcast_S50000x1_S50000x128_0_1 h w s r q

/-- Entry (r, q) of the scaled product from 128 to 64 features. -/
theorem scaled128x64_entry (h : FVec Ideal S50000x128 .f32) (w : FVec Ideal S128x64 .f32) (s : FVec Ideal S50000x1 .f32)
    (r : Fin 50000) (q : Fin 64) :
    scaled128x64 (F := Ideal) h w s (ix2 r q) = (∑ k : Fin 128, h (ix2 r k) * w (ix2 k q)) * s (ix2 r (0 : Fin 1)) :=
  GraphLayer.host_scaled_entry dot_S50000x128_S128x64_S50000x64_1_0_0_1_n_n rfl bcast_S50000x1_S50000x64_0_1 h w s r q

/-- Entry (r, q) of the scaled product from 64 to 32 features. -/
theorem scaled64x32_entry (h : FVec Ideal S50000x64 .f32) (w : FVec Ideal S64x32 .f32) (s : FVec Ideal S50000x1 .f32)
    (r : Fin 50000) (q : Fin 32) :
    scaled64x32 (F := Ideal) h w s (ix2 r q) = (∑ k : Fin 64, h (ix2 r k) * w (ix2 k q)) * s (ix2 r (0 : Fin 1)) :=
  GraphLayer.host_scaled_entry dot_S50000x64_S64x32_S50000x32_1_0_0_1_n_n rfl bcast_S50000x1_S50000x32_0_1 h w s r q

/-- Entry (r, q) of the scaled product from 32 to 16 features. -/
theorem scaled32x16_entry (h : FVec Ideal S50000x32 .f32) (w : FVec Ideal S32x16 .f32) (s : FVec Ideal S50000x1 .f32)
    (r : Fin 50000) (q : Fin 16) :
    scaled32x16 (F := Ideal) h w s (ix2 r q) = (∑ k : Fin 32, h (ix2 r k) * w (ix2 k q)) * s (ix2 r (0 : Fin 1)) :=
  GraphLayer.host_scaled_entry dot_S50000x32_S32x16_S50000x16_1_0_0_1_n_n rfl bcast_S50000x1_S50000x16_0_1 h w s r q

/-- Entry (r, q) of the scaled product from 16 to 16 features. -/
theorem scaled16x16_entry (h : FVec Ideal S50000x16 .f32) (w : FVec Ideal S16x16 .f32) (s : FVec Ideal S50000x1 .f32)
    (r : Fin 50000) (q : Fin 16) :
    scaled16x16 (F := Ideal) h w s (ix2 r q) = (∑ k : Fin 16, h (ix2 r k) * w (ix2 k q)) * s (ix2 r (0 : Fin 1)) :=
  GraphLayer.host_scaled_entry dot_S50000x16_S16x16_S50000x16_1_0_0_1_n_n rfl bcast_S50000x1_S50000x16_0_1 h w s r q

/-- Entry (r, q) of the closing step, 128 features wide. -/
theorem closing128_entry (a : FVec Ideal S50000x128 .f32) (d : FVec Ideal S50000x1 .f32) (b : FVec Ideal S128 .f32)
    (r : Fin 50000) (q : Fin 128) :
    closing128 (F := Ideal) a d b (ix2 r q)
      = max (a (ix2 r q) * d (ix2 r (0 : Fin 1)) + b (ix1 q)) (Ideal.ofBits .f32 0x00000000#32) :=
  GraphLayer.host_closing_entry bcast_S50000x1_S50000x128_0_1 bcast_S1x128_S50000x128_0_1 bcast_S128_S1x128_1 ![] bcast_S_S50000x128 a d b r q

/-- Entry (r, q) of the closing step, 64 features wide. -/
theorem closing64_entry (a : FVec Ideal S50000x64 .f32) (d : FVec Ideal S50000x1 .f32) (b : FVec Ideal S64 .f32)
    (r : Fin 50000) (q : Fin 64) :
    closing64 (F := Ideal) a d b (ix2 r q)
      = max (a (ix2 r q) * d (ix2 r (0 : Fin 1)) + b (ix1 q)) (Ideal.ofBits .f32 0x00000000#32) :=
  GraphLayer.host_closing_entry bcast_S50000x1_S50000x64_0_1 bcast_S1x64_S50000x64_0_1 bcast_S64_S1x64_1 ![] bcast_S_S50000x64 a d b r q

/-- Entry (r, q) of the closing step, 32 features wide. -/
theorem closing32_entry (a : FVec Ideal S50000x32 .f32) (d : FVec Ideal S50000x1 .f32) (b : FVec Ideal S32 .f32)
    (r : Fin 50000) (q : Fin 32) :
    closing32 (F := Ideal) a d b (ix2 r q)
      = max (a (ix2 r q) * d (ix2 r (0 : Fin 1)) + b (ix1 q)) (Ideal.ofBits .f32 0x00000000#32) :=
  GraphLayer.host_closing_entry bcast_S50000x1_S50000x32_0_1 bcast_S1x32_S50000x32_0_1 bcast_S32_S1x32_1 ![] bcast_S_S50000x32 a d b r q

/-- Entry (r, q) of the closing step, 16 features wide. -/
theorem closing16_entry (a : FVec Ideal S50000x16 .f32) (d : FVec Ideal S50000x1 .f32) (b : FVec Ideal S16 .f32)
    (r : Fin 50000) (q : Fin 16) :
    closing16 (F := Ideal) a d b (ix2 r q)
      = max (a (ix2 r q) * d (ix2 r (0 : Fin 1)) + b (ix1 q)) (Ideal.ofBits .f32 0x00000000#32) :=
  GraphLayer.host_closing_entry bcast_S50000x1_S50000x16_0_1 bcast_S1x16_S50000x16_0_1 bcast_S16_S1x16_1 ![] bcast_S_S50000x16 a d b r q

end Cert.RefSteps

end
-- ==== Proof.NormSteps.lean ====
/-
  The degree scaling, cut into the pieces the host stretches compute one after the other.

  norm idx  =  column of ( clamp ( count idx ) ) ^ (-1/2), where
    count idx   adds a one into slot idx[e] for every edge e, starting from zeros   (a scatter-add of ones),
    clamp n     is the maximum of n with one,
    the last piece raises to the power -1/2 and views the vector as a column.
  The kernel program computes these in separate stretches (the clamp is an outlined function of its own), so the
  pieces are named here; put together they are the reference's degree scaling, by unfolding.
-/
import proofs.«131837_j18528488915141_1_alg».proof.Proof.RefSteps

noncomputable section

namespace Cert.RefSteps

open Cert.ReferenceIdeal Cert.ReferenceIdeal.Facts₀ Cert.ReferenceIdeal.Facts Idealize.ShloMosaic

variable {F : FTy → Type} [FloatOps F]

/-- The scalar one. -/
def one : (⟨S_, .f32⟩ : BufTy).Contents (Elt F) := constant S_ .f32 0x3F800000#32

/-- A one per edge. -/
def onesPerEdge : (⟨S800000, .f32⟩ : BufTy).Contents (Elt F) :=
  broadcastInDim S800000 ![] bcast_S_S800000 (constant S_ .f32 0x3F800000#32)

/-- The updates `u` added into the slots the node numbers `s` name, starting from zeros. -/
def countWith (s : (⟨S800000, .i32⟩ : BufTy).Contents (Elt F)) (u : (⟨S800000, .f32⟩ : BufTy).Contents (Elt F)) :
    (⟨S50000, .f32⟩ : BufTy).Contents (Elt F) :=
  Host.scatterAdd scatter_S50000_S800000x1_S800000_n_0_0_1 (broadcastInDim S50000 ![] bcast_S_S50000 (constant S_ .f32 0x00000000#32)) (broadcastInDim S800000x1 ![0] bcast_S800000_S800000x1_0 s) u

/-- The maximum with the scalar `o` spread over the nodes. -/
def clampWith (o : (⟨S_, .f32⟩ : BufTy).Contents (Elt F)) (n : (⟨S50000, .f32⟩ : BufTy).Contents (Elt F)) :
    (⟨S50000, .f32⟩ : BufTy).Contents (Elt F) :=
  maximumf (broadcastInDim S50000 ![] bcast_S_S50000 (id o)) n

/-- The power -1/2, as a column. -/
def scaleOf (n : (⟨S50000, .f32⟩ : BufTy).Contents (Elt F)) : (⟨S50000x1, .f32⟩ : BufTy).Contents (Elt F) :=
  broadcastInDim S50000x1 ![0] bcast_S50000_S50000x1_0 (Host.powf n (broadcastInDim S50000 ![] bcast_S_S50000 (constant S_ .f32 0xBF000000#32)))

/-- The degree scaling is its pieces put together. -/
theorem normOf_eq (s : (⟨S800000, .i32⟩ : BufTy).Contents (Elt F)) :
    normOf s = scaleOf (clampWith one (countWith s onesPerEdge)) := rfl

end Cert.RefSteps

end
-- ==== Proof.Region0.lean ====
/-
  Kernel region 0: the scaled product from 128 to 128 features, ten blocks of 5000 rows.

  Grid point t stages rows 5000·t … 5000·t + 4999 of the features ([5000, 128]) and of the scaling column ([5000, 1]),
  and the whole weight ([128, 128]); the body multiplies the block by the weight on the matrix unit and scales row p by
  the column's entry p; the result block goes back to rows 5000·t … of the output. A row of a matrix product depends
  on that row of the left operand only, so the block written at t is the block at t of the whole-array scaled
  product of the arrays the region finds, and the ten blocks tile the output: after the region the output array IS
  that scaled product.
-/
import proofs.«131837_j18528488915141_1_alg».proof.Proof.Gen.KernelIdeal.Frame
import proofs.«131837_j18528488915141_1_alg».proof.Proof.RefSteps
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's accesses all start at the origin of their buffers. -/
theorem origin : (![0, 0] : Fin 2 → Nat) = fun _ => 0 := funext fun a => by fin_cases a <;> rfl

/-- The body's stored value at entry (p, q) of the block: the inner product of row p of the feature block with column
    q of the weight, times the scaling column's entry p. -/
theorem stored_entry (x0 : FVec Ideal S5000x128 .f32) (x1 : FVec Ideal S128x128 .f32) (x2 : FVec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  exact GraphLayer.block_scaled_entry dot_S5000x128_S128x128_S5000x128_1_0_0_1_n_n rfl Facts₀.bitsLt_bf16_f32 Facts₀.bitsLt_bf16_f32
    Facts₀.shapeCasts_S5000x1_S5000x1 Facts₀.broadcasts_S5000x1_S5000x128 x0 x1 x2 p q

/-- Where the windows' blocks sit at grid point t, decided over the ten points: the features, the column and the
    output at block row t; the weight whole. -/
theorem block_rows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 10 :=
  (by decide +kernel : ∀ t : Fin grid0.N, _)

variable (V : (c : Dev nD) → (b : Ref sig .tc) → Buf (Elt Ideal) ((c : Thread nD τ).loc b))

/-- What grid point t writes back is block t of the scaled product of the arrays the region finds. -/
theorem flushed_eq (c : Dev nD) (t : Fin cfg0.N) :
    (dat0 V c).flushed 3 t = ((cfg0.win 3).blk t).view.read (Elt Ideal)
      (RefSteps.scaled128x128 (F := Ideal) (V c main_arg0) (V c main_arg2) (V c main_v15)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin,
    View.ld_unit_zero (S := S5000x1) origin]
  obtain ⟨e00, e01, e10, e11, e20, e21, e30, e31, ht⟩ := block_rows t
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  show k0_pay1 (iblk0 V c 0 t) (iblk0 V c 1 t) (iblk0 V c 2 t) (ix2 p q)
    = RefSteps.scaled128x128 (F := Ideal) (V c main_arg0) (V c main_arg2) (V c main_v15) (((cfg0.win 3).blk t).view.emb (ix2 p q))
  have h3 : ((cfg0.win 3).blk t).view.emb (ix2 p q) = ix2 (⟨t.val * 5000 + p.val, hr⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have h0 : ∀ k : Fin 128, ((cfg0.win 0).blk t).view.emb (ix2 p k) = ix2 (⟨t.val * 5000 + p.val, hr⟩ : Fin 50000) k := by
    intro k; funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, ((cfg0.win 1).blk t).view.emb (ix2 k q) = ix2 k q := by
    intro k; funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 p (0 : Fin 1)) = ix2 (⟨t.val * 5000 + p.val, hr⟩ : Fin 50000) (0 : Fin 1) := by
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  refine (stored_entry (iblk0 V c 0 t) (iblk0 V c 1 t) (iblk0 V c 2 t) p q).trans ?_
  refine Eq.trans ?_ (congrArg (RefSteps.scaled128x128 (F := Ideal) (V c main_arg0) (V c main_arg2) (V c main_v15)) h3).symm
  refine Eq.trans ?_ (RefSteps.scaled128x128_entry (V c main_arg0) (V c main_arg2) (V c main_v15) ⟨t.val * 5000 + p.val, hr⟩ q).symm
  refine congrArg₂ (· * ·) (Finset.sum_congr rfl fun k _ => congrArg₂ (· * ·) ?_ ?_) ?_
  · show V c main_arg0 (((cfg0.win 0).blk t).view.emb (ix2 p k)) = V c main_arg0 (ix2 (⟨t.val * 5000 + p.val, hr⟩ : Fin 50000) k)
    exact congrArg (V c main_arg0) (h0 k)
  · show V c main_arg2 (((cfg0.win 1).blk t).view.emb (ix2 k q)) = V c main_arg2 (ix2 k q)
    exact congrArg (V c main_arg2) (h1 k)
  · show V c main_v15 (((cfg0.win 2).blk t).view.emb (ix2 p (0 : Fin 1))) = V c main_v15 (ix2 (⟨t.val * 5000 + p.val, hr⟩ : Fin 50000) (0 : Fin 1))
    exact congrArg (V c main_v15) h2

/-- An index of the output array is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v19).slice (win0_3.rect t)).set ↔ _
  rw [View.set_slice_whole, Rect.mem_set_unit]
  exact Iff.rfl

/-- Every block row of the output is some point's. -/
theorem block_row_onto : ∀ q0 : Fin 10, ∃ t : Fin cfg0.N, win0_3.index t = ![q0.val, 0] :=
  (by decide +kernel : ∀ q0 : Fin 10, ∃ t : Fin grid0.N, win0_3.index t = ![q0.val, 0])

/-- The ten blocks tile the output: row r lies in the block of the point at block row r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := block_row_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region its output array is the scaled product of the arrays it found. -/
theorem array_eq (c : Dev nD) : (dat0 V c).arrAt 3 cfg0.N
    = RefSteps.scaled128x128 (F := Ideal) (V c main_arg0) (V c main_arg2) (V c main_v15) :=
  (dat0 V c).arrAt_eq_of_cover 3 _ (fun t _ => flushed_eq V c t) covered

end Cert.KernelIdeal.Region0

end
-- ==== Proof.Region1.lean ====
/-
  Kernel region 1: the closing step 128 features wide, ten blocks of 5000 rows.

  Grid point t stages rows 5000·t … 5000·t + 4999 of the summed rows ([5000, 128]) and of the scaling column
  ([5000, 1]), and the bias as one row ([1, 128]); the body scales row p by the column's entry p, adds the bias row and
  clamps at zero; the result block goes back to rows 5000·t … of the output. The step is entry by entry, so the block
  written at t is the block at t of the whole-array closing step of the arrays the region finds (the bias row being a
  bias vector viewed as one row), and the ten blocks tile the output: after the region the output array IS that
  closing step.
-/
import proofs.«131837_j18528488915141_1_alg».proof.Proof.Gen.KernelIdeal.Frame
import proofs.«131837_j18528488915141_1_alg».proof.Proof.RefSteps
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's accesses all start at the origin of their buffers. -/
theorem origin : (![0, 0] : Fin 2 → Nat) = fun _ => 0 := funext fun a => by fin_cases a <;> rfl

/-- The body's stored value at entry (p, q) of the block: the summed row's entry times the scaling column's entry p,
    plus the bias row's entry q, clamped at zero. -/
theorem stored_entry (x0 : FVec Ideal S5000x128 .f32) (x1 : FVec Ideal S5000x1 .f32) (x2 : FVec Ideal S1x128 .f32)
    (p : Fin 5000) (q : Fin 128) :
    k1_pay1 x0 x1 x2 (ix2 p q)
      = max (x0 (ix2 p q) * x1 (ix2 p (0 : Fin 1)) + x2 (ix2 (0 : Fin 1) q)) (Ideal.ofBits .f32 0x00000000#32) := by
  unfold k1_pay1
  exact GraphLayer.block_closing_entry Facts₀.shapeCasts_S5000x128_S5000x128 Facts₀.shapeCasts_S5000x1_S5000x1 Facts₀.shapeCasts_S1x128_S1x128
    Facts₀.broadcasts_S5000x1_S5000x128 Facts₀.broadcasts_S1x128_S5000x128 x0 x1 x2 p q

/-- Where the windows' blocks sit at grid point t, decided over the ten points: the summed rows, the column and the
    output at block row t; the bias row whole. -/
theorem block_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

variable (V : (c : Dev nD) → (b : Ref sig .tc) → Buf (Elt Ideal) ((c : Thread nD τ).loc b))

/-- What grid point t writes back is block t of the closing step of the arrays the region finds, when the bias row
    it finds is the bias vector `b` viewed as one row. -/
theorem flushed_eq (c : Dev nD) (b : FVec Ideal S128 .f32)
    (hb : V c main_v30 = shapeCast S1x128 b Facts₀.shapeCasts_S128_S1x128) (t : Fin cfg1.N) :
    (dat1 V c).flushed 3 t = ((cfg1.win 3).blk t).view.read (Elt Ideal)
      (RefSteps.closing128 (F := Ideal) (V c main_v29) (V c main_v18) b) := by
  show (cfg1.win 3).cut (grid1.coords t) ((dat1 V c).after 3 t) = _
  rw [after1_3]
  unfold out1_3
  rw [View.canon_unit_zero origin]
  simp only [View.ld_unit_zero (S := S5000x128) origin, View.ld_unit_zero (S := S5000x1) origin,
    View.ld_unit_zero (S := S1x128) origin]
  obtain ⟨e00, e01, e10, e11, e20, e21, e30, e31, ht⟩ := block_rows t
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  show k1_pay1 (iblk1 V c 0 t) (iblk1 V c 1 t) (iblk1 V c 2 t) (ix2 p q)
    = RefSteps.closing128 (F := Ideal) (V c main_v29) (V c main_v18) b (((cfg1.win 3).blk t).view.emb (ix2 p q))
  have h3 : ((cfg1.win 3).blk t).view.emb (ix2 p q) = ix2 (⟨t.val * 5000 + p.val, hr⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  have h0 : ((cfg1.win 0).blk t).view.emb (ix2 p q) = ix2 (⟨t.val * 5000 + p.val, hr⟩ : Fin 50000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : ((cfg1.win 1).blk t).view.emb (ix2 p (0 : Fin 1)) = ix2 (⟨t.val * 5000 + p.val, hr⟩ : Fin 50000) (0 : Fin 1) := by
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  refine (stored_entry (iblk1 V c 0 t) (iblk1 V c 1 t) (iblk1 V c 2 t) p q).trans ?_
  refine Eq.trans ?_ (congrArg (RefSteps.closing128 (F := Ideal) (V c main_v29) (V c main_v18) b) h3).symm
  refine Eq.trans ?_ (RefSteps.closing128_entry (V c main_v29) (V c main_v18) b ⟨t.val * 5000 + p.val, hr⟩ q).symm
  refine congrArg (max · (Ideal.ofBits .f32 0x00000000#32)) (congrArg₂ (· + ·) (congrArg₂ (· * ·) ?_ ?_) ?_)
  · show V c main_v29 (((cfg1.win 0).blk t).view.emb (ix2 p q)) = V c main_v29 (ix2 (⟨t.val * 5000 + p.val, hr⟩ : Fin 50000) q)
    exact congrArg (V c main_v29) h0
  · show V c main_v18 (((cfg1.win 1).blk t).view.emb (ix2 p (0 : Fin 1))) = V c main_v18 (ix2 (⟨t.val * 5000 + p.val, hr⟩ : Fin 50000) (0 : Fin 1))
    exact congrArg (V c main_v18) h1
  · show V c main_v30 (((cfg1.win 2).blk t).view.emb (ix2 (0 : Fin 1) q)) = b (ix1 q)
    rw [h2, hb]
    exact GraphLayer.bias_row_entry Facts₀.shapeCasts_S128_S1x128 b q

/-- An index of the output array is in point t's block iff each coordinate is in the block's range on its axis. -/
theorem mem_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v31).slice (win1_3.rect t)).set ↔ _
  rw [View.set_slice_whole, Rect.mem_set_unit]
  exact Iff.rfl

/-- Every block row of the output is some point's. -/
theorem block_row_onto : ∀ q0 : Fin 10, ∃ t : Fin cfg1.N, win1_3.index t = ![q0.val, 0] :=
  (by decide +kernel : ∀ q0 : Fin 10, ∃ t : Fin grid1.N, win1_3.index t = ![q0.val, 0])

/-- The ten blocks tile the output: row r lies in the block of the point at block row r / 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := block_row_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region its output array is the closing step of the arrays it found and the bias vector. -/
theorem array_eq (c : Dev nD) (b : FVec Ideal S128 .f32)
    (hb : V c main_v30 = shapeCast S1x128 b Facts₀.shapeCasts_S128_S1x128) : (dat1 V c).arrAt 3 cfg1.N
    = RefSteps.closing128 (F := Ideal) (V c main_v29) (V c main_v18) b :=
  (dat1 V c).arrAt_eq_of_cover 3 _ (fun t _ => flushed_eq V c b hb t) covered

end Cert.KernelIdeal.Region1

end
-- ==== Proof.Region2.lean ====
/-
  Kernel region 2: the scaled product from 128 to 64 features, ten blocks of 5000 rows.

  Grid point t stages rows 5000·t … 5000·t + 4999 of the features ([5000, 128]) and of the scaling column ([5000, 1]),
  and the whole weight ([128, 64]); the body multiplies the block by the weight on the matrix unit and scales row p by
  the column's entry p; the result block goes back to rows 5000·t … of the output. A row of a matrix product depends
  on that row of the left operand only, so the block written at t is the block at t of the whole-array scaled
  product of the arrays the region finds, and the ten blocks tile the output: after the region the output array IS
  that scaled product.
-/
import proofs.«131837_j18528488915141_1_alg».proof.Proof.Gen.KernelIdeal.Frame
import proofs.«131837_j18528488915141_1_alg».proof.Proof.RefSteps
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's accesses all start at the origin of their buffers. -/
theorem origin : (![0, 0] : Fin 2 → Nat) = fun _ => 0 := funext fun a => by fin_cases a <;> rfl

/-- The body's stored value at entry (p, q) of the block: the inner product of row p of the feature block with column
    q of the weight, times the scaling column's entry p. -/
theorem stored_entry (x0 : FVec Ideal S5000x128 .f32) (x1 : FVec Ideal S128x64 .f32) (x2 : FVec Ideal S5000x1 .f32)
    (p : Fin 5000) (q : Fin 64) :
    k2_pay1 x0 x1 x2 (ix2 p q) = (∑ k : Fin 128, x0 (ix2 p k) * x1 (ix2 k q)) * x2 (ix2 p (0 : Fin 1)) := by
  unfold k2_pay1
  exact GraphLayer.block_scaled_entry_cast dot_S5000x128_S128x64_S5000x64_1_0_0_1_n_n rfl Facts₀.bitsLt_bf16_f32 Facts₀.bitsLt_bf16_f32
    Facts₀.shapeCasts_S5000x128_S5000x128 Facts₀.shapeCasts_S5000x1_S5000x1 Facts₀.broadcasts_S5000x1_S5000x64 x0 x1 x2 p q

/-- Where the windows' blocks sit at grid point t, decided over the ten points: the features, the column and the
    output at block row t; the weight whole. -/
theorem block_rows : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 10 :=
  (by decide +kernel : ∀ t : Fin grid2.N, _)

variable (V : (c : Dev nD) → (b : Ref sig .tc) → Buf (Elt Ideal) ((c : Thread nD τ).loc b))

/-- What grid point t writes back is block t of the scaled product of the arrays the region finds. -/
theorem flushed_eq (c : Dev nD) (t : Fin cfg2.N) :
    (dat2 V c).flushed 3 t = ((cfg2.win 3).blk t).view.read (Elt Ideal)
      (RefSteps.scaled128x64 (F := Ideal) (V c main_v31) (V c main_arg4) (V c main_v15)) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x64) origin,
    View.ld_unit_zero (S := S5000x1) origin]
  obtain ⟨e00, e01, e10, e11, e20, e21, e30, e31, ht⟩ := block_rows t
  funext j
  obtain ⟨p, q, rfl⟩ : ∃ (p : Fin 5000) (q : Fin 64), j = ix2 p q := ⟨j 0, j 1, eq_ix2 j⟩
  have hp : p.val < 5000 := p.isLt
  have hr : t.val * 5000 + p.val < 50000 := by omega
  show k2_pay1 (iblk2 V c 0 t) (iblk2 V c 1 t) (iblk2 V c 2 t) (ix2 p q)
    = RefSteps.scaled128x64 (F := Ideal) (V c main_v31) (V c main_arg4) (V c main_v15) (((cfg2.win 3).blk t).view.emb (ix2 p q))
  have h3 : ((cfg2.win 3).blk t).view.emb (ix2 p q) = ix2 (⟨t.val * 5000 + p.val, hr⟩ : Fin 50000) q := by
    funext a; apply Fin.ext
    match a with
    | ⟨0, _⟩ => show win2_3.index t (0 : Fin 2) * 5000 + 1 * p.val = t.val * 5000 + p.val; omega
    | ⟨1, _⟩ => show win2_3.index t (1 : Fin 2) * 64 + 1 * q.val = q.val; omega
  have h0 : ∀ k : Fin 128, ((cfg2.win 0).blk t).view.emb (ix2 p k) = ix2 (⟨t.val * 5000 + p.val, hr⟩ : Fin 50000) k := by
    intro k; funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, ((cfg2.win 1).blk t).view.emb (ix2 k q) = ix2 k q := by
    intro k; funext a; apply Fin.ext
    match a with
    | ⟨0, _⟩ => show win2_1.index t (0 : Fin 2) * 128 + 1 * k.val = k.val; omega
    | ⟨1, _⟩ => show win2_1.index t (1 : Fin 2) * 64 + 1 * q.val = q.val; omega
  have h2 : ((cfg2.win 2).blk t).view.emb (ix2 p (0 : Fin 1)) = ix2 (⟨t.val * 5000 + p.val, hr⟩ : Fin 50000) (0 : Fin 1) := by
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega
  refine (stored_entry (iblk2 V c 0 t) (iblk2 V c 1 t) (iblk2 V c 2 t) p q).trans ?_
  refine Eq.trans ?_ (congrArg (RefSteps.scaled128x64 (F := Ideal) (V c main_v31) (V c main_arg4) (V c main_v15)) h3).symm
  refine Eq.trans ?_ (RefSteps.scaled128x64_entry (V c main_v31) (V c main_arg4) (V c main_v15) ⟨t.val * 5000 + p.val, hr⟩ q).symm
  refine congrArg₂ (· * ·) (Finset.sum_congr rfl fun k _ => congrArg₂ (· * ·) ?_ ?_) ?_
  · show V c main_v31 (((cfg2.win 0).blk t).view.emb (ix2 p k)) = V c main_v31 (ix2 (⟨t.val * 5000 + p.val, hr⟩ : Fin 50000) k)
    exact congrArg (V c main_v31) (h0 k)
  · show V c main_arg4 (((cfg2.win 1).blk t).view.emb (ix2 k q)) = V c main_arg4 (ix2 k q)
    exact congrArg (V c main_arg4) (h1 k)
  · show V c main_v15 (((cfg2.win 2).blk t).view.emb (ix2 p (0 : Fin 1))) = V c main_v15 (ix2 (⟨t.val * 5000 + p.val, hr⟩ : Fin 50000) (0 : Fin 1))
    exact congrArg (V c main_v15) h2

/-- An index of the output array is in point t's block iff each coordinate is in the block's range on its axis. -/
theorem mem_block (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v32).slice (win2_3.rect t)).set ↔ _
  rw [View.set_slice_whole, Rect.mem_set_unit]
  exact Iff.rfl

/-- Every block row of the output is some point's. -/
theorem block_row_onto : ∀ q0 : Fin 10, ∃ t : Fin cfg2.N, win2_3.index t = ![q0.val, 0] :=
  (by decide +kernel : ∀ q0 : Fin 10, ∃ t : Fin grid2.N, win2_3.index t = ![q0.val, 0])

/-- The ten blocks tile the output: row r lies in the block of the point at block row r / 5000. -/
theorem covered (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := block_row_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- After the region its output array is the scaled product of the arrays it found. -/
theorem array_eq (c : Dev nD) : (dat2 V c).arrAt 3 cfg2.N
    = RefSteps.scaled128x64 (F := Ideal) (V c main_v31) (V c main_arg4) (V c main_v15) :=
  (dat2 V c).arrAt_eq_of_cover 3 _ (fun t _ => flushed_eq V c t) covered

end Cert.KernelIdeal.Region2

end
-- ==== Proof.Region3.lean ====
/-
  Kernel region 3: the closing step 64 features wide, ten blocks of 5000 rows.

  Grid point t stages rows 5000·t … 5000·t + 4999 of the summed rows ([5000, 64]) and of the scaling column
  ([5000, 1]), and the bias as one row ([1, 64]); the body scales row p by the column's entry p, adds the bias row and
  clamps at zero; the result block goes back to rows 5000·t … of the output. The step is entry by entry, so the block
  written at t is the block at t of the whole-array closing step of the arrays the region finds (the bias row being a
  bias vector viewed as one row), and the ten blocks tile the output: after the region the output array IS that
  closing step.
-/
import proofs.«131837_j18528488915141_1_alg».proof.Proof.Gen.KernelIdeal.Frame
import proofs.«131837_j18528488915141_1_alg».proof.Proof.RefSteps
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's accesses all start at the origin of their buffers. -/
theorem origin : (![0, 0] : Fin 2 → Nat) = fun _ => 0 := funext fun a => by fin_cases a <;> rfl

/-- The body's stored value at entry (p, q) of the block: the summed row's entry times the scaling column's entry p,
    plus the bias row's entry q, clamped at zero. -/
theorem stored_entry (x0 : FVec Ideal S5000x64 .f32) (x1 : FVec Ideal S5000x1 .f32) (x2 : FVec Ideal S1x64 .f32)
    (p : Fin 5000) (q : Fin 64) :
    k3_pay1 x0 x1 x2 (ix2 p q)
      = max (x0 (ix2 p q) * x1 (ix2 p (0 : Fin 1)) + x2 (ix2 (0 : Fin 1) q)) (Ideal.ofBits .f32 0x00000000#32) := by
  unfold k3_pay1
  exact GraphLayer.block_closing_entry Facts₀.shapeCasts_S5000x64_S5000x64 Facts₀.shapeCasts_S5000x1_S5000x1 Facts₀.shapeCasts_S1x64_S1x64
    Facts₀.broadcasts_S5000x1_S5000x64 Facts₀.broadcasts_S1x64_S5000x64 x0 x1 x2 p q

/-- Where the windows' blocks sit at grid point t, decided over the ten points: the summed rows, the column and the
    output at block row t; the bias row whole. -/
theorem block_rows : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 10 :=
  (by decide +kernel : ∀ t : Fin grid3.N, _)

variable (V : (c : Dev nD) → (b : Ref sig .tc) → Buf (Elt Ideal) ((c : Thread nD τ).loc b))

/-- What grid point t writes back is block t of the closing step of the arrays the region finds, when the bias row
    it finds is the bias vector `b` viewed as one row. -/
theorem flushed_eq (c : Dev nD) (b : FVec Ideal S64 .f32)
    (hb : V c main_v43 = shapeCast S1x64 b Facts₀.shapeCasts_S64_S1x64) (t : Fin cfg3.N) :
    (dat3 V c).flushed 3 t = ((cfg3.win 3).blk t).view.read (Elt Ideal)
      (RefSteps.closing64 (F := Ideal) (V c main_v42) (V c main_v18) b) := by
  show (cfg3.win 3).cut (grid3.coords t) ((dat3 V c).after 3 t) = _
  rw [after3_3]
  unfold out3_3
  rw [View.canon_unit_zero origin]
  simp only [View.ld_unit_zero (S := S5000x64) origin, View.ld_unit_zero (S := S5000x1) origin,
    View.ld_unit_zero (S := S1x64) origin]
  obtain ⟨e00, e01, e10, e11, e20, e21, e30, e31, ht⟩ := block_rows t
  funext j
  obtain ⟨p, q, rfl⟩ : ∃ (p : Fin 5000) (q : Fin 64), j = ix2 p q := ⟨j 0, j 1, eq_ix2 j⟩
  have hp : p.val < 5000 := p.isLt
  have hr : t.val * 5000 + p.val < 50000 := by omega
  show k3_pay1 (iblk3 V c 0 t) (iblk3 V c 1 t) (iblk3 V c 2 t) (ix2 p q)
    = RefSteps.closing64 (F := Ideal) (V c main_v42) (V c main_v18) b (((cfg3.win 3).blk t).view.emb (ix2 p q))
  have h3 : ((cfg3.win 3).blk t).view.emb (ix2 p q) = ix2 (⟨t.val * 5000 + p.val, hr⟩ : Fin 50000) q := by
    funext a; apply Fin.ext
    match a with
    | ⟨0, _⟩ => show win3_3.index t (0 : Fin 2) * 5000 + 1 * p.val = t.val * 5000 + p.val; omega
    | ⟨1, _⟩ => show win3_3.index t (1 : Fin 2) * 64 + 1 * q.val = q.val; omega
  have h0 : ((cfg3.win 0).blk t).view.emb (ix2 p q) = ix2 (⟨t.val * 5000 + p.val, hr⟩ : Fin 50000) q := by
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  have h1 : ((cfg3.win 1).blk t).view.emb (ix2 p (0 : Fin 1)) = ix2 (⟨t.val * 5000 + p.val, hr⟩ : Fin 50000) (0 : Fin 1) := by
    funext a; apply Fin.ext
    match a with
    | ⟨0, _⟩ => show win3_1.index t (0 : Fin 2) * 5000 + 1 * p.val = t.val * 5000 + p.val; omega
    | ⟨1, _⟩ => show win3_1.index t (1 : Fin 2) * 1 + 1 * 0 = 0; omega
  have h2 : ((cfg3.win 2).blk t).view.emb (ix2 (0 : Fin 1) q) = ix2 (0 : Fin 1) q := by
    funext a; apply Fin.ext
    match a with
    | ⟨0, _⟩ => show win3_2.index t (0 : Fin 2) * 1 + 1 * 0 = 0; omega
    | ⟨1, _⟩ => show win3_2.index t (1 : Fin 2) * 64 + 1 * q.val = q.val; omega
  refine (stored_entry (iblk3 V c 0 t) (iblk3 V c 1 t) (iblk3 V c 2 t) p q).trans ?_
  refine Eq.trans ?_ (congrArg (RefSteps.closing64 (F := Ideal) (V c main_v42) (V c main_v18) b) h3).symm
  refine Eq.trans ?_ (RefSteps.closing64_entry (V c main_v42) (V c main_v18) b ⟨t.val * 5000 + p.val, hr⟩ q).symm
  refine congrArg (max · (Ideal.ofBits .f32 0x00000000#32)) (congrArg₂ (· + ·) (congrArg₂ (· * ·) ?_ ?_) ?_)
  · show V c main_v42 (((cfg3.win 0).blk t).view.emb (ix2 p q)) = V c main_v42 (ix2 (⟨t.val * 5000 + p.val, hr⟩ : Fin 50000) q)
    exact congrArg (V c main_v42) h0
  · show V c main_v18 (((cfg3.win 1).blk t).view.emb (ix2 p (0 : Fin 1))) = V c main_v18 (ix2 (⟨t.val * 5000 + p.val, hr⟩ : Fin 50000) (0 : Fin 1))
    exact congrArg (V c main_v18) h1
  · show V c main_v43 (((cfg3.win 2).blk t).view.emb (ix2 (0 : Fin 1) q)) = b (ix1 q)
    rw [h2, hb]
    exact GraphLayer.bias_row_entry Facts₀.shapeCasts_S64_S1x64 b q

/-- An index of the output array is in point t's block iff each coordinate is in the block's range on its axis. -/
theorem mem_block (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v44).slice (win3_3.rect t)).set ↔ _
  rw [View.set_slice_whole, Rect.mem_set_unit]
  exact Iff.rfl

/-- Every block row of the output is some point's. -/
theorem block_row_onto : ∀ q0 : Fin 10, ∃ t : Fin cfg3.N, win3_3.index t = ![q0.val, 0] :=
  (by decide +kernel : ∀ q0 : Fin 10, ∃ t : Fin grid3.N, win3_3.index t = ![q0.val, 0])

/-- The ten blocks tile the output: row r lies in the block of the point at block row r / 5000. -/
theorem covered (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := block_row_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- After the region its output array is the closing step of the arrays it found and the bias vector. -/
theorem array_eq (c : Dev nD) (b : FVec Ideal S64 .f32)
    (hb : V c main_v43 = shapeCast S1x64 b Facts₀.shapeCasts_S64_S1x64) : (dat3 V c).arrAt 3 cfg3.N
    = RefSteps.closing64 (F := Ideal) (V c main_v42) (V c main_v18) b :=
  (dat3 V c).arrAt_eq_of_cover 3 _ (fun t _ => flushed_eq V c b hb t) covered

end Cert.KernelIdeal.Region3

end
-- ==== Proof.Region4.lean ====
/-
  Kernel region 4: the scaled product from 64 to 32 features, ten blocks of 5000 rows.

  Grid point t stages rows 5000·t … 5000·t + 4999 of the features ([5000, 64]) and of the scaling column ([5000, 1]),
  and the whole weight ([64, 32]); the body multiplies the block by the weight on the matrix unit and scales row p by
  the column's entry p; the result block goes back to rows 5000·t … of the output. A row of a matrix product depends
  on that row of the left operand only, so the block written at t is the block at t of the whole-array scaled
  product of the arrays the region finds, and the ten blocks tile the output: after the region the output array IS
  that scaled product.
-/
import proofs.«131837_j18528488915141_1_alg».proof.Proof.Gen.KernelIdeal.Frame
import proofs.«131837_j18528488915141_1_alg».proof.Proof.RefSteps
import Idealize.ShloMosaic.Lib.Pipeline.Value

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's accesses all start at the origin of their buffers. -/
theorem origin : (![0, 0] : Fin 2 → Nat) = fun _ => 0 := funext fun a => by fin_cases a <;> rfl

/-- The body's stored value at entry (p, q) of the block: the inner product of row p of the feature block with column
    q of the weight, times the scaling column's entry p. -/
theorem stored_entry (x0 : FVec Ideal S5000x64 .f32) (x1 : FVec Ideal S64x32 .f32) (x2 : FVec Ideal S5000x1 .f32)
    (p : Fin 5000) (q : Fin 32) :
    k4_pay1 x0 x1 x2 (ix2 p q) = (∑ k : Fin 64, x0 (ix2 p k) * x1 (ix2 k q)) * x2 (ix2 p (0 : Fin 1)) := by
  unfold k4_pay1
  exact GraphLayer.block_scaled_entry_cast dot_S5000x64_S64x32_S5000x32_1_0_0_1_n_n rfl Facts₀.bitsLt_bf16_f32 Facts₀.bitsLt_bf16_f32
    Facts₀.shapeCasts_S5000x64_S5000x64 Facts₀.shapeCasts_S5000x1_S5000x1 Facts₀.broadcasts_S5000x1_S5000x32 x0 x1 x2 p q

/-- Where the windows' blocks sit at grid point t, decided over the ten points: the features, the column and the
    output at block row t; the weight whole. -/
theorem block_rows : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 ∧ t.val < 10 :=
  (by decide +kernel : ∀ t : Fin grid4.N, _)

variable (V : (c : Dev nD) → (b : Ref sig .tc) → Buf (Elt Ideal) ((c : Thread nD τ).loc b))

/-- What grid point t writes back is block t of the scaled product of the arrays the region finds. -/
theorem flushed_eq (c : Dev nD) (t : Fin cfg4.N) :
    (dat4 V c).flushed 3 t = ((cfg4.win 3).blk t).view.read (Elt Ideal)
      (RefSteps.scaled64x32 (F := Ideal) (V c main_v44) (V c main_arg6) (V c main_v15)) := by
  show (cfg4.win 3).cut (grid4.coords t) ((dat4 V c).after 3 t) = _
  rw [after4_3]
  unfold out4_3
  rw [View.canon_unit_zero origin]
  simp only [View.ld_unit_zero (S := S5000x64) origin, View.ld_unit_zero (S := S64x32) origin,
    View.ld_unit_zero (S := S5000x1) origin]
  obtain ⟨e00, e01, e10, e11, e20, e21, e30, e31, ht⟩ := block_rows t
  funext j
  obtain ⟨p, q, rfl⟩ : ∃ (p : Fin 5000) (q : Fin 32), j = ix2 p q := ⟨j 0, j 1, eq_ix2 j⟩
  have hp : p.val < 5000 := p.isLt
  have hr : t.val * 5000 + p.val < 50000 := by omega
  show k4_pay1 (iblk4 V c 0 t) (iblk4 V c 1 t) (iblk4 V c 2 t) (ix2 p q)
    = RefSteps.scaled64x32 (F := Ideal) (V c main_v44) (V c main_arg6) (V c main_v15) (((cfg4.win 3).blk t).view.emb (ix2 p q))
  have h3 : ((cfg4.win 3).blk t).view.emb (ix2 p q) = ix2 (⟨t.val * 5000 + p.val, hr⟩ : Fin 50000) q := by
    funext a; apply Fin.ext
    match a with
    | ⟨0, _⟩ => show win4_3.index t (0 : Fin 2) * 5000 + 1 * p.val = t.val * 5000 + p.val; omega
    | ⟨1, _⟩ => show win4_3.index t (1 : Fin 2) * 32 + 1 * q.val = q.val; omega
  have h0 : ∀ k : Fin 64, ((cfg4.win 0).blk t).view.emb (ix2 p k) = ix2 (⟨t.val * 5000 + p.val, hr⟩ : Fin 50000) k := by
    intro k; funext a; apply Fin.ext
    match a with
    | ⟨0, _⟩ => show win4_0.index t (0 : Fin 2) * 5000 + 1 * p.val = t.val * 5000 + p.val; omega
    | ⟨1, _⟩ => show win4_0.index t (1 : Fin 2) * 64 + 1 * k.val = k.val; omega
  have h1 : ∀ k : Fin 64, ((cfg4.win 1).blk t).view.emb (ix2 k q) = ix2 k q := by
    intro k; funext a; apply Fin.ext
    match a with
    | ⟨0, _⟩ => show win4_1.index t (0 : Fin 2) * 64 + 1 * k.val = k.val; omega
    | ⟨1, _⟩ => show win4_1.index t (1 : Fin 2) * 32 + 1 * q.val = q.val; omega
  have h2 : ((cfg4.win 2).blk t).view.emb (ix2 p (0 : Fin 1)) = ix2 (⟨t.val * 5000 + p.val, hr⟩ : Fin 50000) (0 : Fin 1) := by
    funext a; apply Fin.ext
    match a with
    | ⟨0, _⟩ => show win4_2.index t (0 : Fin 2) * 5000 + 1 * p.val = t.val * 5000 + p.val; omega
    | ⟨1, _⟩ => show win4_2.index t (1 : Fin 2) * 1 + 1 * 0 = 0; omega
  refine (stored_entry (iblk4 V c 0 t) (iblk4 V c 1 t) (iblk4 V c 2 t) p q).trans ?_
  refine Eq.trans ?_ (congrArg (RefSteps.scaled64x32 (F := Ideal) (V c main_v44) (V c main_arg6) (V c main_v15)) h3).symm
  refine Eq.trans ?_ (RefSteps.scaled64x32_entry (V c main_v44) (V c main_arg6) (V c main_v15) ⟨t.val * 5000 + p.val, hr⟩ q).symm
  refine congrArg₂ (· * ·) (Finset.sum_congr rfl fun k _ => congrArg₂ (· * ·) ?_ ?_) ?_
  · show V c main_v44 (((cfg4.win 0).blk t).view.emb (ix2 p k)) = V c main_v44 (ix2 (⟨t.val * 5000 + p.val, hr⟩ : Fin 50000) k)
    exact congrArg (V c main_v44) (h0 k)
  · show V c main_arg6 (((cfg4.win 1).blk t).view.emb (ix2 k q)) = V c main_arg6 (ix2 k q)
    exact congrArg (V c main_arg6) (h1 k)
  · show V c main_v15 (((cfg4.win 2).blk t).view.emb (ix2 p (0 : Fin 1))) = V c main_v15 (ix2 (⟨t.val * 5000 + p.val, hr⟩ : Fin 50000) (0 : Fin 1))
    exact congrArg (V c main_v15) h2

/-- An index of the output array is in point t's block iff each coordinate is in the block's range on its axis. -/
theorem mem_block (t : Fin cfg4.N) (i : S50000x32.Idx) :
    i ∈ ((cfg4.win 3).blk t).view.set ↔ ∀ a : Fin 2, win4_3.index t a * S5000x32.size a ≤ (i a).val
      ∧ (i a).val < win4_3.index t a * S5000x32.size a + S5000x32.size a := by
  show i ∈ ((View.whole main_v45).slice (win4_3.rect t)).set ↔ _
  rw [View.set_slice_whole, Rect.mem_set_unit]
  exact Iff.rfl

/-- Every block row of the output is some point's. -/
theorem block_row_onto : ∀ q0 : Fin 10, ∃ t : Fin cfg4.N, win4_3.index t = ![q0.val, 0] :=
  (by decide +kernel : ∀ q0 : Fin 10, ∃ t : Fin grid4.N, win4_3.index t = ![q0.val, 0])

/-- The ten blocks tile the output: row r lies in the block of the point at block row r / 5000. -/
theorem covered (i : S50000x32.Idx) :
    ∃ t : Fin cfg4.N, (cfg4.win 3).flush t = true ∧ i ∈ ((cfg4.win 3).blk t).view.set := by
  have hi0 : (i 0).val < 50000 := (i 0).isLt
  have hi1 : (i 1).val < 32 := (i 1).isLt
  obtain ⟨t, ht⟩ := block_row_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_block]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 32 ≤ (i 1).val ∧ (i 1).val < win4_3.index t (1 : Fin 2) * 32 + 32; omega

/-- After the region its output array is the scaled product of the arrays it found. -/
theorem array_eq (c : Dev nD) : (dat4 V c).arrAt 3 cfg4.N
    = RefSteps.scaled64x32 (F := Ideal) (V c main_v44) (V c main_arg6) (V c main_v15) :=
  (dat4 V c).arrAt_eq_of_cover 3 _ (fun t _ => flushed_eq V c t) covered

end Cert.KernelIdeal.Region4

end
-- ==== Proof.Region5.lean ====
/-
  Kernel region 5: the closing step 32 features wide, ten blocks of 5000 rows.

  Grid point t stages rows 5000·t … 5000·t + 4999 of the summed rows ([5000, 32]) and of the scaling column
  ([5000, 1]), and the bias as one row ([1, 32]); the body scales row p by the column's entry p, adds the bias row and
  clamps at zero; the result block goes back to rows 5000·t … of the output. The step is entry by entry, so the block
  written at t is the block at t of the whole-array closing step of the arrays the region finds (the bias row being a
  bias vector viewed as one row), and the ten blocks tile the output: after the region the output array IS that
  closing step.
-/
import proofs.«131837_j18528488915141_1_alg».proof.Proof.Gen.KernelIdeal.Frame
import proofs.«131837_j18528488915141_1_alg».proof.Proof.RefSteps
import Idealize.ShloMosaic.Lib.Pipeline.Value

set_option maxRecDepth 16384

noncomputable section

namespace Cert.KernelIdeal.Region5

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's accesses all start at the origin of their buffers. -/
theorem origin : (![0, 0] : Fin 2 → Nat) = fun _ => 0 := funext fun a => by fin_cases a <;> rfl

/-- The body's stored value at entry (p, q) of the block: the summed row's entry times the scaling column's entry p,
    plus the bias row's entry q, clamped at zero. -/
theorem stored_entry (x0 : FVec Ideal S5000x32 .f32) (x1 : FVec Ideal S5000x1 .f32) (x2 : FVec Ideal S1x32 .f32)
    (p : Fin 5000) (q : Fin 32) :
    k5_pay1 x0 x1 x2 (ix2 p q)
      = max (x0 (ix2 p q) * x1 (ix2 p (0 : Fin 1)) + x2 (ix2 (0 : Fin 1) q)) (Ideal.ofBits .f32 0x00000000#32) := by
  unfold k5_pay1
  exact GraphLayer.block_closing_entry Facts₀.shapeCasts_S5000x32_S5000x32 Facts₀.shapeCasts_S5000x1_S5000x1 Facts₀.shapeCasts_S1x32_S1x32
    Facts₀.broadcasts_S5000x1_S5000x32 Facts₀.broadcasts_S1x32_S5000x32 x0 x1 x2 p q

/-- Where the windows' blocks sit at grid point t, decided over the ten points: the summed rows, the column and the
    output at block row t; the bias row whole. -/
theorem block_rows : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 ∧ t.val < 10 :=
  (by decide +kernel : ∀ t : Fin grid5.N, _)

variable (V : (c : Dev nD) → (b : Ref sig .tc) → Buf (Elt Ideal) ((c : Thread nD τ).loc b))

/-- What grid point t writes back is block t of the closing step of the arrays the region finds, when the bias row
    it finds is the bias vector `b` viewed as one row. -/
theorem flushed_eq (c : Dev nD) (b : FVec Ideal S32 .f32)
    (hb : V c main_v56 = shapeCast S1x32 b Facts₀.shapeCasts_S32_S1x32) (t : Fin cfg5.N) :
    (dat5 V c).flushed 3 t = ((cfg5.win 3).blk t).view.read (Elt Ideal)
      (RefSteps.closing32 (F := Ideal) (V c main_v55) (V c main_v18) b) := by
  show (cfg5.win 3).cut (grid5.coords t) ((dat5 V c).after 3 t) = _
  rw [after5_3]
  unfold out5_3
  rw [View.canon_unit_zero origin]
  simp only [View.ld_unit_zero (S := S5000x32) origin, View.ld_unit_zero (S := S5000x1) origin,
    View.ld_unit_zero (S := S1x32) origin]
  obtain ⟨e00, e01, e10, e11, e20, e21, e30, e31, ht⟩ := block_rows t
  funext j
  obtain ⟨p, q, rfl⟩ : ∃ (p : Fin 5000) (q : Fin 32), j = ix2 p q := ⟨j 0, j 1, eq_ix2 j⟩
  have hp : p.val < 5000 := p.isLt
  have hr : t.val * 5000 + p.val < 50000 := by omega
  show k5_pay1 (iblk5 V c 0 t) (iblk5 V c 1 t) (iblk5 V c 2 t) (ix2 p q)
    = RefSteps.closing32 (F := Ideal) (V c main_v55) (V c main_v18) b (((cfg5.win 3).blk t).view.emb (ix2 p q))
  have h3 : ((cfg5.win 3).blk t).view.emb (ix2 p q) = ix2 (⟨t.val * 5000 + p.val, hr⟩ : Fin 50000) q := by
    funext a; apply Fin.ext
    match a with
    | ⟨0, _⟩ => show win5_3.index t (0 : Fin 2) * 5000 + 1 * p.val = t.val * 5000 + p.val; omega
    | ⟨1, _⟩ => show win5_3.index t (1 : Fin 2) * 32 + 1 * q.val = q.val; omega
  have h0 : ((cfg5.win 0).blk t).view.emb (ix2 p q) = ix2 (⟨t.val * 5000 + p.val, hr⟩ : Fin 50000) q := by
    funext a; apply Fin.ext
    match a with
    | ⟨0, _⟩ => show win5_0.index t (0 : Fin 2) * 5000 + 1 * p.val = t.val * 5000 + p.val; omega
    | ⟨1, _⟩ => show win5_0.index t (1 : Fin 2) * 32 + 1 * q.val = q.val; omega
  have h1 : ((cfg5.win 1).blk t).view.emb (ix2 p (0 : Fin 1)) = ix2 (⟨t.val * 5000 + p.val, hr⟩ : Fin 50000) (0 : Fin 1) := by
    funext a; apply Fin.ext
    match a with
    | ⟨0, _⟩ => show win5_1.index t (0 : Fin 2) * 5000 + 1 * p.val = t.val * 5000 + p.val; omega
    | ⟨1, _⟩ => show win5_1.index t (1 : Fin 2) * 1 + 1 * 0 = 0; omega
  have h2 : ((cfg5.win 2).blk t).view.emb (ix2 (0 : Fin 1) q) = ix2 (0 : Fin 1) q := by
    funext a; apply Fin.ext
    match a with
    | ⟨0, _⟩ => show win5_2.index t (0 : Fin 2) * 1 + 1 * 0 = 0; omega
    | ⟨1, _⟩ => show win5_2.index t (1 : Fin 2) * 32 + 1 * q.val = q.val; omega
  refine (stored_entry (iblk5 V c 0 t) (iblk5 V c 1 t) (iblk5 V c 2 t) p q).trans ?_
  refine Eq.trans ?_ (congrArg (RefSteps.closing32 (F := Ideal) (V c main_v55) (V c main_v18) b) h3).symm
  refine Eq.trans ?_ (RefSteps.closing32_entry (V c main_v55) (V c main_v18) b ⟨t.val * 5000 + p.val, hr⟩ q).symm
  refine congrArg (max · (Ideal.ofBits .f32 0x00000000#32)) (congrArg₂ (· + ·) (congrArg₂ (· * ·) ?_ ?_) ?_)
  · show V c main_v55 (((cfg5.win 0).blk t).view.emb (ix2 p q)) = V c main_v55 (ix2 (⟨t.val * 5000 + p.val, hr⟩ : Fin 50000) q)
    exact congrArg (V c main_v55) h0
  · show V c main_v18 (((cfg5.win 1).blk t).view.emb (ix2 p (0 : Fin 1))) = V c main_v18 (ix2 (⟨t.val * 5000 + p.val, hr⟩ : Fin 50000) (0 : Fin 1))
    exact congrArg (V c main_v18) h1
  · show V c main_v56 (((cfg5.win 2).blk t).view.emb (ix2 (0 : Fin 1) q)) = b (ix1 q)
    rw [h2, hb]
    exact GraphLayer.bias_row_entry Facts₀.shapeCasts_S32_S1x32 b q

/-- An index of the output array is in point t's block iff each coordinate is in the block's range on its axis. -/
theorem mem_block (t : Fin cfg5.N) (i : S50000x32.Idx) :
    i ∈ ((cfg5.win 3).blk t).view.set ↔ ∀ a : Fin 2, win5_3.index t a * S5000x32.size a ≤ (i a).val
      ∧ (i a).val < win5_3.index t a * S5000x32.size a + S5000x32.size a := by
  show i ∈ ((View.whole main_v57).slice (win5_3.rect t)).set ↔ _
  rw [View.set_slice_whole, Rect.mem_set_unit]
  exact Iff.rfl

/-- Every block row of the output is some point's. -/
theorem block_row_onto : ∀ q0 : Fin 10, ∃ t : Fin cfg5.N, win5_3.index t = ![q0.val, 0] :=
  (by decide +kernel : ∀ q0 : Fin 10, ∃ t : Fin grid5.N, win5_3.index t = ![q0.val, 0])

/-- The ten blocks tile the output: row r lies in the block of the point at block row r / 5000. -/
theorem covered (i : S50000x32.Idx) :
    ∃ t : Fin cfg5.N, (cfg5.win 3).flush t = true ∧ i ∈ ((cfg5.win 3).blk t).view.set := by
  have hi0 : (i 0).val < 50000 := (i 0).isLt
  have hi1 : (i 1).val < 32 := (i 1).isLt
  obtain ⟨t, ht⟩ := block_row_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_block]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 32 ≤ (i 1).val ∧ (i 1).val < win5_3.index t (1 : Fin 2) * 32 + 32; omega

/-- After the region its output array is the closing step of the arrays it found and the bias vector. -/
theorem array_eq (c : Dev nD) (b : FVec Ideal S32 .f32)
    (hb : V c main_v56 = shapeCast S1x32 b Facts₀.shapeCasts_S32_S1x32) : (dat5 V c).arrAt 3 cfg5.N
    = RefSteps.closing32 (F := Ideal) (V c main_v55) (V c main_v18) b :=
  (dat5 V c).arrAt_eq_of_cover 3 _ (fun t _ => flushed_eq V c b hb t) covered

end Cert.KernelIdeal.Region5

end
-- ==== Proof.Region6.lean ====
/-
  Kernel region 6: the scaled product from 32 to 16 features, ten blocks of 5000 rows.

  Grid point t stages rows 5000·t … 5000·t + 4999 of the features ([5000, 32]) and of the scaling column ([5000, 1]),
  and the whole weight ([32, 16]); the body multiplies the block by the weight on the matrix unit and scales row p by
  the column's entry p; the result block goes back to rows 5000·t … of the output. A row of a matrix product depends
  on that row of the left operand only, so the block written at t is the block at t of the whole-array scaled
  product of the arrays the region finds, and the ten blocks tile the output: after the region the output array IS
  that scaled product.
-/
import proofs.«131837_j18528488915141_1_alg».proof.Proof.Gen.KernelIdeal.Frame
import proofs.«131837_j18528488915141_1_alg».proof.Proof.RefSteps
import Idealize.ShloMosaic.Lib.Pipeline.Value

set_option maxRecDepth 16384

noncomputable section

namespace Cert.KernelIdeal.Region6

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's accesses all start at the origin of their buffers. -/
theorem origin : (![0, 0] : Fin 2 → Nat) = fun _ => 0 := funext fun a => by fin_cases a <;> rfl

/-- The body's stored value at entry (p, q) of the block: the inner product of row p of the feature block with column
    q of the weight, times the scaling column's entry p. -/
theorem stored_entry (x0 : FVec Ideal S5000x32 .f32) (x1 : FVec Ideal S32x16 .f32) (x2 : FVec Ideal S5000x1 .f32)
    (p : Fin 5000) (q : Fin 16) :
    k6_pay1 x0 x1 x2 (ix2 p q) = (∑ k : Fin 32, x0 (ix2 p k) * x1 (ix2 k q)) * x2 (ix2 p (0 : Fin 1)) := by
  unfold k6_pay1
  exact GraphLayer.block_scaled_entry_cast dot_S5000x32_S32x16_S5000x16_1_0_0_1_n_n rfl Facts₀.bitsLt_bf16_f32 Facts₀.bitsLt_bf16_f32
    Facts₀.shapeCasts_S5000x32_S5000x32 Facts₀.shapeCasts_S5000x1_S5000x1 Facts₀.broadcasts_S5000x1_S5000x16 x0 x1 x2 p q

/-- Where the windows' blocks sit at grid point t, decided over the ten points: the features, the column and the
    output at block row t; the weight whole. -/
theorem block_rows : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 ∧ t.val < 10 :=
  (by decide +kernel : ∀ t : Fin grid6.N, _)

variable (V : (c : Dev nD) → (b : Ref sig .tc) → Buf (Elt Ideal) ((c : Thread nD τ).loc b))

/-- What grid point t writes back is block t of the scaled product of the arrays the region finds. -/
theorem flushed_eq (c : Dev nD) (t : Fin cfg6.N) :
    (dat6 V c).flushed 3 t = ((cfg6.win 3).blk t).view.read (Elt Ideal)
      (RefSteps.scaled32x16 (F := Ideal) (V c main_v57) (V c main_arg8) (V c main_v15)) := by
  show (cfg6.win 3).cut (grid6.coords t) ((dat6 V c).after 3 t) = _
  rw [after6_3]
  unfold out6_3
  rw [View.canon_unit_zero origin]
  simp only [View.ld_unit_zero (S := S5000x32) origin, View.ld_unit_zero (S := S32x16) origin,
    View.ld_unit_zero (S := S5000x1) origin]
  obtain ⟨e00, e01, e10, e11, e20, e21, e30, e31, ht⟩ := block_rows t
  funext j
  obtain ⟨p, q, rfl⟩ : ∃ (p : Fin 5000) (q : Fin 16), j = ix2 p q := ⟨j 0, j 1, eq_ix2 j⟩
  have hp : p.val < 5000 := p.isLt
  have hr : t.val * 5000 + p.val < 50000 := by omega
  show k6_pay1 (iblk6 V c 0 t) (iblk6 V c 1 t) (iblk6 V c 2 t) (ix2 p q)
    = RefSteps.scaled32x16 (F := Ideal) (V c main_v57) (V c main_arg8) (V c main_v15) (((cfg6.win 3).blk t).view.emb (ix2 p q))
  have h3 : ((cfg6.win 3).blk t).view.emb (ix2 p q) = ix2 (⟨t.val * 5000 + p.val, hr⟩ : Fin 50000) q := by
    funext a; apply Fin.ext
    match a with
    | ⟨0, _⟩ => show win6_3.index t (0 : Fin 2) * 5000 + 1 * p.val = t.val * 5000 + p.val; omega
    | ⟨1, _⟩ => show win6_3.index t (1 : Fin 2) * 16 + 1 * q.val = q.val; omega
  have h0 : ∀ k : Fin 32, ((cfg6.win 0).blk t).view.emb (ix2 p k) = ix2 (⟨t.val * 5000 + p.val, hr⟩ : Fin 50000) k := by
    intro k; funext a; apply Fin.ext
    match a with
    | ⟨0, _⟩ => show win6_0.index t (0 : Fin 2) * 5000 + 1 * p.val = t.val * 5000 + p.val; omega
    | ⟨1, _⟩ => show win6_0.index t (1 : Fin 2) * 32 + 1 * k.val = k.val; omega
  have h1 : ∀ k : Fin 32, ((cfg6.win 1).blk t).view.emb (ix2 k q) = ix2 k q := by
    intro k; funext a; apply Fin.ext
    match a with
    | ⟨0, _⟩ => show win6_1.index t (0 : Fin 2) * 32 + 1 * k.val = k.val; omega
    | ⟨1, _⟩ => show win6_1.index t (1 : Fin 2) * 16 + 1 * q.val = q.val; omega
  have h2 : ((cfg6.win 2).blk t).view.emb (ix2 p (0 : Fin 1)) = ix2 (⟨t.val * 5000 + p.val, hr⟩ : Fin 50000) (0 : Fin 1) := by
    funext a; apply Fin.ext
    match a with
    | ⟨0, _⟩ => show win6_2.index t (0 : Fin 2) * 5000 + 1 * p.val = t.val * 5000 + p.val; omega
    | ⟨1, _⟩ => show win6_2.index t (1 : Fin 2) * 1 + 1 * 0 = 0; omega
  refine (stored_entry (iblk6 V c 0 t) (iblk6 V c 1 t) (iblk6 V c 2 t) p q).trans ?_
  refine Eq.trans ?_ (congrArg (RefSteps.scaled32x16 (F := Ideal) (V c main_v57) (V c main_arg8) (V c main_v15)) h3).symm
  refine Eq.trans ?_ (RefSteps.scaled32x16_entry (V c main_v57) (V c main_arg8) (V c main_v15) ⟨t.val * 5000 + p.val, hr⟩ q).symm
  refine congrArg₂ (· * ·) (Finset.sum_congr rfl fun k _ => congrArg₂ (· * ·) ?_ ?_) ?_
  · show V c main_v57 (((cfg6.win 0).blk t).view.emb (ix2 p k)) = V c main_v57 (ix2 (⟨t.val * 5000 + p.val, hr⟩ : Fin 50000) k)
    exact congrArg (V c main_v57) (h0 k)
  · show V c main_arg8 (((cfg6.win 1).blk t).view.emb (ix2 k q)) = V c main_arg8 (ix2 k q)
    exact congrArg (V c main_arg8) (h1 k)
  · show V c main_v15 (((cfg6.win 2).blk t).view.emb (ix2 p (0 : Fin 1))) = V c main_v15 (ix2 (⟨t.val * 5000 + p.val, hr⟩ : Fin 50000) (0 : Fin 1))
    exact congrArg (V c main_v15) h2

/-- An index of the output array is in point t's block iff each coordinate is in the block's range on its axis. -/
theorem mem_block (t : Fin cfg6.N) (i : S50000x16.Idx) :
    i ∈ ((cfg6.win 3).blk t).view.set ↔ ∀ a : Fin 2, win6_3.index t a * S5000x16.size a ≤ (i a).val
      ∧ (i a).val < win6_3.index t a * S5000x16.size a + S5000x16.size a := by
  show i ∈ ((View.whole main_v58).slice (win6_3.rect t)).set ↔ _
  rw [View.set_slice_whole, Rect.mem_set_unit]
  exact Iff.rfl

/-- Every block row of the output is some point's. -/
theorem block_row_onto : ∀ q0 : Fin 10, ∃ t : Fin cfg6.N, win6_3.index t = ![q0.val, 0] :=
  (by decide +kernel : ∀ q0 : Fin 10, ∃ t : Fin grid6.N, win6_3.index t = ![q0.val, 0])

/-- The ten blocks tile the output: row r lies in the block of the point at block row r / 5000. -/
theorem covered (i : S50000x16.Idx) :
    ∃ t : Fin cfg6.N, (cfg6.win 3).flush t = true ∧ i ∈ ((cfg6.win 3).blk t).view.set := by
  have hi0 : (i 0).val < 50000 := (i 0).isLt
  have hi1 : (i 1).val < 16 := (i 1).isLt
  obtain ⟨t, ht⟩ := block_row_onto ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_block]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 16 ≤ (i 1).val ∧ (i 1).val < win6_3.index t (1 : Fin 2) * 16 + 16; omega

/-- After the region its output array is the scaled product of the arrays it found. -/
theorem array_eq (c : Dev nD) : (dat6 V c).arrAt 3 cfg6.N
    = RefSteps.scaled32x16 (F := Ideal) (V c main_v57) (V c main_arg8) (V c main_v15) :=
  (dat6 V c).arrAt_eq_of_cover 3 _ (fun t _ => flushed_eq V c t) covered

end Cert.KernelIdeal.Region6

end
-- ==== Proof.Region7.lean ====
/-
  Kernel region 7: the closing step 16 features wide, ten blocks of 5000 rows.

  Grid point t stages rows 5000·t … 5000·t + 4999 of the summed rows ([5000, 16]) and of the scaling column
  ([5000, 1]), and the bias as one row ([1, 16]); the body scales row p by the column's entry p, adds the bias row and
  clamps at zero; the result block goes back to rows 5000·t … of the output. The step is entry by entry, so the block
  written at t is the block at t of the whole-array closing step of the arrays the region finds (the bias row being a
  bias vector viewed as one row), and the ten blocks tile the output: after the region the output array IS that
  closing step.
-/
import proofs.«131837_j18528488915141_1_alg».proof.Proof.Gen.KernelIdeal.Frame
import proofs.«131837_j18528488915141_1_alg».proof.Proof.RefSteps
import Idealize.ShloMosaic.Lib.Pipeline.Value

set_option maxRecDepth 16384

noncomputable section

namespace Cert.KernelIdeal.Region7

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's accesses all start at the origin of their buffers. -/
theorem origin : (![0, 0] : Fin 2 → Nat) = fun _ => 0 := funext fun a => by fin_cases a <;> rfl

/-- The body's stored value at entry (p, q) of the block: the summed row's entry times the scaling column's entry p,
    plus the bias row's entry q, clamped at zero. -/
theorem stored_entry (x0 : FVec Ideal S5000x16 .f32) (x1 : FVec Ideal S5000x1 .f32) (x2 : FVec Ideal S1x16 .f32)
    (p : Fin 5000) (q : Fin 16) :
    k7_pay1 x0 x1 x2 (ix2 p q)
      = max (x0 (ix2 p q) * x1 (ix2 p (0 : Fin 1)) + x2 (ix2 (0 : Fin 1) q)) (Ideal.ofBits .f32 0x00000000#32) := by
  unfold k7_pay1
  exact GraphLayer.block_closing_entry Facts₀.shapeCasts_S5000x16_S5000x16 Facts₀.shapeCasts_S5000x1_S5000x1 Facts₀.shapeCasts_S1x16_S1x16
    Facts₀.broadcasts_S5000x1_S5000x16 Facts₀.broadcasts_S1x16_S5000x16 x0 x1 x2 p q

/-- Where the windows' blocks sit at grid point t, decided over the ten points: the summed rows, the column and the
    output at block row t; the bias row whole. -/
theorem block_rows : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 ∧ t.val < 10 :=
  (by decide +kernel : ∀ t : Fin grid7.N, _)

variable (V : (c : Dev nD) → (b : Ref sig .tc) → Buf (Elt Ideal) ((c : Thread nD τ).loc b))

/-- What grid point t writes back is block t of the closing step of the arrays the region finds, when the bias row
    it finds is the bias vector `b` viewed as one row. -/
theorem flushed_eq (c : Dev nD) (b : FVec Ideal S16 .f32)
    (hb : V c main_v69 = shapeCast S1x16 b Facts₀.shapeCasts_S16_S1x16) (t : Fin cfg7.N) :
    (dat7 V c).flushed 3 t = ((cfg7.win 3).blk t).view.read (Elt Ideal)
      (RefSteps.closing16 (F := Ideal) (V c main_v68) (V c main_v18) b) := by
  show (cfg7.win 3).cut (grid7.coords t) ((dat7 V c).after 3 t) = _
  rw [after7_3]
  unfold out7_3
  rw [View.canon_unit_zero origin]
  simp only [View.ld_unit_zero (S := S5000x16) origin, View.ld_unit_zero (S := S5000x1) origin,
    View.ld_unit_zero (S := S1x16) origin]
  obtain ⟨e00, e01, e10, e11, e20, e21, e30, e31, ht⟩ := block_rows t
  funext j
  obtain ⟨p, q, rfl⟩ : ∃ (p : Fin 5000) (q : Fin 16), j = ix2 p q := ⟨j 0, j 1, eq_ix2 j⟩
  have hp : p.val < 5000 := p.isLt
  have hr : t.val * 5000 + p.val < 50000 := by omega
  show k7_pay1 (iblk7 V c 0 t) (iblk7 V c 1 t) (iblk7 V c 2 t) (ix2 p q)
    = RefSteps.closing16 (F := Ideal) (V c main_v68) (V c main_v18) b (((cfg7.win 3).blk t).view.emb (ix2 p q))
  have h3 : ((cfg7.win 3).blk t).view.emb (ix2 p q) = ix2 (⟨t.val * 5000 + p.val, hr⟩ : Fin 50000) q := by
    funext a; apply Fin.ext
    match a with
    | ⟨0, _⟩ => show win7_3.index t (0 : Fin 2) * 5000 + 1 * p.val = t.val * 5000 + p.val; omega
    | ⟨1, _⟩ => show win7_3.index t (1 : Fin 2) * 16 + 1 * q.val = q.val; omega
  have h0 : ((cfg7.win 0).blk t).view.emb (ix2 p q) = ix2 (⟨t.val * 5000 + p.val, hr⟩ : Fin 50000) q := by
    funext a; apply Fin.ext
    match a with
    | ⟨0, _⟩ => show win7_0.index t (0 : Fin 2) * 5000 + 1 * p.val = t.val * 5000 + p.val; omega
    | ⟨1, _⟩ => show win7_0.index t (1 : Fin 2) * 16 + 1 * q.val = q.val; omega
  have h1 : ((cfg7.win 1).blk t).view.emb (ix2 p (0 : Fin 1)) = ix2 (⟨t.val * 5000 + p.val, hr⟩ : Fin 50000) (0 : Fin 1) := by
    funext a; apply Fin.ext
    match a with
    | ⟨0, _⟩ => show win7_1.index t (0 : Fin 2) * 5000 + 1 * p.val = t.val * 5000 + p.val; omega
    | ⟨1, _⟩ => show win7_1.index t (1 : Fin 2) * 1 + 1 * 0 = 0; omega
  have h2 : ((cfg7.win 2).blk t).view.emb (ix2 (0 : Fin 1) q) = ix2 (0 : Fin 1) q := by
    funext a; apply Fin.ext
    match a with
    | ⟨0, _⟩ => show win7_2.index t (0 : Fin 2) * 1 + 1 * 0 = 0; omega
    | ⟨1, _⟩ => show win7_2.index t (1 : Fin 2) * 16 + 1 * q.val = q.val; omega
  refine (stored_entry (iblk7 V c 0 t) (iblk7 V c 1 t) (iblk7 V c 2 t) p q).trans ?_
  refine Eq.trans ?_ (congrArg (RefSteps.closing16 (F := Ideal) (V c main_v68) (V c main_v18) b) h3).symm
  refine Eq.trans ?_ (RefSteps.closing16_entry (V c main_v68) (V c main_v18) b ⟨t.val * 5000 + p.val, hr⟩ q).symm
  refine congrArg (max · (Ideal.ofBits .f32 0x00000000#32)) (congrArg₂ (· + ·) (congrArg₂ (· * ·) ?_ ?_) ?_)
  · show V c main_v68 (((cfg7.win 0).blk t).view.emb (ix2 p q)) = V c main_v68 (ix2 (⟨t.val * 5000 + p.val, hr⟩ : Fin 50000) q)
    exact congrArg (V c main_v68) h0
  · show V c main_v18 (((cfg7.win 1).blk t).view.emb (ix2 p (0 : Fin 1))) = V c main_v18 (ix2 (⟨t.val * 5000 + p.val, hr⟩ : Fin 50000) (0 : Fin 1))
    exact congrArg (V c main_v18) h1
  · show V c main_v69 (((cfg7.win 2).blk t).view.emb (ix2 (0 : Fin 1) q)) = b (ix1 q)
    rw [h2, hb]
    exact GraphLayer.bias_row_entry Facts₀.shapeCasts_S16_S1x16 b q

/-- An index of the output array is in point t's block iff each coordinate is in the block's range on its axis. -/
theorem mem_block (t : Fin cfg7.N) (i : S50000x16.Idx) :
    i ∈ ((cfg7.win 3).blk t).view.set ↔ ∀ a : Fin 2, win7_3.index t a * S5000x16.size a ≤ (i a).val
      ∧ (i a).val < win7_3.index t a * S5000x16.size a + S5000x16.size a := by
  show i ∈ ((View.whole main_v70).slice (win7_3.rect t)).set ↔ _
  rw [View.set_slice_whole, Rect.mem_set_unit]
  exact Iff.rfl

/-- Every block row of the output is some point's. -/
theorem block_row_onto : ∀ q0 : Fin 10, ∃ t : Fin cfg7.N, win7_3.index t = ![q0.val, 0] :=
  (by decide +kernel : ∀ q0 : Fin 10, ∃ t : Fin grid7.N, win7_3.index t = ![q0.val, 0])

/-- The ten blocks tile the output: row r lies in the block of the point at block row r / 5000. -/
theorem covered (i : S50000x16.Idx) :
    ∃ t : Fin cfg7.N, (cfg7.win 3).flush t = true ∧ i ∈ ((cfg7.win 3).blk t).view.set := by
  have hi0 : (i 0).val < 50000 := (i 0).isLt
  have hi1 : (i 1).val < 16 := (i 1).isLt
  obtain ⟨t, ht⟩ := block_row_onto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_block]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 16 ≤ (i 1).val ∧ (i 1).val < win7_3.index t (1 : Fin 2) * 16 + 16; omega

/-- After the region its output array is the closing step of the arrays it found and the bias vector. -/
theorem array_eq (c : Dev nD) (b : FVec Ideal S16 .f32)
    (hb : V c main_v69 = shapeCast S1x16 b Facts₀.shapeCasts_S16_S1x16) : (dat7 V c).arrAt 3 cfg7.N
    = RefSteps.closing16 (F := Ideal) (V c main_v68) (V c main_v18) b :=
  (dat7 V c).arrAt_eq_of_cover 3 _ (fun t _ => flushed_eq V c b hb t) covered

end Cert.KernelIdeal.Region7

end
-- ==== Proof.Region8.lean ====
/-
  Kernel region 8: the scaled product from 16 to 16 features, ten blocks of 5000 rows.

  Grid point t stages rows 5000·t … 5000·t + 4999 of the features ([5000, 16]) and of the scaling column ([5000, 1]),
  and the whole weight ([16, 16]); the body multiplies the block by the weight on the matrix unit and scales row p by
  the column's entry p; the result block goes back to rows 5000·t … of the output. A row of a matrix product depends
  on that row of the left operand only, so the block written at t is the block at t of the whole-array scaled
  product of the arrays the region finds, and the ten blocks tile the output: after the region the output array IS
  that scaled product.
-/
import proofs.«131837_j18528488915141_1_alg».proof.Proof.Gen.KernelIdeal.Frame
import proofs.«131837_j18528488915141_1_alg».proof.Proof.RefSteps
import Idealize.ShloMosaic.Lib.Pipeline.Value

set_option maxRecDepth 16384

noncomputable section

namespace Cert.KernelIdeal.Region8

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's accesses all start at the origin of their buffers. -/
theorem origin : (![0, 0] : Fin 2 → Nat) = fun _ => 0 := funext fun a => by fin_cases a <;> rfl

/-- The body's stored value at entry (p, q) of the block: the inner product of row p of the feature block with column
    q of the weight, times the scaling column's entry p. -/
theorem stored_entry (x0 : FVec Ideal S5000x16 .f32) (x1 : FVec Ideal S16x16 .f32) (x2 : FVec Ideal S5000x1 .f32)
    (p : Fin 5000) (q : Fin 16) :
    k8_pay1 x0 x1 x2 (ix2 p q) = (∑ k : Fin 16, x0 (ix2 p k) * x1 (ix2 k q)) * x2 (ix2 p (0 : Fin 1)) := by
  unfold k8_pay1
  exact GraphLayer.block_scaled_entry_cast dot_S5000x16_S16x16_S5000x16_1_0_0_1_n_n rfl Facts₀.bitsLt_bf16_f32 Facts₀.bitsLt_bf16_f32
    Facts₀.shapeCasts_S5000x16_S5000x16 Facts₀.shapeCasts_S5000x1_S5000x1 Facts₀.broadcasts_S5000x1_S5000x16 x0 x1 x2 p q

/-- Where the windows' blocks sit at grid point t, decided over the ten points: the features, the column and the
    output at block row t; the weight whole. -/
theorem block_rows : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 ∧ t.val < 10 :=
  (by decide +kernel : ∀ t : Fin grid8.N, _)

variable (V : (c : Dev nD) → (b : Ref sig .tc) → Buf (Elt Ideal) ((c : Thread nD τ).loc b))

/-- What grid point t writes back is block t of the scaled product of the arrays the region finds. -/
theorem flushed_eq (c : Dev nD) (t : Fin cfg8.N) :
    (dat8 V c).flushed 3 t = ((cfg8.win 3).blk t).view.read (Elt Ideal)
      (RefSteps.scaled16x16 (F := Ideal) (V c main_v70) (V c main_arg10) (V c main_v15)) := by
  show (cfg8.win 3).cut (grid8.coords t) ((dat8 V c).after 3 t) = _
  rw [after8_3]
  unfold out8_3
  rw [View.canon_unit_zero origin]
  simp only [View.ld_unit_zero (S := S5000x16) origin, View.ld_unit_zero (S := S16x16) origin,
    View.ld_unit_zero (S := S5000x1) origin]
  obtain ⟨e00, e01, e10, e11, e20, e21, e30, e31, ht⟩ := block_rows t
  funext j
  obtain ⟨p, q, rfl⟩ : ∃ (p : Fin 5000) (q : Fin 16), j = ix2 p q := ⟨j 0, j 1, eq_ix2 j⟩
  have hp : p.val < 5000 := p.isLt
  have hr : t.val * 5000 + p.val < 50000 := by omega
  show k8_pay1 (iblk8 V c 0 t) (iblk8 V c 1 t) (iblk8 V c 2 t) (ix2 p q)
    = RefSteps.scaled16x16 (F := Ideal) (V c main_v70) (V c main_arg10) (V c main_v15) (((cfg8.win 3).blk t).view.emb (ix2 p q))
  have h3 : ((cfg8.win 3).blk t).view.emb (ix2 p q) = ix2 (⟨t.val * 5000 + p.val, hr⟩ : Fin 50000) q := by
    funext a; apply Fin.ext
    match a with
    | ⟨0, _⟩ => show win8_3.index t (0 : Fin 2) * 5000 + 1 * p.val = t.val * 5000 + p.val; omega
    | ⟨1, _⟩ => show win8_3.index t (1 : Fin 2) * 16 + 1 * q.val = q.val; omega
  have h0 : ∀ k : Fin 16, ((cfg8.win 0).blk t).view.emb (ix2 p k) = ix2 (⟨t.val * 5000 + p.val, hr⟩ : Fin 50000) k := by
    intro k; funext a; apply Fin.ext
    match a with
    | ⟨0, _⟩ => show win8_0.index t (0 : Fin 2) * 5000 + 1 * p.val = t.val * 5000 + p.val; omega
    | ⟨1, _⟩ => show win8_0.index t (1 : Fin 2) * 16 + 1 * k.val = k.val; omega
  have h1 : ∀ k : Fin 16, ((cfg8.win 1).blk t).view.emb (ix2 k q) = ix2 k q := by
    intro k; funext a; apply Fin.ext
    match a with
    | ⟨0, _⟩ => show win8_1.index t (0 : Fin 2) * 16 + 1 * k.val = k.val; omega
    | ⟨1, _⟩ => show win8_1.index t (1 : Fin 2) * 16 + 1 * q.val = q.val; omega
  have h2 : ((cfg8.win 2).blk t).view.emb (ix2 p (0 : Fin 1)) = ix2 (⟨t.val * 5000 + p.val, hr⟩ : Fin 50000) (0 : Fin 1) := by
    funext a; apply Fin.ext
    match a with
    | ⟨0, _⟩ => show win8_2.index t (0 : Fin 2) * 5000 + 1 * p.val = t.val * 5000 + p.val; omega
    | ⟨1, _⟩ => show win8_2.index t (1 : Fin 2) * 1 + 1 * 0 = 0; omega
  refine (stored_entry (iblk8 V c 0 t) (iblk8 V c 1 t) (iblk8 V c 2 t) p q).trans ?_
  refine Eq.trans ?_ (congrArg (RefSteps.scaled16x16 (F := Ideal) (V c main_v70) (V c main_arg10) (V c main_v15)) h3).symm
  refine Eq.trans ?_ (RefSteps.scaled16x16_entry (V c main_v70) (V c main_arg10) (V c main_v15) ⟨t.val * 5000 + p.val, hr⟩ q).symm
  refine congrArg₂ (· * ·) (Finset.sum_congr rfl fun k _ => congrArg₂ (· * ·) ?_ ?_) ?_
  · show V c main_v70 (((cfg8.win 0).blk t).view.emb (ix2 p k)) = V c main_v70 (ix2 (⟨t.val * 5000 + p.val, hr⟩ : Fin 50000) k)
    exact congrArg (V c main_v70) (h0 k)
  · show V c main_arg10 (((cfg8.win 1).blk t).view.emb (ix2 k q)) = V c main_arg10 (ix2 k q)
    exact congrArg (V c main_arg10) (h1 k)
  · show V c main_v15 (((cfg8.win 2).blk t).view.emb (ix2 p (0 : Fin 1))) = V c main_v15 (ix2 (⟨t.val * 5000 + p.val, hr⟩ : Fin 50000) (0 : Fin 1))
    exact congrArg (V c main_v15) h2

/-- An index of the output array is in point t's block iff each coordinate is in the block's range on its axis. -/
theorem mem_block (t : Fin cfg8.N) (i : S50000x16.Idx) :
    i ∈ ((cfg8.win 3).blk t).view.set ↔ ∀ a : Fin 2, win8_3.index t a * S5000x16.size a ≤ (i a).val
      ∧ (i a).val < win8_3.index t a * S5000x16.size a + S5000x16.size a := by
  show i ∈ ((View.whole main_v71).slice (win8_3.rect t)).set ↔ _
  rw [View.set_slice_whole, Rect.mem_set_unit]
  exact Iff.rfl

/-- Every block row of the output is some point's. -/
theorem block_row_onto : ∀ q0 : Fin 10, ∃ t : Fin cfg8.N, win8_3.index t = ![q0.val, 0] :=
  (by decide +kernel : ∀ q0 : Fin 10, ∃ t : Fin grid8.N, win8_3.index t = ![q0.val, 0])

/-- The ten blocks tile the output: row r lies in the block of the point at block row r / 5000. -/
theorem covered (i : S50000x16.Idx) :
    ∃ t : Fin cfg8.N, (cfg8.win 3).flush t = true ∧ i ∈ ((cfg8.win 3).blk t).view.set := by
  have hi0 : (i 0).val < 50000 := (i 0).isLt
  have hi1 : (i 1).val < 16 := (i 1).isLt
  obtain ⟨t, ht⟩ := block_row_onto ⟨(i 0).val / 5000, by omega⟩
  have q0 : win8_3.index t (0 : Fin 2) = (i 0).val / 5000 := congrFun ht 0
  have q1 : win8_3.index t (1 : Fin 2) = 0 := congrFun ht 1
  refine ⟨t, flush8_3 t, ?_⟩
  rw [mem_block]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 16 ≤ (i 1).val ∧ (i 1).val < win8_3.index t (1 : Fin 2) * 16 + 16; omega

/-- After the region its output array is the scaled product of the arrays it found. -/
theorem array_eq (c : Dev nD) : (dat8 V c).arrAt 3 cfg8.N
    = RefSteps.scaled16x16 (F := Ideal) (V c main_v70) (V c main_arg10) (V c main_v15) :=
  (dat8 V c).arrAt_eq_of_cover 3 _ (fun t _ => flushed_eq V c t) covered

end Cert.KernelIdeal.Region8

end
-- ==== Proof.Region9.lean ====
/-
  Kernel region 9: the closing step 16 features wide, ten blocks of 5000 rows.

  Grid point t stages rows 5000·t … 5000·t + 4999 of the summed rows ([5000, 16]) and of the scaling column
  ([5000, 1]), and the bias as one row ([1, 16]); the body scales row p by the column's entry p, adds the bias row and
  clamps at zero; the result block goes back to rows 5000·t … of the output. The step is entry by entry, so the block
  written at t is the block at t of the whole-array closing step of the arrays the region finds (the bias row being a
  bias vector viewed as one row), and the ten blocks tile the output: after the region the output array IS that
  closing step.
-/
import proofs.«131837_j18528488915141_1_alg».proof.Proof.Gen.KernelIdeal.Frame
import proofs.«131837_j18528488915141_1_alg».proof.Proof.RefSteps
import Idealize.ShloMosaic.Lib.Pipeline.Value

set_option maxRecDepth 16384

noncomputable section

namespace Cert.KernelIdeal.Region9

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The body's accesses all start at the origin of their buffers. -/
theorem origin : (![0, 0] : Fin 2 → Nat) = fun _ => 0 := funext fun a => by fin_cases a <;> rfl

/-- The body's stored value at entry (p, q) of the block: the summed row's entry times the scaling column's entry p,
    plus the bias row's entry q, clamped at zero. -/
theorem stored_entry (x0 : FVec Ideal S5000x16 .f32) (x1 : FVec Ideal S5000x1 .f32) (x2 : FVec Ideal S1x16 .f32)
    (p : Fin 5000) (q : Fin 16) :
    k9_pay1 x0 x1 x2 (ix2 p q)
      = max (x0 (ix2 p q) * x1 (ix2 p (0 : Fin 1)) + x2 (ix2 (0 : Fin 1) q)) (Ideal.ofBits .f32 0x00000000#32) := by
  unfold k9_pay1
  exact GraphLayer.block_closing_entry Facts₀.shapeCasts_S5000x16_S5000x16 Facts₀.shapeCasts_S5000x1_S5000x1 Facts₀.shapeCasts_S1x16_S1x16
    Facts₀.broadcasts_S5000x1_S5000x16 Facts₀.broadcasts_S1x16_S5000x16 x0 x1 x2 p q

/-- Where the windows' blocks sit at grid point t, decided over the ten points: the summed rows, the column and the
    output at block row t; the bias row whole. -/
theorem block_rows : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 ∧ t.val < 10 :=
  (by decide +kernel : ∀ t : Fin grid9.N, _)

variable (V : (c : Dev nD) → (b : Ref sig .tc) → Buf (Elt Ideal) ((c : Thread nD τ).loc b))

/-- What grid point t writes back is block t of the closing step of the arrays the region finds, when the bias row
    it finds is the bias vector `b` viewed as one row. -/
theorem flushed_eq (c : Dev nD) (b : FVec Ideal S16 .f32)
    (hb : V c main_v82 = shapeCast S1x16 b Facts₀.shapeCasts_S16_S1x16) (t : Fin cfg9.N) :
    (dat9 V c).flushed 3 t = ((cfg9.win 3).blk t).view.read (Elt Ideal)
      (RefSteps.closing16 (F := Ideal) (V c main_v81) (V c main_v18) b) := by
  show (cfg9.win 3).cut (grid9.coords t) ((dat9 V c).after 3 t) = _
  rw [after9_3]
  unfold out9_3
  rw [View.canon_unit_zero origin]
  simp only [View.ld_unit_zero (S := S5000x16) origin, View.ld_unit_zero (S := S5000x1) origin,
    View.ld_unit_zero (S := S1x16) origin]
  obtain ⟨e00, e01, e10, e11, e20, e21, e30, e31, ht⟩ := block_rows t
  funext j
  obtain ⟨p, q, rfl⟩ : ∃ (p : Fin 5000) (q : Fin 16), j = ix2 p q := ⟨j 0, j 1, eq_ix2 j⟩
  have hp : p.val < 5000 := p.isLt
  have hr : t.val * 5000 + p.val < 50000 := by omega
  show k9_pay1 (iblk9 V c 0 t) (iblk9 V c 1 t) (iblk9 V c 2 t) (ix2 p q)
    = RefSteps.closing16 (F := Ideal) (V c main_v81) (V c main_v18) b (((cfg9.win 3).blk t).view.emb (ix2 p q))
  have h3 : ((cfg9.win 3).blk t).view.emb (ix2 p q) = ix2 (⟨t.val * 5000 + p.val, hr⟩ : Fin 50000) q := by
    funext a; apply Fin.ext
    match a with
    | ⟨0, _⟩ => show win9_3.index t (0 : Fin 2) * 5000 + 1 * p.val = t.val * 5000 + p.val; omega
    | ⟨1, _⟩ => show win9_3.index t (1 : Fin 2) * 16 + 1 * q.val = q.val; omega
  have h0 : ((cfg9.win 0).blk t).view.emb (ix2 p q) = ix2 (⟨t.val * 5000 + p.val, hr⟩ : Fin 50000) q := by
    funext a; apply Fin.ext
    match a with
    | ⟨0, _⟩ => show win9_0.index t (0 : Fin 2) * 5000 + 1 * p.val = t.val * 5000 + p.val; omega
    | ⟨1, _⟩ => show win9_0.index t (1 : Fin 2) * 16 + 1 * q.val = q.val; omega
  have h1 : ((cfg9.win 1).blk t).view.emb (ix2 p (0 : Fin 1)) = ix2 (⟨t.val * 5000 + p.val, hr⟩ : Fin 50000) (0 : Fin 1) := by
    funext a; apply Fin.ext
    match a with
    | ⟨0, _⟩ => show win9_1.index t (0 : Fin 2) * 5000 + 1 * p.val = t.val * 5000 + p.val; omega
    | ⟨1, _⟩ => show win9_1.index t (1 : Fin 2) * 1 + 1 * 0 = 0; omega
  have h2 : ((cfg9.win 2).blk t).view.emb (ix2 (0 : Fin 1) q) = ix2 (0 : Fin 1) q := by
    funext a; apply Fin.ext
    match a with
    | ⟨0, _⟩ => show win9_2.index t (0 : Fin 2) * 1 + 1 * 0 = 0; omega
    | ⟨1, _⟩ => show win9_2.index t (1 : Fin 2) * 16 + 1 * q.val = q.val; omega
  refine (stored_entry (iblk9 V c 0 t) (iblk9 V c 1 t) (iblk9 V c 2 t) p q).trans ?_
  refine Eq.trans ?_ (congrArg (RefSteps.closing16 (F := Ideal) (V c main_v81) (V c main_v18) b) h3).symm
  refine Eq.trans ?_ (RefSteps.closing16_entry (V c main_v81) (V c main_v18) b ⟨t.val * 5000 + p.val, hr⟩ q).symm
  refine congrArg (max · (Ideal.ofBits .f32 0x00000000#32)) (congrArg₂ (· + ·) (congrArg₂ (· * ·) ?_ ?_) ?_)
  · show V c main_v81 (((cfg9.win 0).blk t).view.emb (ix2 p q)) = V c main_v81 (ix2 (⟨t.val * 5000 + p.val, hr⟩ : Fin 50000) q)
    exact congrArg (V c main_v81) h0
  · show V c main_v18 (((cfg9.win 1).blk t).view.emb (ix2 p (0 : Fin 1))) = V c main_v18 (ix2 (⟨t.val * 5000 + p.val, hr⟩ : Fin 50000) (0 : Fin 1))
    exact congrArg (V c main_v18) h1
  · show V c main_v82 (((cfg9.win 2).blk t).view.emb (ix2 (0 : Fin 1) q)) = b (ix1 q)
    rw [h2, hb]
    exact GraphLayer.bias_row_entry Facts₀.shapeCasts_S16_S1x16 b q

/-- An index of the output array is in point t's block iff each coordinate is in the block's range on its axis. -/
theorem mem_block (t : Fin cfg9.N) (i : S50000x16.Idx) :
    i ∈ ((cfg9.win 3).blk t).view.set ↔ ∀ a : Fin 2, win9_3.index t a * S5000x16.size a ≤ (i a).val
      ∧ (i a).val < win9_3.index t a * S5000x16.size a + S5000x16.size a := by
  show i ∈ ((View.whole main_v83).slice (win9_3.rect t)).set ↔ _
  rw [View.set_slice_whole, Rect.mem_set_unit]
  exact Iff.rfl

/-- Every block row of the output is some point's. -/
theorem block_row_onto : ∀ q0 : Fin 10, ∃ t : Fin cfg9.N, win9_3.index t = ![q0.val, 0] :=
  (by decide +kernel : ∀ q0 : Fin 10, ∃ t : Fin grid9.N, win9_3.index t = ![q0.val, 0])

/-- The ten blocks tile the output: row r lies in the block of the point at block row r / 5000. -/
theorem covered (i : S50000x16.Idx) :
    ∃ t : Fin cfg9.N, (cfg9.win 3).flush t = true ∧ i ∈ ((cfg9.win 3).blk t).view.set := by
  have hi0 : (i 0).val < 50000 := (i 0).isLt
  have hi1 : (i 1).val < 16 := (i 1).isLt
  obtain ⟨t, ht⟩ := block_row_onto ⟨(i 0).val / 5000, by omega⟩
  have q0 : win9_3.index t (0 : Fin 2) = (i 0).val / 5000 := congrFun ht 0
  have q1 : win9_3.index t (1 : Fin 2) = 0 := congrFun ht 1
  refine ⟨t, flush9_3 t, ?_⟩
  rw [mem_block]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 16 ≤ (i 1).val ∧ (i 1).val < win9_3.index t (1 : Fin 2) * 16 + 16; omega

/-- After the region its output array is the closing step of the arrays it found and the bias vector. -/
theorem array_eq (c : Dev nD) (b : FVec Ideal S16 .f32)
    (hb : V c main_v82 = shapeCast S1x16 b Facts₀.shapeCasts_S16_S1x16) : (dat9 V c).arrAt 3 cfg9.N
    = RefSteps.closing16 (F := Ideal) (V c main_v81) (V c main_v18) b :=
  (dat9 V c).arrAt_eq_of_cover 3 _ (fun t _ => flushed_eq V c b hb t) covered

end Cert.KernelIdeal.Region9

end
-- ==== Proof.Fold.lean ====
/-
  The idealized kernel's result buffer ends at the network of its arguments.

  The run's fold of buffer contents (`W0 … W20`) is followed from the launch to the result:
    the first stretch cuts the edge array into its source and destination rows; the stretches before the first region
    turn each into its degree-scaling column (the reference's own operations, literal for literal);
    then, layer by layer, a region leaves the scaled product of the features it finds (its blocks tile the array), a
    stretch moves rows along the edges and views the bias as one row (again the reference's operations), and a
    region leaves the closing step of what it finds — together one layer of the network.
  Between a buffer's writing and its reading nothing writes it (the carried-buffer lemmas). After the fifth layer
  the result buffer holds the network of the launch contents of the twelve arguments.
-/
import proofs.«131837_j18528488915141_1_alg».proof.Proof.Carried
import proofs.«131837_j18528488915141_1_alg».proof.Proof.RefSteps
import proofs.«131837_j18528488915141_1_alg».proof.Proof.NormSteps
import proofs.«131837_j18528488915141_1_alg».proof.Proof.Region0
import proofs.«131837_j18528488915141_1_alg».proof.Proof.Region1
import proofs.«131837_j18528488915141_1_alg».proof.Proof.Region2
import proofs.«131837_j18528488915141_1_alg».proof.Proof.Region3
import proofs.«131837_j18528488915141_1_alg».proof.Proof.Region4
import proofs.«131837_j18528488915141_1_alg».proof.Proof.Region5
import proofs.«131837_j18528488915141_1_alg».proof.Proof.Region6
import proofs.«131837_j18528488915141_1_alg».proof.Proof.Region7
import proofs.«131837_j18528488915141_1_alg».proof.Proof.Region8
import proofs.«131837_j18528488915141_1_alg».proof.Proof.Region9
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat Cfg Window)

/-! ## What the host stretches compute, from any contents -/

section Stretches

variable (Wv : Valuation τ sig (Elt Ideal))

/-- The first stretch leaves the edges' source row … -/
theorem stretch_src : StableHlo.after hostOps0 Wv (Proc.devRef .tc main_v1) = RefSteps.srcOf (F := Ideal) (Wv (Proc.devRef .tc main_arg1)) := by
  after_results_simp <;> rfl

/-- … and their destination row. -/
theorem stretch_dst : StableHlo.after hostOps0 Wv (Proc.devRef .tc main_v3) = RefSteps.dstOf (F := Ideal) (Wv (Proc.devRef .tc main_arg1)) := by
  after_results_simp <;> rfl

/-- Layer 1's stretch moves the scaled rows along the edges … -/
theorem stretch_move1 : StableHlo.after hostOps1 Wv (Proc.devRef .tc main_v29)
    = RefSteps.move128 (F := Ideal) (Wv (Proc.devRef .tc main_v1)) (Wv (Proc.devRef .tc main_v3)) (Wv (Proc.devRef .tc main_v19)) := by
  after_results_simp <;> rfl

/-- … and views the bias vector as one row. -/
theorem stretch_bias1 : StableHlo.after hostOps1 Wv (Proc.devRef .tc main_v30)
    = shapeCast S1x128 (Wv (Proc.devRef .tc main_arg3)) Facts₀.shapeCasts_S128_S1x128 := by
  after_results_simp <;> rfl

/-- Layer 2's stretch moves the scaled rows along the edges … -/
theorem stretch_move2 : StableHlo.after hostOps3 Wv (Proc.devRef .tc main_v42)
    = RefSteps.move64 (F := Ideal) (Wv (Proc.devRef .tc main_v1)) (Wv (Proc.devRef .tc main_v3)) (Wv (Proc.devRef .tc main_v32)) := by
  after_results_simp <;> rfl

/-- … and views the bias vector as one row. -/
theorem stretch_bias2 : StableHlo.after hostOps3 Wv (Proc.devRef .tc main_v43)
    = shapeCast S1x64 (Wv (Proc.devRef .tc main_arg5)) Facts₀.shapeCasts_S64_S1x64 := by
  after_results_simp <;> rfl

/-- Layer 3's stretch moves the scaled rows along the edges … -/
theorem stretch_move3 : StableHlo.after hostOps5 Wv (Proc.devRef .tc main_v55)
    = RefSteps.move32 (F := Ideal) (Wv (Proc.devRef .tc main_v1)) (Wv (Proc.devRef .tc main_v3)) (Wv (Proc.devRef .tc main_v45)) := by
  after_results_simp <;> rfl

/-- … and views the bias vector as one row. -/
theorem stretch_bias3 : StableHlo.after hostOps5 Wv (Proc.devRef .tc main_v56)
    = shapeCast S1x32 (Wv (Proc.devRef .tc main_arg7)) Facts₀.shapeCasts_S32_S1x32 := by
  after_results_simp <;> rfl

/-- Layer 4's stretch moves the scaled rows along the edges … -/
theorem stretch_move4 : StableHlo.after hostOps7 Wv (Proc.devRef .tc main_v68)
    = RefSteps.move16 (F := Ideal) (Wv (Proc.devRef .tc main_v1)) (Wv (Proc.devRef .tc main_v3)) (Wv (Proc.devRef .tc main_v58)) := by
  after_results_simp <;> rfl

/-- … and views the bias vector as one row. -/
theorem stretch_bias4 : StableHlo.after hostOps7 Wv (Proc.devRef .tc main_v69)
    = shapeCast S1x16 (Wv (Proc.devRef .tc main_arg9)) Facts₀.shapeCasts_S16_S1x16 := by
  after_results_simp <;> rfl

/-- Layer 5's stretch moves the scaled rows along the edges … -/
theorem stretch_move5 : StableHlo.after hostOps9 Wv (Proc.devRef .tc main_v81)
    = RefSteps.move16 (F := Ideal) (Wv (Proc.devRef .tc main_v1)) (Wv (Proc.devRef .tc main_v3)) (Wv (Proc.devRef .tc main_v71)) := by
  after_results_simp <;> rfl

/-- … and views the bias vector as one row. -/
theorem stretch_bias5 : StableHlo.after hostOps9 Wv (Proc.devRef .tc main_v82)
    = shapeCast S1x16 (Wv (Proc.devRef .tc main_arg11)) Facts₀.shapeCasts_S16_S1x16 := by
  after_results_simp <;> rfl

/-- The first stretch also leaves a one per edge, the scalar one, and the count of each node among the sources. -/
theorem stretch_ones : StableHlo.after hostOps0 Wv (Proc.devRef .tc main_v4) = RefSteps.onesPerEdge (F := Ideal) := by
  after_results_simp <;> rfl
theorem stretch_one0 : StableHlo.after hostOps0 Wv (Proc.devRef .tc main_cst_1) = RefSteps.one (F := Ideal) := by
  after_results_simp <;> rfl
theorem stretch_count_src : StableHlo.after hostOps0 Wv (Proc.devRef .tc main_v7)
    = RefSteps.countWith (F := Ideal) (RefSteps.srcOf (Wv (Proc.devRef .tc main_arg1))) RefSteps.onesPerEdge := by
  after_results_simp <;> rfl

/-- The clamp of the source count (an outlined function's stretch). -/
theorem stretch_clamp_src : StableHlo.after hostOps0_1 Wv (Proc.devRef .tc main_v8)
    = RefSteps.clampWith (F := Ideal) (Wv (Proc.devRef .tc main_cst_1)) (Wv (Proc.devRef .tc main_v7)) := by
  after_results_simp <;> rfl

/-- The count of each node among the destinations, and the scalar one again. -/
theorem stretch_count_dst : StableHlo.after hostOps0_2 Wv (Proc.devRef .tc main_v11)
    = RefSteps.countWith (F := Ideal) (Wv (Proc.devRef .tc main_v3)) (Wv (Proc.devRef .tc main_v4)) := by
  after_results_simp <;> rfl
theorem stretch_one2 : StableHlo.after hostOps0_2 Wv (Proc.devRef .tc main_cst_3) = RefSteps.one (F := Ideal) := by
  after_results_simp <;> rfl

/-- The clamp of the destination count. -/
theorem stretch_clamp_dst : StableHlo.after hostOps0_3 Wv (Proc.devRef .tc main_v12)
    = RefSteps.clampWith (F := Ideal) (Wv (Proc.devRef .tc main_cst_3)) (Wv (Proc.devRef .tc main_v11)) := by
  after_results_simp <;> rfl

/-- The last stretch before the first region raises both clamped counts to the power -1/2, as columns. -/
theorem stretch_scale_src : StableHlo.after hostOps0_4 Wv (Proc.devRef .tc main_v15) = RefSteps.scaleOf (F := Ideal) (Wv (Proc.devRef .tc main_v8)) := by
  after_results_simp <;> rfl
theorem stretch_scale_dst : StableHlo.after hostOps0_4 Wv (Proc.devRef .tc main_v18) = RefSteps.scaleOf (F := Ideal) (Wv (Proc.devRef .tc main_v12)) := by
  after_results_simp <;> rfl

end Stretches

/-! ## The fold, from the launch to the result -/

variable (m : (ℓ : Loc nD τ sig) → Buf (Elt Ideal) ℓ) (ρ : Dev nD → PrngReg) (c : Dev nD)

/-- The source row, where the first stretch leaves it. -/
theorem src_1 : W1 m ρ c (Proc.devRef .tc main_v1) = RefSteps.srcOf (F := Ideal) (m ((c.tc : Thread nD τ).loc main_arg1)) :=
  stretch_src (W0 m ρ c)

/-- The destination row, where the first stretch leaves it. -/
theorem dst_1 : W1 m ρ c (Proc.devRef .tc main_v3) = RefSteps.dstOf (F := Ideal) (m ((c.tc : Thread nD τ).loc main_arg1)) :=
  stretch_dst (W0 m ρ c)

/-- The source-degree scaling column at the first region's entry. -/
theorem nsrc_5 : W5 m ρ c (Proc.devRef .tc main_v15) = RefSteps.normOf (F := Ideal) (RefSteps.srcOf (m ((c.tc : Thread nD τ).loc main_arg1))) := by
  rw [RefSteps.normOf_eq]
  refine (stretch_scale_src (W4 m ρ c)).trans ?_
  rw [Carried.v8_2_4 m ρ c]
  refine congrArg (RefSteps.scaleOf (F := Ideal)) ((stretch_clamp_src (W1 m ρ c)).trans ?_)
  rw [show W1 m ρ c (Proc.devRef .tc main_cst_1) = RefSteps.one (F := Ideal) from stretch_one0 (W0 m ρ c),
    show W1 m ρ c (Proc.devRef .tc main_v7) = RefSteps.countWith (F := Ideal) (RefSteps.srcOf (m ((c.tc : Thread nD τ).loc main_arg1))) RefSteps.onesPerEdge
      from stretch_count_src (W0 m ρ c)]

/-- The destination-degree scaling column at the first region's entry. -/
theorem ndst_5 : W5 m ρ c (Proc.devRef .tc main_v18) = RefSteps.normOf (F := Ideal) (RefSteps.dstOf (m ((c.tc : Thread nD τ).loc main_arg1))) := by
  rw [RefSteps.normOf_eq]
  refine (stretch_scale_dst (W4 m ρ c)).trans ?_
  refine congrArg (RefSteps.scaleOf (F := Ideal)) ((stretch_clamp_dst (W3 m ρ c)).trans ?_)
  rw [show W3 m ρ c (Proc.devRef .tc main_cst_3) = RefSteps.one (F := Ideal) from stretch_one2 (W2 m ρ c),
    show W3 m ρ c (Proc.devRef .tc main_v11) = RefSteps.countWith (F := Ideal) (W2 m ρ c (Proc.devRef .tc main_v3)) (W2 m ρ c (Proc.devRef .tc main_v4))
      from stretch_count_dst (W2 m ρ c),
    Carried.v3_1_2 m ρ c, Carried.v4_1_2 m ρ c, dst_1 m ρ c,
    show W1 m ρ c (Proc.devRef .tc main_v4) = RefSteps.onesPerEdge (F := Ideal) from stretch_ones (W0 m ρ c)]

/-- The features after each layer, as the network computes them from the launch contents. -/
def feat1 : FVec Ideal Cert.ReferenceIdeal.S50000x128 .f32 := RefSteps.layer128x128 (F := Ideal) (m ((c.tc : Thread nD τ).loc main_arg1)) (m ((c.tc : Thread nD τ).loc main_arg0)) (m ((c.tc : Thread nD τ).loc main_arg2)) (m ((c.tc : Thread nD τ).loc main_arg3))
def feat2 : FVec Ideal Cert.ReferenceIdeal.S50000x64 .f32 := RefSteps.layer128x64 (F := Ideal) (m ((c.tc : Thread nD τ).loc main_arg1)) (feat1 m c) (m ((c.tc : Thread nD τ).loc main_arg4)) (m ((c.tc : Thread nD τ).loc main_arg5))
def feat3 : FVec Ideal Cert.ReferenceIdeal.S50000x32 .f32 := RefSteps.layer64x32 (F := Ideal) (m ((c.tc : Thread nD τ).loc main_arg1)) (feat2 m c) (m ((c.tc : Thread nD τ).loc main_arg6)) (m ((c.tc : Thread nD τ).loc main_arg7))
def feat4 : FVec Ideal Cert.ReferenceIdeal.S50000x16 .f32 := RefSteps.layer32x16 (F := Ideal) (m ((c.tc : Thread nD τ).loc main_arg1)) (feat3 m c) (m ((c.tc : Thread nD τ).loc main_arg8)) (m ((c.tc : Thread nD τ).loc main_arg9))
def feat5 : FVec Ideal Cert.ReferenceIdeal.S50000x16 .f32 := RefSteps.layer16x16 (F := Ideal) (m ((c.tc : Thread nD τ).loc main_arg1)) (feat4 m c) (m ((c.tc : Thread nD τ).loc main_arg10)) (m ((c.tc : Thread nD τ).loc main_arg11))

/-! ### Layer 1 -/

theorem src_6 : W6 m ρ c (Proc.devRef .tc main_v1) = RefSteps.srcOf (F := Ideal) (m ((c.tc : Thread nD τ).loc main_arg1)) :=
  (Carried.v1_1_6 m ρ c).trans (src_1 m ρ c)
theorem dst_6 : W6 m ρ c (Proc.devRef .tc main_v3) = RefSteps.dstOf (F := Ideal) (m ((c.tc : Thread nD τ).loc main_arg1)) :=
  (Carried.v3_1_6 m ρ c).trans (dst_1 m ρ c)
theorem ndst_7 : W7 m ρ c (Proc.devRef .tc main_v18) = RefSteps.normOf (F := Ideal) (RefSteps.dstOf (F := Ideal) (m ((c.tc : Thread nD τ).loc main_arg1))) :=
  (Carried.v18_5_7 m ρ c).trans (ndst_5 m ρ c)

/-- The scaled product of layer 1, where its region leaves it. -/
theorem scaled_1 : W6 m ρ c (Proc.devRef .tc main_v19) = RefSteps.scaled128x128 (F := Ideal) (m ((c.tc : Thread nD τ).loc main_arg0)) (m ((c.tc : Thread nD τ).loc main_arg2)) (RefSteps.normOf (F := Ideal) (RefSteps.srcOf (F := Ideal) (m ((c.tc : Thread nD τ).loc main_arg1)))) := by
  refine (W6_arr m ρ c 3).trans ((Region0.array_eq (V5 m ρ) c).trans ?_)
  show RefSteps.scaled128x128 (F := Ideal) (W5 m ρ c (Proc.devRef .tc main_arg0)) (W5 m ρ c (Proc.devRef .tc main_arg2)) (W5 m ρ c (Proc.devRef .tc main_v15)) = _
  rw [(Carried.arg0_0_5 m ρ c), Carried.arg2_0_5 m ρ c, nsrc_5 m ρ c]

/-- The rows of layer 1 moved along the edges, where the stretch leaves them. -/
theorem moved_1 : W7 m ρ c (Proc.devRef .tc main_v29)
    = RefSteps.move128 (F := Ideal) (RefSteps.srcOf (F := Ideal) (m ((c.tc : Thread nD τ).loc main_arg1))) (RefSteps.dstOf (F := Ideal) (m ((c.tc : Thread nD τ).loc main_arg1))) (RefSteps.scaled128x128 (F := Ideal) (m ((c.tc : Thread nD τ).loc main_arg0)) (m ((c.tc : Thread nD τ).loc main_arg2)) (RefSteps.normOf (F := Ideal) (RefSteps.srcOf (F := Ideal) (m ((c.tc : Thread nD τ).loc main_arg1))))) := by
  refine (stretch_move1 (W6 m ρ c)).trans ?_
  rw [src_6 m ρ c, dst_6 m ρ c, scaled_1 m ρ c]

/-- The bias of layer 1 as one row, where the stretch leaves it. -/
theorem bias_1 : W7 m ρ c (Proc.devRef .tc main_v30) = shapeCast S1x128 (m ((c.tc : Thread nD τ).loc main_arg3)) Facts₀.shapeCasts_S128_S1x128 := by
  refine (stretch_bias1 (W6 m ρ c)).trans ?_
  rw [Carried.arg3_0_6 m ρ c]

/-- The features after layer 1, where its closing region leaves them. -/
theorem feat_1 : W8 m ρ c (Proc.devRef .tc main_v31) = feat1 m c := by
  refine (W8_arr m ρ c 3).trans ((Region1.array_eq (V7 m ρ) c (m ((c.tc : Thread nD τ).loc main_arg3)) (bias_1 m ρ c)).trans ?_)
  show RefSteps.closing128 (F := Ideal) (W7 m ρ c (Proc.devRef .tc main_v29)) (W7 m ρ c (Proc.devRef .tc main_v18)) (m ((c.tc : Thread nD τ).loc main_arg3)) = _
  rw [moved_1 m ρ c, ndst_7 m ρ c]
  rfl

/-! ### Layer 2 -/

theorem src_9 : W9 m ρ c (Proc.devRef .tc main_v1) = RefSteps.srcOf (F := Ideal) (m ((c.tc : Thread nD τ).loc main_arg1)) :=
  (Carried.v1_6_9 m ρ c).trans (src_6 m ρ c)
theorem dst_9 : W9 m ρ c (Proc.devRef .tc main_v3) = RefSteps.dstOf (F := Ideal) (m ((c.tc : Thread nD τ).loc main_arg1)) :=
  (Carried.v3_6_9 m ρ c).trans (dst_6 m ρ c)
theorem nsrc_8 : W8 m ρ c (Proc.devRef .tc main_v15) = RefSteps.normOf (F := Ideal) (RefSteps.srcOf (F := Ideal) (m ((c.tc : Thread nD τ).loc main_arg1))) :=
  (Carried.v15_5_8 m ρ c).trans (nsrc_5 m ρ c)
theorem ndst_10 : W10 m ρ c (Proc.devRef .tc main_v18) = RefSteps.normOf (F := Ideal) (RefSteps.dstOf (F := Ideal) (m ((c.tc : Thread nD τ).loc main_arg1))) :=
  (Carried.v18_7_10 m ρ c).trans (ndst_7 m ρ c)

/-- The scaled product of layer 2, where its region leaves it. -/
theorem scaled_2 : W9 m ρ c (Proc.devRef .tc main_v32) = RefSteps.scaled128x64 (F := Ideal) (feat1 m c) (m ((c.tc : Thread nD τ).loc main_arg4)) (RefSteps.normOf (F := Ideal) (RefSteps.srcOf (F := Ideal) (m ((c.tc : Thread nD τ).loc main_arg1)))) := by
  refine (W9_arr m ρ c 3).trans ((Region2.array_eq (V8 m ρ) c).trans ?_)
  show RefSteps.scaled128x64 (F := Ideal) (W8 m ρ c (Proc.devRef .tc main_v31)) (W8 m ρ c (Proc.devRef .tc main_arg4)) (W8 m ρ c (Proc.devRef .tc main_v15)) = _
  rw [(feat_1 m ρ c), Carried.arg4_0_8 m ρ c, nsrc_8 m ρ c]

/-- The rows of layer 2 moved along the edges, where the stretch leaves them. -/
theorem moved_2 : W10 m ρ c (Proc.devRef .tc main_v42)
    = RefSteps.move64 (F := Ideal) (RefSteps.srcOf (F := Ideal) (m ((c.tc : Thread nD τ).loc main_arg1))) (RefSteps.dstOf (F := Ideal) (m ((c.tc : Thread nD τ).loc main_arg1))) (RefSteps.scaled128x64 (F := Ideal) (feat1 m c) (m ((c.tc : Thread nD τ).loc main_arg4)) (RefSteps.normOf (F := Ideal) (RefSteps.srcOf (F := Ideal) (m ((c.tc : Thread nD τ).loc main_arg1))))) := by
  refine (stretch_move2 (W9 m ρ c)).trans ?_
  rw [src_9 m ρ c, dst_9 m ρ c, scaled_2 m ρ c]

/-- The bias of layer 2 as one row, where the stretch leaves it. -/
theorem bias_2 : W10 m ρ c (Proc.devRef .tc main_v43) = shapeCast S1x64 (m ((c.tc : Thread nD τ).loc main_arg5)) Facts₀.shapeCasts_S64_S1x64 := by
  refine (stretch_bias2 (W9 m ρ c)).trans ?_
  rw [Carried.arg5_0_9 m ρ c]

/-- The features after layer 2, where its closing region leaves them. -/
theorem feat_2 : W11 m ρ c (Proc.devRef .tc main_v44) = feat2 m c := by
  refine (W11_arr m ρ c 3).trans ((Region3.array_eq (V10 m ρ) c (m ((c.tc : Thread nD τ).loc main_arg5)) (bias_2 m ρ c)).trans ?_)
  show RefSteps.closing64 (F := Ideal) (W10 m ρ c (Proc.devRef .tc main_v42)) (W10 m ρ c (Proc.devRef .tc main_v18)) (m ((c.tc : Thread nD τ).loc main_arg5)) = _
  rw [moved_2 m ρ c, ndst_10 m ρ c]
  rfl

/-! ### Layer 3 -/

theorem src_12 : W12 m ρ c (Proc.devRef .tc main_v1) = RefSteps.srcOf (F := Ideal) (m ((c.tc : Thread nD τ).loc main_arg1)) :=
  (Carried.v1_9_12 m ρ c).trans (src_9 m ρ c)
theorem dst_12 : W12 m ρ c (Proc.devRef .tc main_v3) = RefSteps.dstOf (F := Ideal) (m ((c.tc : Thread nD τ).loc main_arg1)) :=
  (Carried.v3_9_12 m ρ c).trans (dst_9 m ρ c)
theorem nsrc_11 : W11 m ρ c (Proc.devRef .tc main_v15) = RefSteps.normOf (F := Ideal) (RefSteps.srcOf (F := Ideal) (m ((c.tc : Thread nD τ).loc main_arg1))) :=
  (Carried.v15_8_11 m ρ c).trans (nsrc_8 m ρ c)
theorem ndst_13 : W13 m ρ c (Proc.devRef .tc main_v18) = RefSteps.normOf (F := Ideal) (RefSteps.dstOf (F := Ideal) (m ((c.tc : Thread nD τ).loc main_arg1))) :=
  (Carried.v18_10_13 m ρ c).trans (ndst_10 m ρ c)

/-- The scaled product of layer 3, where its region leaves it. -/
theorem scaled_3 : W12 m ρ c (Proc.devRef .tc main_v45) = RefSteps.scaled64x32 (F := Ideal) (feat2 m c) (m ((c.tc : Thread nD τ).loc main_arg6)) (RefSteps.normOf (F := Ideal) (RefSteps.srcOf (F := Ideal) (m ((c.tc : Thread nD τ).loc main_arg1)))) := by
  refine (W12_arr m ρ c 3).trans ((Region4.array_eq (V11 m ρ) c).trans ?_)
  show RefSteps.scaled64x32 (F := Ideal) (W11 m ρ c (Proc.devRef .tc main_v44)) (W11 m ρ c (Proc.devRef .tc main_arg6)) (W11 m ρ c (Proc.devRef .tc main_v15)) = _
  rw [(feat_2 m ρ c), Carried.arg6_0_11 m ρ c, nsrc_11 m ρ c]

/-- The rows of layer 3 moved along the edges, where the stretch leaves them. -/
theorem moved_3 : W13 m ρ c (Proc.devRef .tc main_v55)
    = RefSteps.move32 (F := Ideal) (RefSteps.srcOf (F := Ideal) (m ((c.tc : Thread nD τ).loc main_arg1))) (RefSteps.dstOf (F := Ideal) (m ((c.tc : Thread nD τ).loc main_arg1))) (RefSteps.scaled64x32 (F := Ideal) (feat2 m c) (m ((c.tc : Thread nD τ).loc main_arg6)) (RefSteps.normOf (F := Ideal) (RefSteps.srcOf (F := Ideal) (m ((c.tc : Thread nD τ).loc main_arg1))))) := by
  refine (stretch_move3 (W12 m ρ c)).trans ?_
  rw [src_12 m ρ c, dst_12 m ρ c, scaled_3 m ρ c]

/-- The bias of layer 3 as one row, where the stretch leaves it. -/
theorem bias_3 : W13 m ρ c (Proc.devRef .tc main_v56) = shapeCast S1x32 (m ((c.tc : Thread nD τ).loc main_arg7)) Facts₀.shapeCasts_S32_S1x32 := by
  refine (stretch_bias3 (W12 m ρ c)).trans ?_
  rw [Carried.arg7_0_12 m ρ c]

/-- The features after layer 3, where its closing region leaves them. -/
theorem feat_3 : W14 m ρ c (Proc.devRef .tc main_v57) = feat3 m c := by
  refine (W14_arr m ρ c 3).trans ((Region5.array_eq (V13 m ρ) c (m ((c.tc : Thread nD τ).loc main_arg7)) (bias_3 m ρ c)).trans ?_)
  show RefSteps.closing32 (F := Ideal) (W13 m ρ c (Proc.devRef .tc main_v55)) (W13 m ρ c (Proc.devRef .tc main_v18)) (m ((c.tc : Thread nD τ).loc main_arg7)) = _
  rw [moved_3 m ρ c, ndst_13 m ρ c]
  rfl

/-! ### Layer 4 -/

theorem src_15 : W15 m ρ c (Proc.devRef .tc main_v1) = RefSteps.srcOf (F := Ideal) (m ((c.tc : Thread nD τ).loc main_arg1)) :=
  (Carried.v1_12_15 m ρ c).trans (src_12 m ρ c)
theorem dst_15 : W15 m ρ c (Proc.devRef .tc main_v3) = RefSteps.dstOf (F := Ideal) (m ((c.tc : Thread nD τ).loc main_arg1)) :=
  (Carried.v3_12_15 m ρ c).trans (dst_12 m ρ c)
theorem nsrc_14 : W14 m ρ c (Proc.devRef .tc main_v15) = RefSteps.normOf (F := Ideal) (RefSteps.srcOf (F := Ideal) (m ((c.tc : Thread nD τ).loc main_arg1))) :=
  (Carried.v15_11_14 m ρ c).trans (nsrc_11 m ρ c)
theorem ndst_16 : W16 m ρ c (Proc.devRef .tc main_v18) = RefSteps.normOf (F := Ideal) (RefSteps.dstOf (F := Ideal) (m ((c.tc : Thread nD τ).loc main_arg1))) :=
  (Carried.v18_13_16 m ρ c).trans (ndst_13 m ρ c)

/-- The scaled product of layer 4, where its region leaves it. -/
theorem scaled_4 : W15 m ρ c (Proc.devRef .tc main_v58) = RefSteps.scaled32x16 (F := Ideal) (feat3 m c) (m ((c.tc : Thread nD τ).loc main_arg8)) (RefSteps.normOf (F := Ideal) (RefSteps.srcOf (F := Ideal) (m ((c.tc : Thread nD τ).loc main_arg1)))) := by
  refine (W15_arr m ρ c 3).trans ((Region6.array_eq (V14 m ρ) c).trans ?_)
  show RefSteps.scaled32x16 (F := Ideal) (W14 m ρ c (Proc.devRef .tc main_v57)) (W14 m ρ c (Proc.devRef .tc main_arg8)) (W14 m ρ c (Proc.devRef .tc main_v15)) = _
  rw [(feat_3 m ρ c), Carried.arg8_0_14 m ρ c, nsrc_14 m ρ c]

/-- The rows of layer 4 moved along the edges, where the stretch leaves them. -/
theorem moved_4 : W16 m ρ c (Proc.devRef .tc main_v68)
    = RefSteps.move16 (F := Ideal) (RefSteps.srcOf (F := Ideal) (m ((c.tc : Thread nD τ).loc main_arg1))) (RefSteps.dstOf (F := Ideal) (m ((c.tc : Thread nD τ).loc main_arg1))) (RefSteps.scaled32x16 (F := Ideal) (feat3 m c) (m ((c.tc : Thread nD τ).loc main_arg8)) (RefSteps.normOf (F := Ideal) (RefSteps.srcOf (F := Ideal) (m ((c.tc : Thread nD τ).loc main_arg1))))) := by
  refine (stretch_move4 (W15 m ρ c)).trans ?_
  rw [src_15 m ρ c, dst_15 m ρ c, scaled_4 m ρ c]

/-- The bias of layer 4 as one row, where the stretch leaves it. -/
theorem bias_4 : W16 m ρ c (Proc.devRef .tc main_v69) = shapeCast S1x16 (m ((c.tc : Thread nD τ).loc main_arg9)) Facts₀.shapeCasts_S16_S1x16 := by
  refine (stretch_bias4 (W15 m ρ c)).trans ?_
  rw [Carried.arg9_0_15 m ρ c]

/-- The features after layer 4, where its closing region leaves them. -/
theorem feat_4 : W17 m ρ c (Proc.devRef .tc main_v70) = feat4 m c := by
  refine (W17_arr m ρ c 3).trans ((Region7.array_eq (V16 m ρ) c (m ((c.tc : Thread nD τ).loc main_arg9)) (bias_4 m ρ c)).trans ?_)
  show RefSteps.closing16 (F := Ideal) (W16 m ρ c (Proc.devRef .tc main_v68)) (W16 m ρ c (Proc.devRef .tc main_v18)) (m ((c.tc : Thread nD τ).loc main_arg9)) = _
  rw [moved_4 m ρ c, ndst_16 m ρ c]
  rfl

/-! ### Layer 5 -/

theorem src_18 : W18 m ρ c (Proc.devRef .tc main_v1) = RefSteps.srcOf (F := Ideal) (m ((c.tc : Thread nD τ).loc main_arg1)) :=
  (Carried.v1_15_18 m ρ c).trans (src_15 m ρ c)
theorem dst_18 : W18 m ρ c (Proc.devRef .tc main_v3) = RefSteps.dstOf (F := Ideal) (m ((c.tc : Thread nD τ).loc main_arg1)) :=
  (Carried.v3_15_18 m ρ c).trans (dst_15 m ρ c)
theorem nsrc_17 : W17 m ρ c (Proc.devRef .tc main_v15) = RefSteps.normOf (F := Ideal) (RefSteps.srcOf (F := Ideal) (m ((c.tc : Thread nD τ).loc main_arg1))) :=
  (Carried.v15_14_17 m ρ c).trans (nsrc_14 m ρ c)
theorem ndst_19 : W19 m ρ c (Proc.devRef .tc main_v18) = RefSteps.normOf (F := Ideal) (RefSteps.dstOf (F := Ideal) (m ((c.tc : Thread nD τ).loc main_arg1))) :=
  (Carried.v18_16_19 m ρ c).trans (ndst_16 m ρ c)

/-- The scaled product of layer 5, where its region leaves it. -/
theorem scaled_5 : W18 m ρ c (Proc.devRef .tc main_v71) = RefSteps.scaled16x16 (F := Ideal) (feat4 m c) (m ((c.tc : Thread nD τ).loc main_arg10)) (RefSteps.normOf (F := Ideal) (RefSteps.srcOf (F := Ideal) (m ((c.tc : Thread nD τ).loc main_arg1)))) := by
  refine (W18_arr m ρ c 3).trans ((Region8.array_eq (V17 m ρ) c).trans ?_)
  show RefSteps.scaled16x16 (F := Ideal) (W17 m ρ c (Proc.devRef .tc main_v70)) (W17 m ρ c (Proc.devRef .tc main_arg10)) (W17 m ρ c (Proc.devRef .tc main_v15)) = _
  rw [(feat_4 m ρ c), Carried.arg10_0_17 m ρ c, nsrc_17 m ρ c]

/-- The rows of layer 5 moved along the edges, where the stretch leaves them. -/
theorem moved_5 : W19 m ρ c (Proc.devRef .tc main_v81)
    = RefSteps.move16 (F := Ideal) (RefSteps.srcOf (F := Ideal) (m ((c.tc : Thread nD τ).loc main_arg1))) (RefSteps.dstOf (F := Ideal) (m ((c.tc : Thread nD τ).loc main_arg1))) (RefSteps.scaled16x16 (F := Ideal) (feat4 m c) (m ((c.tc : Thread nD τ).loc main_arg10)) (RefSteps.normOf (F := Ideal) (RefSteps.srcOf (F := Ideal) (m ((c.tc : Thread nD τ).loc main_arg1))))) := by
  refine (stretch_move5 (W18 m ρ c)).trans ?_
  rw [src_18 m ρ c, dst_18 m ρ c, scaled_5 m ρ c]

/-- The bias of layer 5 as one row, where the stretch leaves it. -/
theorem bias_5 : W19 m ρ c (Proc.devRef .tc main_v82) = shapeCast S1x16 (m ((c.tc : Thread nD τ).loc main_arg11)) Facts₀.shapeCasts_S16_S1x16 := by
  refine (stretch_bias5 (W18 m ρ c)).trans ?_
  rw [Carried.arg11_0_18 m ρ c]

/-- The features after layer 5, where its closing region leaves them. -/
theorem feat_5 : W20 m ρ c (Proc.devRef .tc main_v83) = feat5 m c := by
  refine (W20_arr m ρ c 3).trans ((Region9.array_eq (V19 m ρ) c (m ((c.tc : Thread nD τ).loc main_arg11)) (bias_5 m ρ c)).trans ?_)
  show RefSteps.closing16 (F := Ideal) (W19 m ρ c (Proc.devRef .tc main_v81)) (W19 m ρ c (Proc.devRef .tc main_v18)) (m ((c.tc : Thread nD τ).loc main_arg11)) = _
  rw [moved_5 m ρ c, ndst_19 m ρ c]
  rfl

/-- The result buffer ends at the network of the launch contents of the twelve arguments. -/
theorem result_is_net : W20 m ρ c (Proc.devRef .tc main_v83)
    = RefSteps.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (feat_5 m ρ c).trans rfl

end Cert.KernelIdeal.Fold

end
-- ==== Proof.RefNet.lean ====
/-
  The reference's run ends at the network of its arguments.

  The generated run of the reference states its result as one composed term of the argument arrays, every host
  operation in place. Cut at the steps of the network (the edge rows, the two degree scalings, and per layer the
  scaled product, the move along the edges and the closing step), that term is the five layers applied in turn: the
  named steps unfold to exactly the printed operations.
-/
import proofs.«131837_j18528488915141_1_alg».proof.Proof.RefSteps
import proofs.«131837_j18528488915141_1_alg».proof.Proof.Gen.ReferenceIdeal.Run

set_option maxRecDepth 8192

noncomputable section

namespace Cert.RefSteps

open Cert.ReferenceIdeal Idealize.ShloMosaic Idealize.ShloMosaic.TcCoe Idealize.SL.Sem

variable {F : FTy → Type} [FloatOps F]

/-- The run's result term is the network of the launch contents of the twelve arguments. -/
theorem result_is_net (m : (ℓ : Loc nD τ sig) → Buf (Elt F) ℓ) (c : Dev nD) :
    Cert.ReferenceIdeal.Value.res_main_v113 m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v113 net layer16x16 layer32x16 layer64x32 layer128x64 layer128x128
    closing16 closing32 closing64 closing128 move16 move32 move64 move128
    scaled16x16 scaled32x16 scaled64x32 scaled128x64 scaled128x128 normOf srcOf dstOf
  rfl

end Cert.RefSteps

end
-- ==== Proof.lean ====
/-
  A five-layer graph convolution: the kernel program against its host reference, over the extended reals.

  Both programs take node features x : [50000, 128], an edge array [2, 800000] of (source, destination) node numbers
  and five (weight, bias) pairs, 128 → 128 → 64 → 32 → 16 → 16 features. Both first cut the edge array into its two
  rows and turn each row into a degree scaling (the count of each node among the row's entries, clamped below at one,
  to the power -1/2), and then apply, five times,

      layer h w b = max ( M ((h · w) scaled row by row by the source scaling) scaled row by row by the destination
                          scaling, plus b on every row, 0 )

  where M moves rows along the edges: row v of M y is the sum over the edges into v of the rows of y at their sources.

  The reference computes every step on the host. The kernel program keeps the edge rows, the scalings and M on the
  host, operation for operation as the reference has them, and computes the two dense steps of a layer — the scaled
  product before M and the closing step after it — in kernels over ten blocks of 5000 rows. Over the extended reals a
  change of float format is the identity and a matrix product on the matrix unit into zeros is the host's
  dot_general; a row of either dense step depends on the same row of its inputs only, so the ten blocks a kernel
  writes are the ten blocks of the whole-array step. Layer by layer the kernel program's buffers therefore hold what
  the reference's hold, and both results are the same network of the twelve arguments. No law of arithmetic is
  used beyond reading both sides entry by entry, so the inputs' finiteness is never opened.

  The frames are the generated ones (the reference's is its generated run with the result dropped); the idealization
  rewrote no operation, so the kernel and its idealization are one text.
-/
import proofs.«131837_j18528488915141_1_alg».proof.Defs
import proofs.«131837_j18528488915141_1_alg».proof.Proof.Gen.Kernel
import proofs.«131837_j18528488915141_1_alg».proof.Proof.Gen.Kernel.Skeleton
import proofs.«131837_j18528488915141_1_alg».proof.Proof.Gen.Kernel.Launch
import proofs.«131837_j18528488915141_1_alg».proof.Proof.Gen.Kernel.Points
import proofs.«131837_j18528488915141_1_alg».proof.Proof.Gen.Kernel.Frame
import proofs.«131837_j18528488915141_1_alg».proof.Proof.Gen.KernelIdeal
import proofs.«131837_j18528488915141_1_alg».proof.Proof.Gen.KernelIdeal.Skeleton
import proofs.«131837_j18528488915141_1_alg».proof.Proof.Gen.KernelIdeal.Launch
import proofs.«131837_j18528488915141_1_alg».proof.Proof.Gen.KernelIdeal.Points
import proofs.«131837_j18528488915141_1_alg».proof.Proof.Gen.KernelIdeal.Frame
import proofs.«131837_j18528488915141_1_alg».proof.Proof.Gen.ReferenceIdeal
import proofs.«131837_j18528488915141_1_alg».proof.Proof.Gen.ReferenceIdeal.Run
import proofs.«131837_j18528488915141_1_alg».proof.Proof.Gen.Pre_finite_inputs
import proofs.«131837_j18528488915141_1_alg».proof.Proof.KernelRun
import proofs.«131837_j18528488915141_1_alg».proof.Proof.Fold
import proofs.«131837_j18528488915141_1_alg».proof.Proof.RefNet
import Idealize.ShloMosaic.Adequacy
import Idealize.ShloMosaic.Init

noncomputable section

namespace Cert.Proof

open Idealize.ShloMosaic Idealize.SL.Sem Cert.Kernel

/-- The kernel program runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its generated run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the network of the arguments in their result buffers. -/
theorem algebraic : Cert.algebraic_KernelIdeal_ReferenceIdeal := by
  intro m ρ m' ρ' _ hagree
  refine ⟨fun c => Cert.RefSteps.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Fold.result_is_net m ρ c), (h c).2⟩)
      (Cert.KernelIdeal.Result.run m ρ)
  · refine (θ_run Cert.ReferenceIdeal.defs _ _).mono (fun _ h c => ⟨(h c).1.trans ?_, (h c).2⟩)
      (Cert.ReferenceIdeal.Value.run (F := Ideal) m' ρ')
    rw [Cert.RefSteps.result_is_net, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
